-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x256 : Shape := ⟨3, ![64, 4096, 256]⟩
abbrev S256x32 : Shape := ⟨2, ![256, 32]⟩
abbrev S32 : Shape := ⟨1, ![32]⟩
abbrev S32x256 : Shape := ⟨2, ![32, 256]⟩
abbrev S256 : Shape := ⟨1, ![256]⟩
abbrev S_ : Shape := ⟨0, ![]⟩

class Facts : Prop where
  bcast_S_S64x4096x256 : S_.BroadcastsInDim S64x4096x256 (![] : Fin 0 → Fin S64x4096x256.rank)
  reducesTo_S64x4096x256_S_d0_1_2 : S64x4096x256.ReducesTo [0, 1, 2] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S32x256 1) : IVec S_ 1 :=
  let main_c_5 : IVec S_ 1 := constantI S_ 1 1#1
  let main_v17 : IVec S_ 1 := (fun x v => Host.reduce IntOp.andi x v reducesTo_S32x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S64x4096x256 .f32) (main_arg1 : FVec F S256x32 .f32) (main_arg2 : FVec F S32 .f32) (main_arg3 : FVec F S32x256 .f32) (main_arg4 : FVec F S256 .f32) : IVec S_ 1 :=
  let main_v0 : FVec F S64x4096x256 .f32 := Host.absf main_arg0
  let main_cst : FVec F S_ .f32 := constant S_ .f32 0x7F800000#32
  let main_v1 : FVec F S64x4096x256 .f32 := broadcastInDim S64x4096x256 ![] bcast_S_S64x4096x256 main_cst
  let main_v2 : IVec S64x4096x256 1 := cmpf .olt main_v0 main_v1
  let main_c : IVec S_ 1 := constantI S_ 1 1#1
  let main_v3 : IVec S_ 1 := (fun x v => Host.reduce IntOp.andi x v reducesTo_S64x4096x256_S_d0_1_2 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x256 .f32 := Host.absf main_arg3
  let main_cst_4 : FVec F S_ .f32 := constant S_ .f32 0x7F800000#32
  let main_v15 : FVec F S32x256 .f32 := broadcastInDim S32x256 ![] bcast_S_S32x256 main_cst_4
  let main_v16 : IVec S32x256 1 := cmpf .olt main_v14 main_v15
  fn_part1 (F := F) main_arg4 main_v13 main_v16
-- ==== Kernel.lean ====
abbrev S64x4096x256 : Shape := ⟨3, ![64, 4096, 256]⟩
abbrev S256x32 : Shape := ⟨2, ![256, 32]⟩
abbrev S32 : Shape := ⟨1, ![32]⟩
abbrev S32x256 : Shape := ⟨2, ![32, 256]⟩
abbrev S256 : Shape := ⟨1, ![256]⟩
abbrev S1x32 : Shape := ⟨2, ![1, 32]⟩
abbrev S1x256 : Shape := ⟨2, ![1, 256]⟩
abbrev S64x256 : Shape := ⟨2, ![64, 256]⟩
abbrev S32x256x256 : Shape := ⟨3, ![32, 256, 256]⟩
abbrev S32x32 : Shape := ⟨2, ![32, 32]⟩
abbrev S64x128x256 : Shape := ⟨3, ![64, 128, 256]⟩
abbrev S64x1x256 : Shape := ⟨3, ![64, 1, 256]⟩

abbrev nBuf : Space → Nat
  | .hbm => 9
  | .vmem => 14
  | .smem => 0
  | _ => 0

abbrev bufTy : (tb : Table) → Fin (tcTables nBuf tb) → BufTy
  | .hbm, ⟨0, _⟩ => ⟨S64x4096x256, .f32⟩
  | .hbm, ⟨1, _⟩ => ⟨S256x32, .f32⟩
  | .hbm, ⟨2, _⟩ => ⟨S32, .f32⟩
  | .hbm, ⟨3, _⟩ => ⟨S32x256, .f32⟩
  | .hbm, ⟨4, _⟩ => ⟨S256, .f32⟩
  | .hbm, ⟨5, _⟩ => ⟨S1x32, .f32⟩
  | .hbm, ⟨6, _⟩ => ⟨S1x256, .f32⟩
  | .hbm, ⟨7, _⟩ => ⟨S64x256, .f32⟩
  | .hbm, ⟨8, _⟩ => ⟨S64x4096x256, .f32⟩
  | .local _ .vmem, ⟨0, _⟩ => ⟨S32x256x256, .f32⟩
  | .local _ .vmem, ⟨1, _⟩ => ⟨S32x256x256, .f32⟩
  | .local _ .vmem, ⟨2, _⟩ => ⟨S256x32, .f32⟩
  | .local _ .vmem, ⟨3, _⟩ => ⟨S1x32, .f32⟩
  | .local _ .vmem, ⟨4, _⟩ => ⟨S32x256, .f32⟩
  | .local _ .vmem, ⟨5, _⟩ => ⟨S1x256, .f32⟩
  | .local _ .vmem, ⟨6, _⟩ => ⟨S32x256, .f32⟩
  | .local _ .vmem, ⟨7, _⟩ => ⟨S32x256, .f32⟩
  | .local _ .vmem, ⟨8, _⟩ => ⟨S32x256, .f32⟩
  | .local _ .vmem, ⟨9, _⟩ => ⟨S64x128x256, .f32⟩
  | .local _ .vmem, ⟨10, _⟩ => ⟨S64x128x256, .f32⟩
  | .local _ .vmem, ⟨11, _⟩ => ⟨S64x256, .f32⟩
  | .local _ .vmem, ⟨12, _⟩ => ⟨S64x128x256, .f32⟩
  | .local _ .vmem, ⟨13, _⟩ => ⟨S64x128x256, .f32⟩
  | _, _ => ⟨S64x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v10 : BitVec 1 := Scalar.cmpi .eq arg1 c15_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S64x128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S32_S1x32 : S32.ShapeCasts S1x32
  shapeCasts_S256_S1x256 : S256.ShapeCasts S1x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x256x256_S32x256x256_0_0_0 : ∀ a, (![0, 0, 0] : Fin 3 → Nat) a + S32x256x256.size a ≤ S32x256x256.size a
  h_S32x256x256 : 0 < S32x256x256.numel
  reduces_S32x256x256_S32x256 : S32x256x256.Reduces [1] S32x256
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S32x32 : S1x32.Broadcasts S32x32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  inb_S64x128x256_S64x128x256_0_0_0 : ∀ a, (![0, 0, 0] : Fin 3 → Nat) a + S64x128x256.size a ≤ S64x128x256.size a
  h_S64x128x256 : 0 < S64x128x256.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S64x256_S64x1x256 : S64x256.ShapeCasts S64x1x256
  broadcasts_S64x1x256_S64x128x256 : S64x1x256.Broadcasts S64x128x256
  dot_S32x256_S256x32_S32x32_1_0_0_1_n_n_wf : DotDims.WF S32x256 S256x32 S32x32 [1] [0] [0] [1] [] []
  dot_S32x32_S32x256_S32x256_1_0_0_1_n_n_wf : DotDims.WF S32x32 S32x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x256.size a ≤ S64x4096x256.size a
  hwx0_0 : ∀ i : grid0.Coords, EltTy.bits .f32 = 32 ∨ (Rect.block (s := S64x4096x256) S32x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x256.size a
  hwx0_3 : ∀ i : grid0.Coords, EltTy.bits .f32 = 32 ∨ (Rect.block (s := S32x256) S32x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S64x256.size a
  hwx0_5 : ∀ i : grid0.Coords, EltTy.bits .f32 = 32 ∨ (Rect.block (s := S64x256) S32x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128x256.size a ≤ S64x4096x256.size a
  hwx1_0 : ∀ i : grid1.Coords, EltTy.bits .f32 = 32 ∨ (Rect.block (s := S64x4096x256) S64x128x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x256.size a
  hwx1_1 : ∀ i : grid1.Coords, EltTy.bits .f32 = 32 ∨ (Rect.block (s := S64x256) S64x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x128x256.size a ≤ S64x4096x256.size a
  hwx1_2 : ∀ i : grid1.Coords, EltTy.bits .f32 = 32 ∨ (Rect.block (s := S64x4096x256) S64x128x256.size (cc1_transform_2 i) (hinb1_2 i)).WholeWords (EltTy.packing .f32)

variable [Facts₀]

def dot_S32x256_S256x32_S32x32_1_0_0_1_n_n : DotDims S32x256 S256x32 S32x32 where
  lhsContracting := [1]
  rhsContracting := [0]
  lhsNonContracting := [0]
  rhsNonContracting := [1]
  lhsBatch := []
  rhsBatch := []
  wf := dot_S32x256_S256x32_S32x32_1_0_0_1_n_n_wf
def dot_S32x32_S32x256_S32x256_1_0_0_1_n_n : DotDims S32x32 S32x256 S32x256 where
  lhsContracting := [1]
  rhsContracting := [0]
  lhsNonContracting := [0]
  rhsNonContracting := [1]
  lhsBatch := []
  rhsBatch := []
  wf := dot_S32x32_S32x256_S32x256_1_0_0_1_n_n_wf

abbrev win0_0 : Pipeline.Window sig grid0 :=
  Pipeline.Window.ofSpec (Memref.whole main_arg0) S32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S32x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S64x128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S64x128x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x4096x256 : Shape := ⟨3, ![64, 4096, 256]⟩
abbrev S256x32 : Shape := ⟨2, ![256, 32]⟩
abbrev S32 : Shape := ⟨1, ![32]⟩
abbrev S32x256 : Shape := ⟨2, ![32, 256]⟩
abbrev S256 : Shape := ⟨1, ![256]⟩
abbrev S_ : Shape := ⟨0, ![]⟩
abbrev S64x256 : Shape := ⟨2, ![64, 256]⟩
abbrev S64x32 : Shape := ⟨2, ![64, 32]⟩
abbrev S1x32 : Shape := ⟨2, ![1, 32]⟩
abbrev S1x256 : Shape := ⟨2, ![1, 256]⟩
abbrev S64x1x256 : Shape := ⟨3, ![64, 1, 256]⟩

abbrev nBuf : Space → Nat
  | .hbm => 32
  | .vmem => 0
  | .smem => 0
  | _ => 0

abbrev bufTy : (tb : Table) → Fin (tcTables nBuf tb) → BufTy
  | .hbm, ⟨0, _⟩ => ⟨S64x4096x256, .f32⟩
  | .hbm, ⟨1, _⟩ => ⟨S256x32, .f32⟩
  | .hbm, ⟨2, _⟩ => ⟨S32, .f32⟩
  | .hbm, ⟨3, _⟩ => ⟨S32x256, .f32⟩
  | .hbm, ⟨4, _⟩ => ⟨S256, .f32⟩
  | .hbm, ⟨5, _⟩ => ⟨S_, .f32⟩
  | .hbm, ⟨6, _⟩ => ⟨S64x256, .f32⟩
  | .hbm, ⟨7, _⟩ => ⟨S_, .f32⟩
  | .hbm, ⟨8, _⟩ => ⟨S64x256, .f32⟩
  | .hbm, ⟨9, _⟩ => ⟨S64x256, .f32⟩
  | .hbm, ⟨10, _⟩ => ⟨S64x32, .f32⟩
  | .hbm, ⟨11, _⟩ => ⟨S1x32, .f32⟩
  | .hbm, ⟨12, _⟩ => ⟨S64x32, .f32⟩
  | .hbm, ⟨13, _⟩ => ⟨S64x32, .f32⟩
  | .hbm, ⟨14, _⟩ => ⟨S_, .f32⟩
  | .hbm, ⟨15, _⟩ => ⟨S64x32, .f32⟩
  | .hbm, ⟨16, _⟩ => ⟨S64x32, .f32⟩
  | .hbm, ⟨17, _⟩ => ⟨S64x256, .f32⟩
  | .hbm, ⟨18, _⟩ => ⟨S1x256, .f32⟩
  | .hbm, ⟨19, _⟩ => ⟨S64x256, .f32⟩
  | .hbm, ⟨20, _⟩ => ⟨S64x256, .f32⟩
  | .hbm, ⟨21, _⟩ => ⟨S64x256, .f32⟩
  | .hbm, ⟨22, _⟩ => ⟨S64x256, .f32⟩
  | .hbm, ⟨23, _⟩ => ⟨S_, .f32⟩
  | .hbm, ⟨24, _⟩ => ⟨S64x256, .f32⟩
  | .hbm, ⟨25, _⟩ => ⟨S64x256, .f32⟩
  | .hbm, ⟨26, _⟩ => ⟨S_, .f32⟩
  | .hbm, ⟨27, _⟩ => ⟨S64x256, .f32⟩
  | .hbm, ⟨28, _⟩ => ⟨S64x256, .f32⟩
  | .hbm, ⟨29, _⟩ => ⟨S64x1x256, .f32⟩
  | .hbm, ⟨30, _⟩ => ⟨S64x4096x256, .f32⟩
  | .hbm, ⟨31, _⟩ => ⟨S64x4096x256, .f32⟩
  | _, _ => ⟨S64x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S64x4096x256_S64x256_d1 : S64x4096x256.ReducesTo [1] S64x256
  h_S_ : 0 < S_.numel
  bcast_S_S64x256 : S_.BroadcastsInDim S64x256 (![] : Fin 0 → Fin S64x256.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S64x256_S64x1x256_0_2 : S64x256.BroadcastsInDim S64x1x256 (![0, 2] : Fin 2 → Fin S64x1x256.rank)
  bcast_S64x1x256_S64x4096x256_0_1_2 : S64x1x256.BroadcastsInDim S64x4096x256 (![0, 1, 2] : Fin 3 → Fin S64x4096x256.rank)
  dot_S64x256_S256x32_S64x32_1_0_0_1_n_n_wf : DotDims.WF S64x256 S256x32 S64x32 [1] [0] [0] [1] [] []
  dot_S64x32_S32x256_S64x256_1_0_0_1_n_n_wf : DotDims.WF S64x32 S32x256 S64x256 [1] [0] [0] [1] [] []

variable [Facts₀]

def dot_S64x256_S256x32_S64x32_1_0_0_1_n_n : DotDims S64x256 S256x32 S64x32 where
  lhsContracting := [1]
  rhsContracting := [0]
  lhsNonContracting := [0]
  rhsNonContracting := [1]
  lhsBatch := []
  rhsBatch := []
  wf := dot_S64x256_S256x32_S64x32_1_0_0_1_n_n_wf
def dot_S64x32_S32x256_S64x256_1_0_0_1_n_n : DotDims S64x32 S32x256 S64x256 where
  lhsContracting := [1]
  rhsContracting := [0]
  lhsNonContracting := [0]
  rhsNonContracting := [1]
  lhsBatch := []
  rhsBatch := []
  wf := dot_S64x32_S32x256_S64x256_1_0_0_1_n_n_wf

class Facts : Prop extends Facts₀ where

variable [Facts]
-- ==== Proof.PoolRuns.lean ====
/-
  The first pallas_call — pooling and the gate — run case by case, at any float instance.

  Its grid is 2 × 16: the first coordinate picks a shard of 32 batch rows, the second walks the sequence axis
  in sixteen tiles of 256 positions. The body keeps a running sum [32, 256] in a scratch buffer that the
  pipeline does not stage, so what a point leaves there is what the next point finds. Three cases:
  * the FIRST tile of a shard (second coordinate 0): the scratch is zeroed, read back, and the tile's sum over
    its 256 positions is added and stored;
  * a MIDDLE tile: the scratch is read, the tile's sum added, the result stored;
  * the LAST tile (second coordinate 15): as a middle tile, and then the accumulated sum is read back, scaled
    to the mean, sent through the two small dense layers and the logistic function, and the gate block
    [32, 256] is stored whole in the result's staging buffer.
  For each case: what the stores leave, as the list of stored pieces (last first), with the proof that the
  body runs to its return from the buffers it touches held whole.
-/
import proofs.«167597_j27084063768970_2_alg».proof.Proof.Gen.KernelIdeal.Launch
import proofs.«167597_j27084063768970_2_alg».proof.Proof.Gen.KernelIdeal.Skeleton
import proofs.«167597_j27084063768970_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- "This is the first tile of its shard": the body's test of its second coordinate against 0. -/
abbrev isFirst (i : grid0.Coords) : Prop := (Scalar.cmpi .ne (Scalar.extui (Scalar.cmpi .eq (BitVec.ofNat 32 (i 1).val) 0#32)) 0#32) = 1#1
/-- "This is the last tile of its shard": the body's test of its second coordinate against 15. -/
abbrev isLast (i : grid0.Coords) : Prop := k0_cond2 i = 1#1

/-- Point `t` (row-major in the 2 × 16 grid) is a first tile exactly when t ≡ 0 (mod 16). -/
theorem isFirst_iff : ∀ t : Fin cfg0.N, isFirst (grid0.coords t) ↔ t.val % 16 = 0 :=
  (by decide +kernel : ∀ t : Fin grid0.N, isFirst (grid0.coords t) ↔ t.val % 16 = 0)
/-- Point `t` is a last tile exactly when t ≡ 15 (mod 16). -/
theorem isLast_iff : ∀ t : Fin cfg0.N, isLast (grid0.coords t) ↔ t.val % 16 = 15 :=
  (by decide +kernel : ∀ t : Fin grid0.N, isLast (grid0.coords t) ↔ t.val % 16 = 15)

/-! ## The three runs -/

set_option maxHeartbeats 1000000 in
/-- FIRST TILE. From the activation block's buffer at `x0` and the scratch at anything, the body returns
    with the activation block as it was and the scratch with the witness pieces written. -/
noncomputable def runFirst (c : Dev nD) (i : grid0.Coords) (arg2 : Memref sig .tc .vmem S32x256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S32x256 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S32x256 .f32) (harg8 : arg8.IsWhole)
    (hF : isFirst i) (hL : ¬isLast i) (x0 : Vec F S32x256x256 .f32) :
    { L8 : List (View.Piece (Elt F) S32x256 .f32) //
      ∀ (E : Set ℕ) (K : PUnit → sProp 𝕄),
        iprop(owns (c : Thread nD τ) arg2 fullShare x0 ∗ (∃ d, owns (c : Thread nD τ) arg8 fullShare d)
            ∗ (iprop(owns (c : Thread nD τ) arg2 fullShare x0 ∗ (∃ f, arg8.view.loc (c : Thread nD τ) ↦[arg8.view.set]{fullShare} arg8.view.writes (Elt F) f L8)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, fun E K => ?run⟩
  case run =>
    simp only [cc0_kernel_eq_skeleton]; unfold cc0_kernel_skel
    unfold owns
    iintro ⟨⟨%f2, %hf2, H2⟩, ⟨%d8, %f8, -, H8⟩, Hk⟩
    obtain rfl := harg2.eq_unread hf2
    sl_exec (disch := first | exact hF | exact hL)
    sl_step
    iapply Hk
    isplitl [H2]
    · iexists _; isplitr; · ipureintro; exact harg2.read_unread _
      iexact H2
    iexists _; iexact H8

set_option maxHeartbeats 1000000 in
/-- MIDDLE TILE. From the activation block's buffer at `x0` and the scratch at the running sum `s`. -/
noncomputable def runMiddle (c : Dev nD) (i : grid0.Coords) (arg2 : Memref sig .tc .vmem S32x256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S32x256 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S32x256 .f32) (harg8 : arg8.IsWhole)
    (hF : ¬isFirst i) (hL : ¬isLast i) (x0 : Vec F S32x256x256 .f32) (s : Vec F S32x256 .f32) :
    { L8 : List (View.Piece (Elt F) S32x256 .f32) //
      ∀ (E : Set ℕ) (K : PUnit → sProp 𝕄),
        iprop(owns (c : Thread nD τ) arg2 fullShare x0 ∗ owns (c : Thread nD τ) arg8 fullShare s
            ∗ (iprop(owns (c : Thread nD τ) arg2 fullShare x0 ∗ (∃ f, arg8.view.loc (c : Thread nD τ) ↦[arg8.view.set]{fullShare} arg8.view.writes (Elt F) f L8)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, fun E K => ?run⟩
  case run =>
    simp only [cc0_kernel_eq_skeleton]; unfold cc0_kernel_skel
    unfold owns
    iintro ⟨⟨%f2, %hf2, H2⟩, ⟨%f8, %hf8, H8⟩, Hk⟩
    obtain rfl := harg2.eq_unread hf2; obtain rfl := harg8.eq_unread hf8
    sl_exec (disch := first | exact hF | exact hL)
    sl_step
    iapply Hk
    isplitl [H2]
    · iexists _; isplitr; · ipureintro; exact harg2.read_unread _
      iexact H2
    iexists _; iexact H8

set_option maxHeartbeats 2000000 in
/-- LAST TILE. From every input block's buffer at its contents, the scratch at the running sum `s` and the
    result's buffer at anything: the inputs as they were, the result's buffer and the scratch with their
    witness pieces written. -/
noncomputable def runLast (c : Dev nD) (i : grid0.Coords) (arg2 : Memref sig .tc .vmem S32x256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S32x256 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S32x256 .f32) (harg8 : arg8.IsWhole)
    (hF : ¬isFirst i) (hL : isLast i) (x0 : Vec F S32x256x256 .f32) (x1 : Vec F S256x32 .f32) (x2 : Vec F S1x32 .f32)
    (x3 : Vec F S32x256 .f32) (x4 : Vec F S1x256 .f32) (s : Vec F S32x256 .f32) :
    { L : List (View.Piece (Elt F) S32x256 .f32) × List (View.Piece (Elt F) S32x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ owns (c : Thread nD τ) arg8 fullShare s
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L.1)
                ∗ (∃ f, arg8.view.loc (c : Thread nD τ) ↦[arg8.view.set]{fullShare} arg8.view.writes (Elt F) f L.2)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨(?_, ?_), fun E K => ?run⟩
  case run =>
    simp only [cc0_kernel_eq_skeleton]; unfold cc0_kernel_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg2.eq_unread hf2; obtain rfl := harg3.eq_unread hf3; obtain rfl := harg4.eq_unread hf4
    obtain rfl := harg5.eq_unread hf5; obtain rfl := harg6.eq_unread hf6; obtain rfl := harg8.eq_unread hf8
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    iexists _; iexact H8

end Cert.KernelIdeal.Fr

end
-- ==== Proof.PoolRegion.lean ====
/-
  The first pallas_call as one region of the program, at any float instance: what each window's staging
  buffer and the scratch hold point by point, and the body's obligation to the pipeline.

  The five input windows (the activation tile, the two weight matrices, the two bias rows) are only read,
  so their buffers hold their blocks at every point. The SCRATCH holds the running sum: after point n it is
  what the case of n leaves (`accN`) — the first tile of a shard starts it afresh, every other tile adds
  to what the point before left. The scratch is no window of the pipeline, so it travels in the region's
  invariant: before point t (t > 0) the scratch holds `accN (t − 1)`; before point 0 it holds anything.
  The RESULT's staging buffer is stored only at the last tile of a shard (points 15 and 31), which are also
  the two points that write it back; at every other point the body leaves it as it found it.
-/
import proofs.«167597_j27084063768970_2_alg».proof.Proof.PoolRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the pipeline stages -/

/-- Window `w`'s block at point `t`, read off its array as the region finds it. -/
def pblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's staging buffer holds its block whenever the body runs (fetched there, or its block
    index has not moved since it was), for any proof data over `V` whose body leaves the block in place. -/
theorem pfound_0 {c : Dev nD} (dat : Dat τ (Elt F) Unit ℕ (UR sig nD τ) ℕ cfg0 c) (hA : dat.A 0 = V c (Pipeline.arrRef spec0 0))
    (hafter : ∀ t, dat.after 0 t = pblk V c 0 t) (t : Fin cfg0.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)
theorem pfound_1 {c : Dev nD} (dat : Dat τ (Elt F) Unit ℕ (UR sig nD τ) ℕ cfg0 c) (hA : dat.A 1 = V c (Pipeline.arrRef spec0 1))
    (hafter : ∀ t, dat.after 1 t = pblk V c 1 t) (t : Fin cfg0.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)
theorem pfound_2 {c : Dev nD} (dat : Dat τ (Elt F) Unit ℕ (UR sig nD τ) ℕ cfg0 c) (hA : dat.A 2 = V c (Pipeline.arrRef spec0 2))
    (hafter : ∀ t, dat.after 2 t = pblk V c 2 t) (t : Fin cfg0.N) (d) : dat.before 2 t d = pblk V c 2 t :=
  (dat.before_in_eq_fetched 2 rfl (fun _ => rfl) (fun _ _ _ => rfl) (fun t => by rw [hafter]; unfold Dat.blockOf pblk; rw [hA]; try rfl) t d).trans
    (by unfold Dat.fetched Dat.blockOf pblk; rw [hA]; try rfl)
theorem pfound_3 {c : Dev nD} (dat : Dat τ (Elt F) Unit ℕ (UR sig nD τ) ℕ cfg0 c) (hA : dat.A 3 = V c (Pipeline.arrRef spec0 3))
    (hafter : ∀ t, dat.after 3 t = pblk V c 3 t) (t : Fin cfg0.N) (d) : dat.before 3 t d = pblk V c 3 t :=
  (dat.before_in_eq_fetched 3 rfl (fun _ => rfl) (fun _ _ _ => rfl) (fun t => by rw [hafter]; unfold Dat.blockOf pblk; rw [hA]; try rfl) t d).trans
    (by unfold Dat.fetched Dat.blockOf pblk; rw [hA]; try rfl)
theorem pfound_4 {c : Dev nD} (dat : Dat τ (Elt F) Unit ℕ (UR sig nD τ) ℕ cfg0 c) (hA : dat.A 4 = V c (Pipeline.arrRef spec0 4))
    (hafter : ∀ t, dat.after 4 t = pblk V c 4 t) (t : Fin cfg0.N) (d) : dat.before 4 t d = pblk V c 4 t :=
  (dat.before_in_eq_fetched 4 rfl (fun _ => rfl) (fun _ _ _ => rfl) (fun t => by rw [hafter]; unfold Dat.blockOf pblk; rw [hA]; try rfl) t d).trans
    (by unfold Dat.fetched Dat.blockOf pblk; rw [hA]; try rfl)

/-! ## The memrefs the body is called with -/

abbrev pm_0 (t : Fin cfg0.N) : Memref sig .tc .vmem S32x256x256 .f32 := win0_0.stage (cfg0.slots t 0)
abbrev ph_0 (t : Fin cfg0.N) : (pm_0 t).IsWhole := hstage0_0 ((cfg0.slots t 0).cast nbuf0_0)
abbrev pm_1 (t : Fin cfg0.N) : Memref sig .tc .vmem S256x32 .f32 := win0_1.stage (cfg0.slots t 1)
abbrev ph_1 (t : Fin cfg0.N) : (pm_1 t).IsWhole := hstage0_1 ((cfg0.slots t 1).cast nbuf0_1)
abbrev pm_2 (t : Fin cfg0.N) : Memref sig .tc .vmem S1x32 .f32 := win0_2.stage (cfg0.slots t 2)
abbrev ph_2 (t : Fin cfg0.N) : (pm_2 t).IsWhole := hstage0_2 ((cfg0.slots t 2).cast nbuf0_2)
abbrev pm_3 (t : Fin cfg0.N) : Memref sig .tc .vmem S32x256 .f32 := win0_3.stage (cfg0.slots t 3)
abbrev ph_3 (t : Fin cfg0.N) : (pm_3 t).IsWhole := hstage0_3 ((cfg0.slots t 3).cast nbuf0_3)
abbrev pm_4 (t : Fin cfg0.N) : Memref sig .tc .vmem S1x256 .f32 := win0_4.stage (cfg0.slots t 4)
abbrev ph_4 (t : Fin cfg0.N) : (pm_4 t).IsWhole := hstage0_4 ((cfg0.slots t 4).cast nbuf0_4)
abbrev pm_5 (t : Fin cfg0.N) : Memref sig .tc .vmem S32x256 .f32 := win0_5.stage (cfg0.slots t 5)
abbrev ph_5 (t : Fin cfg0.N) : (pm_5 t).IsWhole := hstage0_5 ((cfg0.slots t 5).cast nbuf0_5)

/-- The scratch operand: one whole VMEM buffer, the same at every point. -/
abbrev pmS : Memref sig .tc .vmem S32x256 .f32 := Memref.whole cc0_scratch0
abbrev phS : pmS.IsWhole := Memref.isWhole_whole _

/-- One view of each shape through which stored pieces are read back (which one does not matter once the pieces cover). -/
abbrev VS : View sig .tc .vmem S32x256 .f32 := (Memref.whole cc0_scratch0 : Memref sig .tc .vmem S32x256 .f32).view
abbrev VO : View sig .tc .vmem S32x256 .f32 := (Memref.whole cc0_stg5_0 : Memref sig .tc .vmem S32x256 .f32).view

/-! ## The stored pieces cover their buffers -/

theorem cover_first (c : Dev nD) (i : grid0.Coords) (arg2 : Memref sig .tc .vmem S32x256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S32x256 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S32x256 .f32) (harg8 : arg8.IsWhole)
    (hF : isFirst i) (hL : ¬isLast i) (x0 : Vec F S32x256x256 .f32) (y : S32x256.Idx) :
    ∃ pc ∈ (runFirst c i arg2 harg2 arg3 harg3 arg4 harg4 arg5 harg5 arg6 harg6 arg7 harg7 arg8 harg8 hF hL x0).1, y ∈ pc.1.set :=
  View.cover_of_tiledL (runFirst c i arg2 harg2 arg3 harg3 arg4 harg4 arg5 harg5 arg6 harg6 arg7 harg7 arg8 harg8 hF hL x0).1 S32x256.size (by sl_kernel_rfl) y

theorem cover_middle (c : Dev nD) (i : grid0.Coords) (arg2 : Memref sig .tc .vmem S32x256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S32x256 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S32x256 .f32) (harg8 : arg8.IsWhole)
    (hF : ¬isFirst i) (hL : ¬isLast i) (x0 : Vec F S32x256x256 .f32) (s : Vec F S32x256 .f32) (y : S32x256.Idx) :
    ∃ pc ∈ (runMiddle c i arg2 harg2 arg3 harg3 arg4 harg4 arg5 harg5 arg6 harg6 arg7 harg7 arg8 harg8 hF hL x0 s).1, y ∈ pc.1.set :=
  View.cover_of_tiledL (runMiddle c i arg2 harg2 arg3 harg3 arg4 harg4 arg5 harg5 arg6 harg6 arg7 harg7 arg8 harg8 hF hL x0 s).1 S32x256.size (by sl_kernel_rfl) y

theorem cover_last_out (c : Dev nD) (i : grid0.Coords) (arg2 : Memref sig .tc .vmem S32x256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S32x256 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S32x256 .f32) (harg8 : arg8.IsWhole)
    (hF : ¬isFirst i) (hL : isLast i) (x0 : Vec F S32x256x256 .f32) (x1 : Vec F S256x32 .f32) (x2 : Vec F S1x32 .f32)
    (x3 : Vec F S32x256 .f32) (x4 : Vec F S1x256 .f32) (s : Vec F S32x256 .f32) (y : S32x256.Idx) :
    ∃ pc ∈ (runLast c i arg2 harg2 arg3 harg3 arg4 harg4 arg5 harg5 arg6 harg6 arg7 harg7 arg8 harg8 hF hL x0 x1 x2 x3 x4 s).1.1, y ∈ pc.1.set :=
  View.cover_of_tiledL (runLast c i arg2 harg2 arg3 harg3 arg4 harg4 arg5 harg5 arg6 harg6 arg7 harg7 arg8 harg8 hF hL x0 x1 x2 x3 x4 s).1.1 S32x256.size (by sl_kernel_rfl) y

theorem cover_last_scr (c : Dev nD) (i : grid0.Coords) (arg2 : Memref sig .tc .vmem S32x256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S32x256 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S32x256 .f32) (harg8 : arg8.IsWhole)
    (hF : ¬isFirst i) (hL : isLast i) (x0 : Vec F S32x256x256 .f32) (x1 : Vec F S256x32 .f32) (x2 : Vec F S1x32 .f32)
    (x3 : Vec F S32x256 .f32) (x4 : Vec F S1x256 .f32) (s : Vec F S32x256 .f32) (y : S32x256.Idx) :
    ∃ pc ∈ (runLast c i arg2 harg2 arg3 harg3 arg4 harg4 arg5 harg5 arg6 harg6 arg7 harg7 arg8 harg8 hF hL x0 x1 x2 x3 x4 s).1.2, y ∈ pc.1.set :=
  View.cover_of_tiledL (runLast c i arg2 harg2 arg3 harg3 arg4 harg4 arg5 harg5 arg6 harg6 arg7 harg7 arg8 harg8 hF hL x0 x1 x2 x3 x4 s).1.2 S32x256.size (by sl_kernel_rfl) y

/-! ## What each case leaves, at a point -/

/-- The scratch after a first tile. -/
def scrFirst (c : Dev nD) (t : Fin cfg0.N) (hF : t.val % 16 = 0) : Vec F S32x256 .f32 :=
  VS.read (Elt F) (VS.writes (Elt F) VS.junk (runFirst c (grid0.coords t) (pm_0 t) (ph_0 t) (pm_1 t) (ph_1 t) (pm_2 t) (ph_2 t) (pm_3 t) (ph_3 t) (pm_4 t) (ph_4 t) (pm_5 t) (ph_5 t) pmS phS
    ((isFirst_iff t).mpr hF) (fun h => absurd ((isLast_iff t).mp h) (by omega)) (pblk V c 0 t)).1)

/-- The scratch after a middle tile, over the running sum `s` it found. -/
def scrMiddle (c : Dev nD) (t : Fin cfg0.N) (hF : ¬t.val % 16 = 0) (hL : ¬t.val % 16 = 15) (s : Vec F S32x256 .f32) : Vec F S32x256 .f32 :=
  VS.read (Elt F) (VS.writes (Elt F) VS.junk (runMiddle c (grid0.coords t) (pm_0 t) (ph_0 t) (pm_1 t) (ph_1 t) (pm_2 t) (ph_2 t) (pm_3 t) (ph_3 t) (pm_4 t) (ph_4 t) (pm_5 t) (ph_5 t) pmS phS
    (fun h => hF ((isFirst_iff t).mp h)) (fun h => hL ((isLast_iff t).mp h)) (pblk V c 0 t) s).1)

/-- The last tile's run at point `t`, over the running sum `s` it found. -/
def lastRun (c : Dev nD) (t : Fin cfg0.N) (hL : t.val % 16 = 15) (s : Vec F S32x256 .f32) :=
  runLast (F := F) c (grid0.coords t) (pm_0 t) (ph_0 t) (pm_1 t) (ph_1 t) (pm_2 t) (ph_2 t) (pm_3 t) (ph_3 t) (pm_4 t) (ph_4 t) (pm_5 t) (ph_5 t) pmS phS
    (fun h => absurd ((isFirst_iff t).mp h) (by omega)) ((isLast_iff t).mpr hL)
    (pblk V c 0 t) (pblk V c 1 t) (pblk V c 2 t) (pblk V c 3 t) (pblk V c 4 t) s

/-- The scratch after a last tile. -/
def scrLast (c : Dev nD) (t : Fin cfg0.N) (hL : t.val % 16 = 15) (s : Vec F S32x256 .f32) : Vec F S32x256 .f32 :=
  VS.read (Elt F) (VS.writes (Elt F) VS.junk (lastRun V c t hL s).1.2)

/-- The result's staging buffer after a last tile: the gate block of the shard. -/
def outLast (c : Dev nD) (t : Fin cfg0.N) (hL : t.val % 16 = 15) (s : Vec F S32x256 .f32) : Vec F S32x256 .f32 :=
  VO.read (Elt F) (VO.writes (Elt F) VO.junk (lastRun V c t hL s).1.1)

/-- THE RUNNING SUM: what the scratch holds after the body at position `n` of the grid. -/
def accN (c : Dev nD) : ℕ → Vec F S32x256 .f32
  | 0 => if hn : 0 < cfg0.N then scrFirst V c ⟨0, hn⟩ (Nat.zero_mod _) else k0_pay1
  | n + 1 =>
    if hn : n + 1 < cfg0.N then
      if hF : (n + 1) % 16 = 0 then scrFirst V c ⟨n + 1, hn⟩ hF
      else if hL : (n + 1) % 16 = 15 then scrLast V c ⟨n + 1, hn⟩ hL (accN c n)
      else scrMiddle V c ⟨n + 1, hn⟩ hF hL (accN c n)
    else k0_pay1

theorem accN_first (c : Dev nD) (t : Fin cfg0.N) (hF : t.val % 16 = 0) : accN V c t.val = scrFirst V c t hF := by
  obtain ⟨n, hn⟩ := t
  cases n with
  | zero => exact dif_pos hn
  | succ n => exact (dif_pos hn).trans (dif_pos hF)

theorem accN_middle (c : Dev nD) (t : Fin cfg0.N) (hF : ¬t.val % 16 = 0) (hL : ¬t.val % 16 = 15) :
    accN V c t.val = scrMiddle V c t hF hL (accN V c (t.val - 1)) := by
  obtain ⟨n, hn⟩ := t
  cases n with
  | zero => exact absurd (Nat.zero_mod _) hF
  | succ n => exact (dif_pos hn).trans ((dif_neg hF).trans (dif_neg hL))

theorem accN_last (c : Dev nD) (t : Fin cfg0.N) (hL : t.val % 16 = 15) :
    accN V c t.val = scrLast V c t hL (accN V c (t.val - 1)) := by
  obtain ⟨n, hn⟩ := t
  cases n with
  | zero => exact absurd (show (0 : ℕ) % 16 = 15 from hL) (by decide)
  | succ n =>
    have hL' : (n + 1) % 16 = 15 := hL
    exact (dif_pos hn).trans ((dif_neg (fun h : (n + 1) % 16 = 0 => by omega)).trans (dif_pos hL'))

/-- What the result's staging buffer holds after the body at position `n`, where that matters: at a last tile
    the gate block (elsewhere the body does not store into it, and nothing reads this value). -/
def outN (c : Dev nD) (n : ℕ) : Vec F S32x256 .f32 :=
  if hn : n < cfg0.N then
    if hL : n % 16 = 15 then outLast V c ⟨n, hn⟩ hL (accN V c (n - 1)) else k0_pay1
  else k0_pay1

theorem outN_last (c : Dev nD) (t : Fin cfg0.N) (hL : t.val % 16 = 15) :
    outN V c t.val = outLast V c t hL (accN V c (t.val - 1)) := by
  unfold outN; rw [dif_pos t.isLt, dif_pos hL]

/-! ## The invariant that carries the scratch -/

/-- The core's other scoped buffers that this call does not stage: the second call's staging buffers, each at
    some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The scoped rest of this call is its scratch and those. -/
theorem rest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others c) :=
  scopedRest0_eq c

/-- Before point `t`: the scratch at the running sum the point before left (at anything before point 0), the
    other scoped buffers untouched, the generator register at some state. -/
def poolInv (c : Dev nD) (t : Fin (cfg0.N + 1)) : sProp 𝕄 :=
  iprop((∃ g : Vec F S32x256 .f32, ⌜t.val ≠ 0 → g = accN V c (t.val - 1)⌝ ∗ owns (c : Thread nD τ) pmS fullShare g)
    ∗ others c ∗ ∃ r, prngReg c r)

/-! ## The proof data -/

def pdat (c : Dev nD) : Dat τ (Elt F) Unit ℕ (UR sig nD τ) ℕ cfg0 c where
  A w := V c (Pipeline.arrRef spec0 w)
  after w t := match w with
    | ⟨0, _⟩ => pblk V c 0 t
    | ⟨1, _⟩ => pblk V c 1 t
    | ⟨2, _⟩ => pblk V c 2 t
    | ⟨3, _⟩ => pblk V c 3 t
    | ⟨4, _⟩ => pblk V c 4 t
    | ⟨5, _⟩ => outN V c t.val
  Φ t := poolInv V c t
  q _ := fullShare
  owed _ := 0

theorem pdat_A (c : Dev nD) (w : Fin cfg0.W) : (pdat V c).A w = V c (Pipeline.arrRef spec0 w) := by
  dsimp only [pdat]
theorem pdat_after_0 (c : Dev nD) (t : Fin cfg0.N) : (pdat V c).after 0 t = pblk V c 0 t := by dsimp only [pdat]
theorem pdat_after_1 (c : Dev nD) (t : Fin cfg0.N) : (pdat V c).after 1 t = pblk V c 1 t := by dsimp only [pdat]
theorem pdat_after_2 (c : Dev nD) (t : Fin cfg0.N) : (pdat V c).after 2 t = pblk V c 2 t := by dsimp only [pdat]
theorem pdat_after_3 (c : Dev nD) (t : Fin cfg0.N) : (pdat V c).after 3 t = pblk V c 3 t := by dsimp only [pdat]
theorem pdat_after_4 (c : Dev nD) (t : Fin cfg0.N) : (pdat V c).after 4 t = pblk V c 4 t := by dsimp only [pdat]
theorem pdat_after_5 (c : Dev nD) (t : Fin cfg0.N) : (pdat V c).after 5 t = outN V c t.val := by dsimp only [pdat]
theorem pdat_inv (c : Dev nD) (t : Fin (cfg0.N + 1)) : (pdat V c).Φ t = poolInv V c t := by dsimp only [pdat]
theorem pdat_before_0 (c : Dev nD) (t : Fin cfg0.N) (d) : (pdat V c).before 0 t d = pblk V c 0 t :=
  pfound_0 V (pdat V c) (pdat_A V c 0) (pdat_after_0 V c) t d
theorem pdat_before_1 (c : Dev nD) (t : Fin cfg0.N) (d) : (pdat V c).before 1 t d = pblk V c 1 t :=
  pfound_1 V (pdat V c) (pdat_A V c 1) (pdat_after_1 V c) t d
theorem pdat_before_2 (c : Dev nD) (t : Fin cfg0.N) (d) : (pdat V c).before 2 t d = pblk V c 2 t :=
  pfound_2 V (pdat V c) (pdat_A V c 2) (pdat_after_2 V c) t d
theorem pdat_before_3 (c : Dev nD) (t : Fin cfg0.N) (d) : (pdat V c).before 3 t d = pblk V c 3 t :=
  pfound_3 V (pdat V c) (pdat_A V c 3) (pdat_after_3 V c) t d
theorem pdat_before_4 (c : Dev nD) (t : Fin cfg0.N) (d) : (pdat V c).before 4 t d = pblk V c 4 t :=
  pfound_4 V (pdat V c) (pdat_A V c 4) (pdat_after_4 V c) t d

end Cert.KernelIdeal.Fr

end
-- ==== Proof.PoolBody.lean ====
/-
  The body obligation of the first pallas_call: at every point of its grid, from the invariant (the scratch at
  the running sum the point before left), the core's dues and every window's staging buffer at what it then
  holds, the body runs to the invariant at the next point and every buffer at what the proof data say.
  The point's position modulo 16 selects the case: 0 — a first tile; 15 — a last tile, the only one that
  stores the result's buffer (and the only one that writes it back); anything else — a middle tile. At the
  points that are not last tiles the result's buffer is handed back as it was found.
-/
import proofs.«167597_j27084063768970_2_alg».proof.Proof.PoolRegion

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the result's window is idle -/

theorem idle5_last (t : Fin cfg0.N) (hL : t.val % 16 = 15) : cfg0.idle (5 : Fin 6) (cfg0.grid.coords t) = false := by
  have h : k0_cond2 (grid0.coords t) = 1#1 := (isLast_iff t).mpr hL
  show (!(k0_cond2 (grid0.coords t) == 1#1)) = false
  rw [h]; rfl

theorem idle5_other (t : Fin cfg0.N) (hL : ¬t.val % 16 = 15) : cfg0.idle (5 : Fin 6) (cfg0.grid.coords t) = true := by
  have h : ¬k0_cond2 (grid0.coords t) = 1#1 := fun h => hL ((isLast_iff t).mp h)
  show (!(k0_cond2 (grid0.coords t) == 1#1)) = true
  rw [Bool.not_eq_true', beq_eq_false_iff_ne]; exact h

theorem flush5_other (t : Fin cfg0.N) (hL : ¬t.val % 16 = 15) : (cfg0.win 5).flush t = false :=
  Bool.eq_false_iff.mpr fun h => hL ((flush0_5 t).mp h)

/-- What the obligation says of the result's staging buffer after the body at point `t`. -/
def leaves5 (c : Dev nD) (t : Fin cfg0.N) : sProp 𝕄 :=
  match cfg0.idle (5 : Fin 6) (cfg0.grid.coords t) with
  | true =>
    match (cfg0.win 5).flush t with
    | false => iprop(∃ d, owns (c : Thread nD τ) (st0_5 t) fullShare ((pdat V c).before 5 t d))
    | true => owns (c : Thread nD τ) (st0_5 t) fullShare ((pdat V c).after 5 t)
  | false => owns (c : Thread nD τ) (st0_5 t) fullShare ((pdat V c).after 5 t)

theorem leaves5_last (c : Dev nD) (t : Fin cfg0.N) (hL : t.val % 16 = 15) :
    leaves5 V c t = owns (c : Thread nD τ) (st0_5 t) fullShare ((pdat V c).after 5 t) := by
  unfold leaves5; rw [idle5_last t hL]

theorem leaves5_other (c : Dev nD) (t : Fin cfg0.N) (hL : ¬t.val % 16 = 15) :
    leaves5 V c t = iprop(∃ d, owns (c : Thread nD τ) (st0_5 t) fullShare ((pdat V c).before 5 t d)) := by
  unfold leaves5; rw [idle5_other t hL, flush5_other t hL]

/-! ## The obligation at a point -/

/-- What the body is called with at point `t`, -/
def pPre (c : Dev nD) (t : Fin cfg0.N) : sProp 𝕄 :=
  iprop((pdat V c).Φ t.castSucc ∗ (pdat V c).owesAt () t.castSucc
    ∗ (∃ d, owns (c : Thread nD τ) (st0_0 t) fullShare ((pdat V c).before 0 t d))
    ∗ (∃ d, owns (c : Thread nD τ) (st0_1 t) fullShare ((pdat V c).before 1 t d))
    ∗ (∃ d, owns (c : Thread nD τ) (st0_2 t) fullShare ((pdat V c).before 2 t d))
    ∗ (∃ d, owns (c : Thread nD τ) (st0_3 t) fullShare ((pdat V c).before 3 t d))
    ∗ (∃ d, owns (c : Thread nD τ) (st0_4 t) fullShare ((pdat V c).before 4 t d))
    ∗ (∃ d, owns (c : Thread nD τ) (st0_5 t) fullShare ((pdat V c).before 5 t d)))

/-- and what it returns. -/
def pPost (c : Dev nD) (t : Fin cfg0.N) : sProp 𝕄 :=
  iprop((pdat V c).Φ t.succ ∗ (pdat V c).owesAt () t.succ
    ∗ owns (c : Thread nD τ) (st0_0 t) fullShare ((pdat V c).after 0 t)
    ∗ owns (c : Thread nD τ) (st0_1 t) fullShare ((pdat V c).after 1 t)
    ∗ owns (c : Thread nD τ) (st0_2 t) fullShare ((pdat V c).after 2 t)
    ∗ owns (c : Thread nD τ) (st0_3 t) fullShare ((pdat V c).after 3 t)
    ∗ owns (c : Thread nD τ) (st0_4 t) fullShare ((pdat V c).after 4 t)
    ∗ leaves5 V c t)

set_option maxHeartbeats 1600000 in
theorem pool_body (c : Dev nD) (t : Fin cfg0.N) :
    pPre V c t ⊢ wp frame (wpE (defs₀ (F := F)) Variants.none c none) Set.univ (bodyAt0 t) (fun _ => pPost V c t) := by
  unfold pPre pPost bodyAt0
  simp only [pdat_before_0, pdat_before_1, pdat_before_2, pdat_before_3, pdat_before_4]
  rw [show (pdat V c).owesAt () t.succ = (pdat V c).owesAt () t.castSucc from rfl,
    pdat_after_0, pdat_after_1, pdat_after_2, pdat_after_3, pdat_after_4, pdat_inv, pdat_inv]
  unfold poolInv
  have hN : t.val < 32 := lt_of_lt_of_eq t.isLt (show cfg0.N = 32 from N_0)
  by_cases hF : t.val % 16 = 0
  · -- a first tile: the scratch is started afresh
    have hL : ¬t.val % 16 = 15 := by omega
    rw [leaves5_other V c t hL]
    iintro ⟨⟨⟨%g, -, Hs⟩, Hoth, Hp⟩, Ho, ⟨%d0, H0⟩, ⟨%d1, H1⟩, ⟨%d2, H2⟩, ⟨%d3, H3⟩, ⟨%d4, H4⟩, H5⟩
    iapply ((runFirst c (grid0.coords t) (pm_0 t) (ph_0 t) (pm_1 t) (ph_1 t) (pm_2 t) (ph_2 t) (pm_3 t) (ph_3 t) (pm_4 t) (ph_4 t) (pm_5 t) (ph_5 t) pmS phS ((isFirst_iff t).mpr hF)
      (fun h => absurd ((isLast_iff t).mp h) (by omega)) (pblk V c 0 t)).2 Set.univ _)
    isplitl [H0]; · iexact H0
    isplitl [Hs]; · iexists _; iexact Hs
    iintro ⟨H0, ⟨%e8, H8⟩⟩
    isplitl [H8 Hoth Hp]
    · isplitl [H8]
      · iexists (accN V c t.val)
        isplitr; · ipureintro; exact fun _ => rfl
        rw [accN_first V c t hF]; unfold scrFirst owns
        iexists _; isplitr
        swap; · iexact H8
        ipureintro; exact View.read_writes_of_cover _ _ _ _ _ (cover_first c _ _ _ _ _ _ _ _ _ _ _ _ _ _ _ _ _ _)
      isplitl [Hoth]; · iexact Hoth
      iexact Hp
    isplitl [Ho]; · iexact Ho
    isplitl [H0]; · iexact H0
    isplitl [H1]; · iexact H1
    isplitl [H2]; · iexact H2
    isplitl [H3]; · iexact H3
    isplitl [H4]; · iexact H4
    iexact H5
  · by_cases hL : t.val % 16 = 15
    · -- a last tile: accumulate, then the gate block into the result's buffer
      rw [leaves5_last V c t hL, pdat_after_5, outN_last V c t hL]
      iintro ⟨⟨⟨%g, %hg, Hs⟩, Hoth, Hp⟩, Ho, ⟨%d0, H0⟩, ⟨%d1, H1⟩, ⟨%d2, H2⟩, ⟨%d3, H3⟩, ⟨%d4, H4⟩, ⟨%d5, H5⟩⟩
      have hg' : g = accN V c (t.val - 1) := hg (by show t.val ≠ 0; omega)
      subst hg'
      iapply ((lastRun V c t hL (accN V c (t.val - 1))).2 Set.univ _)
      isplitl [H0]; · iexact H0
      isplitl [H1]; · iexact H1
      isplitl [H2]; · iexact H2
      isplitl [H3]; · iexact H3
      isplitl [H4]; · iexact H4
      isplitl [H5]; · iexists _; iexact H5
      isplitl [Hs]; · iexact Hs
      iintro ⟨H0, H1, H2, H3, H4, ⟨%e7, H7⟩, ⟨%e8, H8⟩⟩
      isplitl [H8 Hoth Hp]
      · isplitl [H8]
        · iexists (accN V c t.val)
          isplitr; · ipureintro; exact fun _ => rfl
          rw [accN_last V c t hL]; unfold scrLast owns
          iexists _; isplitr
          swap; · iexact H8
          ipureintro; exact View.read_writes_of_cover _ _ _ _ _ (cover_last_scr c _ _ _ _ _ _ _ _ _ _ _ _ _ _ _ _ _ _ _ _ _ _ _)
        isplitl [Hoth]; · iexact Hoth
        iexact Hp
      isplitl [Ho]; · iexact Ho
      isplitl [H0]; · iexact H0
      isplitl [H1]; · iexact H1
      isplitl [H2]; · iexact H2
      isplitl [H3]; · iexact H3
      isplitl [H4]; · iexact H4
      unfold outLast owns
      iexists _; isplitr
      swap; · iexact H7
      ipureintro; exact View.read_writes_of_cover _ _ _ _ _ (cover_last_out c _ _ _ _ _ _ _ _ _ _ _ _ _ _ _ _ _ _ _ _ _ _ _)
    · -- a middle tile: accumulate
      rw [leaves5_other V c t hL]
      iintro ⟨⟨⟨%g, %hg, Hs⟩, Hoth, Hp⟩, Ho, ⟨%d0, H0⟩, ⟨%d1, H1⟩, ⟨%d2, H2⟩, ⟨%d3, H3⟩, ⟨%d4, H4⟩, H5⟩
      have hg' : g = accN V c (t.val - 1) := hg (by show t.val ≠ 0; omega)
      subst hg'
      iapply ((runMiddle c (grid0.coords t) (pm_0 t) (ph_0 t) (pm_1 t) (ph_1 t) (pm_2 t) (ph_2 t) (pm_3 t) (ph_3 t) (pm_4 t) (ph_4 t) (pm_5 t) (ph_5 t) pmS phS (fun h => hF ((isFirst_iff t).mp h))
        (fun h => hL ((isLast_iff t).mp h)) (pblk V c 0 t) (accN V c (t.val - 1))).2 Set.univ _)
      isplitl [H0]; · iexact H0
      isplitl [Hs]; · iexact Hs
      iintro ⟨H0, ⟨%e8, H8⟩⟩
      isplitl [H8 Hoth Hp]
      · isplitl [H8]
        · iexists (accN V c t.val)
          isplitr; · ipureintro; exact fun _ => rfl
          rw [accN_middle V c t hF hL]; unfold scrMiddle owns
          iexists _; isplitr
          swap; · iexact H8
          ipureintro; exact View.read_writes_of_cover _ _ _ _ _ (cover_middle c _ _ _ _ _ _ _ _ _ _ _ _ _ _ _ _ _ _ _)
        isplitl [Hoth]; · iexact Hoth
        iexact Hp
      isplitl [Ho]; · iexact Ho
      isplitl [H0]; · iexact H0
      isplitl [H1]; · iexact H1
      isplitl [H2]; · iexact H2
      isplitl [H3]; · iexact H3
      isplitl [H4]; · iexact H4
      iexact H5

/-- The library's body obligation for the region, at every point. -/
theorem pool_obligation (c : Dev nD) : BodyObligation (pdat (F := F) V c) (defs₀ (F := F)) Variants.none () Set.univ := fun t => by
  rw [bigSep_W0, bigSep_W0]
  exact pool_body V c t

end Cert.KernelIdeal.Fr

end
-- ==== Proof.ScaleRegion.lean ====
/-
  The second pallas_call — the broadcast multiply — as one region of the program, at any float instance.

  Its grid has 32 points; point t stages rows [128 t, 128 t + 128) of the sequence axis of the activations
  (a block [64, 128, 256]) and the whole gate [64, 256] (fetched once: its block index never moves), and
  writes back the block of the result at the same rows. The body loads the two blocks whole, multiplies the
  activation block by the gate broadcast along the sequence axis, and stores the product whole: what it
  leaves in the result's staging buffer is one pure function of the two input blocks (`scaled`).
  Nothing is carried from point to point; the region's invariant is the untouched scoped rest and the
  generator register.
-/
import proofs.«167597_j27084063768970_2_alg».proof.Proof.Gen.KernelIdeal.Launch
import proofs.«167597_j27084063768970_2_alg».proof.Proof.Gen.KernelIdeal.Skeleton
import proofs.«167597_j27084063768970_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: a parameter here, fixed by the whole run
variable (V : (c : Dev nD) → (b : Ref sig .tc) → Buf (Elt F) ((c : Thread nD τ).loc b))

/-! ## The blocks the pipeline stages -/

/-- Window `w`'s block at point `t`, read off its array as the region finds it. -/
def sblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's block whenever the body runs, for any proof data over
    `V` whose body leaves that block in place. -/
theorem sfound_0 {c : Dev nD} (dat : Dat τ (Elt F) Unit ℕ (UR sig nD τ) ℕ cfg1 c) (hA : dat.A 0 = V c (Pipeline.arrRef spec1 0))
    (hafter : ∀ t, dat.after 0 t = sblk V c 0 t) (t : Fin cfg1.N) (d) : dat.before 0 t d = sblk V c 0 t :=
  (dat.before_in_eq_fetched 0 rfl (fun _ => rfl) (fun _ _ _ => rfl) (fun t => by rw [hafter]; unfold Dat.blockOf sblk; rw [hA]; try rfl) t d).trans
    (by unfold Dat.fetched Dat.blockOf sblk; rw [hA]; try rfl)

/-- The gate's staging buffer holds the whole gate at every point: fetched at the first, its index never moves. -/
theorem sfound_1 {c : Dev nD} (dat : Dat τ (Elt F) Unit ℕ (UR sig nD τ) ℕ cfg1 c) (hA : dat.A 1 = V c (Pipeline.arrRef spec1 1))
    (hafter : ∀ t, dat.after 1 t = sblk V c 1 t) (t : Fin cfg1.N) (d) : dat.before 1 t d = sblk V c 1 t :=
  (dat.before_in_eq_fetched 1 rfl (fun _ => rfl) (fun _ _ _ => rfl) (fun t => by rw [hafter]; unfold Dat.blockOf sblk; rw [hA]; try rfl) t d).trans
    (by unfold Dat.fetched Dat.blockOf sblk; rw [hA]; try rfl)

/-! ## What the body leaves in the result's staging buffer -/

/-- The whole rectangle of the activation block, and of the gate. -/
abbrev rX : Rect S64x128x256 := Rect.unit (s := S64x128x256) ![0, 0, 0] S64x128x256.size inb_S64x128x256_S64x128x256_0_0_0
abbrev rG : Rect S64x256 := Rect.unit (s := S64x256) ![0, 0] S64x256.size inb_S64x256_S64x256_0_0

/-- The result's staging buffer after the body: its one whole store, of the product of the loaded blocks. -/
def scaled (x0 : Vec F S64x128x256 .f32) (x1 : Vec F S64x256 .f32) : Vec F S64x128x256 .f32 :=
  View.canon [⟨rX, k1_pay1 (View.ld x0 rX) (View.ld x1 rG)⟩]

/-- The one store covers the buffer. -/
theorem scaled_cover (p0 : Vec F S64x128x256 .f32) (y : S64x128x256.Idx) :
    ∃ pc ∈ ([⟨rX, p0⟩] : List (View.Piece (Elt F) S64x128x256 .f32)), y ∈ pc.1.set :=
  View.cover_of_tiled [⟨rX, p0⟩] S64x128x256.size (by rfl) y

set_option maxHeartbeats 1000000 in
/-- The body on whole staging memrefs — the inputs' at contents `x0`, `x1`, the result's at anything — runs
    to its return with the inputs' as they were and the result's at `scaled x0 x1`. -/
theorem scale_runs (c : Dev nD) (E : Set ℕ) (i : grid1.Coords) (arg1 : Memref sig .tc .vmem S64x128x256 .f32) (harg1 : arg1.IsWhole)
    (arg2 : Memref sig .tc .vmem S64x256 .f32) (harg2 : arg2.IsWhole) (arg3 : Memref sig .tc .vmem S64x128x256 .f32) (harg3 : arg3.IsWhole)
    (x0 : Vec F S64x128x256 .f32) (x1 : Vec F S64x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (scaled x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (scaled_cover _)

/-! ## The proof data and the body obligation -/

/-- The region's proof data on core `c`: the arrays as the region finds them; after the body each input's
    buffer at its block and the result's at `scaled` of the two blocks; nothing carried, nothing owed. -/
def sdat (c : Dev nD) : Dat τ (Elt F) Unit ℕ (UR sig nD τ) ℕ cfg1 c where
  A w := V c (Pipeline.arrRef spec1 w)
  after w t := match w with
    | ⟨0, _⟩ => sblk V c 0 t
    | ⟨1, _⟩ => sblk V c 1 t
    | ⟨2, _⟩ => scaled (sblk V c 0 t) (sblk V c 1 t)
  Φ _ := Pipeline.ΦA spec1 c
  q _ := fullShare
  owed _ := 0

theorem sdat_A (c : Dev nD) (w : Fin cfg1.W) : (sdat V c).A w = V c (Pipeline.arrRef spec1 w) := by
  dsimp only [sdat]
theorem sdat_after_0 (c : Dev nD) (t : Fin cfg1.N) : (sdat V c).after 0 t = sblk V c 0 t := by dsimp only [sdat]
theorem sdat_after_1 (c : Dev nD) (t : Fin cfg1.N) : (sdat V c).after 1 t = sblk V c 1 t := by dsimp only [sdat]
theorem sdat_after_2 (c : Dev nD) (t : Fin cfg1.N) : (sdat V c).after 2 t = scaled (sblk V c 0 t) (sblk V c 1 t) := by dsimp only [sdat]

theorem sdat_before_0 (c : Dev nD) (t : Fin cfg1.N) (d) : (sdat V c).before 0 t d = sblk V c 0 t :=
  sfound_0 V (sdat V c) (sdat_A V c 0) (sdat_after_0 V c) t d
theorem sdat_before_1 (c : Dev nD) (t : Fin cfg1.N) (d) : (sdat V c).before 1 t d = sblk V c 1 t :=
  sfound_1 V (sdat V c) (sdat_A V c 1) (sdat_after_1 V c) t d

/-- What the body is called with at point `t`, -/
def sPre (c : Dev nD) (t : Fin cfg1.N) : sProp 𝕄 :=
  iprop((sdat V c).Φ t.castSucc ∗ (sdat V c).owesAt () t.castSucc
    ∗ (∃ d, owns (c : Thread nD τ) (st1_0 t) fullShare ((sdat V c).before 0 t d))
    ∗ (∃ d, owns (c : Thread nD τ) (st1_1 t) fullShare ((sdat V c).before 1 t d))
    ∗ (∃ d, owns (c : Thread nD τ) (st1_2 t) fullShare ((sdat V c).before 2 t d)))

/-- and what it returns. -/
def sPost (c : Dev nD) (t : Fin cfg1.N) : sProp 𝕄 :=
  iprop((sdat V c).Φ t.succ ∗ (sdat V c).owesAt () t.succ
    ∗ owns (c : Thread nD τ) (st1_0 t) fullShare ((sdat V c).after 0 t)
    ∗ owns (c : Thread nD τ) (st1_1 t) fullShare ((sdat V c).after 1 t)
    ∗ owns (c : Thread nD τ) (st1_2 t) fullShare ((sdat V c).after 2 t))

theorem scale_body (c : Dev nD) (t : Fin cfg1.N) :
    sPre V c t ⊢ wp frame (wpE (defs₀ (F := F)) Variants.none c none) Set.univ (bodyAt1 t) (fun _ => sPost V c t) := by
  unfold sPre sPost bodyAt1
  simp only [sdat_before_0, sdat_before_1]
  rw [show (sdat V c).Φ t.succ = (sdat V c).Φ t.castSucc from rfl,
    show (sdat V c).owesAt () t.succ = (sdat V c).owesAt () t.castSucc from rfl,
    sdat_after_0, sdat_after_1, sdat_after_2]
  iintro ⟨HΦ, Ho, ⟨%d0, H0⟩, ⟨%d1, H1⟩, ⟨%d2, H2⟩⟩
  iapply (scale_runs c Set.univ _ _ _ _ _ _ _ (sblk V c 0 t) (sblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the region, at every point. -/
theorem scale_obligation (c : Dev nD) : BodyObligation (sdat (F := F) V c) (defs₀ (F := F)) Variants.none () Set.univ := fun t => by
  rw [bigSep_W1, bigSep_W1]
  exact scale_body V c t

end Cert.KernelIdeal.Fr

end
-- ==== Proof.WholeRun.lean ====
/-
  The idealized kernel program's whole run, at any float instance: @main is a stretch of two host reshapes
  (the bias vectors recast as rows), then the pooling-and-gate call, then the scaling call. Between two
  segments the core holds every unscoped buffer at contents that are a fold from the launch memory: after the
  host stretch the reshapes' results; after a call, its arrays at what the pipeline's write-backs leave
  (the library's `arrAt` of the call's proof data) and every other buffer as the call found it.
  Each call is one segment: its arrays are split out of the unscoped buffers on entry and put back on exit;
  the first call's scratch enters and leaves the invariant of its proof data. The run ends with every
  unscoped buffer at the last fold, which is what both the frame claim and the value claim read.
-/
import proofs.«167597_j27084063768970_2_alg».proof.Proof.PoolBody
import proofs.«167597_j27084063768970_2_alg».proof.Proof.ScaleRegion

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 (c : Dev nD) : Valuation τ sig (Elt F) := fun b => m (c, b)
/-- After the two host reshapes (the first call's entry). -/
abbrev W1 (c : Dev nD) : Valuation τ sig (Elt F) := StableHlo.after hostOps0 (W0 m c)
/-- The same read at the TensorCore's references. -/
abbrev E1 : (c : Dev nD) → (b : Ref sig .tc) → Buf (Elt F) ((c : Thread nD τ).loc b) := fun c b => W1 m c b
/-- After the first call: its arrays at what its write-backs leave, every other buffer as entered. -/
def W2 (c : Dev nD) : Valuation τ sig (Elt F) :=
  Pipeline.withArrays spec0 c (W1 m c) fun w => (pdat (E1 m) c).arrAt w cfg0.N
theorem W2_arr (c : Dev nD) (w : Fin cfg0.W) :
    W2 m c (Proc.devRef .tc (Pipeline.arrRef spec0 w)) = (pdat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem exit0_arr (c : Dev nD) (w : Fin cfg0.W) : (pdat (E1 m) c).arrAt w cfg0.N = E2 m c (Pipeline.arrRef spec0 w) :=
  (W2_arr m c w).symm
theorem exit0_rest (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second call (the end of @main). -/
def W3 (c : Dev nD) : Valuation τ sig (Elt F) :=
  Pipeline.withArrays spec1 c (W2 m c) fun w => (sdat (E2 m) c).arrAt w cfg1.N
theorem W3_arr (c : Dev nD) (w : Fin cfg1.W) :
    W3 m c (Proc.devRef .tc (Pipeline.arrRef spec1 w)) = (sdat (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem exit1_arr (c : Dev nD) (w : Fin cfg1.W) : (sdat (E2 m) c).arrAt w cfg1.N = E3 m c (Pipeline.arrRef spec1 w) :=
  (W3_arr m c w).symm
theorem exit1_rest (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The arguments end as launched

No host operation writes an argument; a call reads it through an input window (whose array the pipeline
never writes) or does not touch it. -/

theorem W1_main_arg0 (c : Dev nD) : W1 m c (Proc.devRef .tc main_arg0) = m ((c : Thread nD τ).loc main_arg0) :=
  StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
theorem W1_main_arg1 (c : Dev nD) : W1 m c (Proc.devRef .tc main_arg1) = m ((c : Thread nD τ).loc main_arg1) :=
  StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
theorem W1_main_arg2 (c : Dev nD) : W1 m c (Proc.devRef .tc main_arg2) = m ((c : Thread nD τ).loc main_arg2) :=
  StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
theorem W1_main_arg3 (c : Dev nD) : W1 m c (Proc.devRef .tc main_arg3) = m ((c : Thread nD τ).loc main_arg3) :=
  StableHlo.after_of_forall_not_mem (b := Proc.devRef .tc main_arg3) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
theorem W1_main_arg4 (c : Dev nD) : W1 m c (Proc.devRef .tc main_arg4) = m ((c : Thread nD τ).loc main_arg4) :=
  StableHlo.after_of_forall_not_mem (b := Proc.devRef .tc main_arg4) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))

/-- The first call leaves each of its input arrays as it found it. -/
theorem W2_input (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((pdat (E1 m) c).arrAt_in w hw _).trans (pdat_A (E1 m) c w))

theorem W2_main_arg0 (c : Dev nD) : W2 m c (Proc.devRef .tc main_arg0) = m ((c : Thread nD τ).loc main_arg0) :=
  (W2_input m c 0 rfl).trans (W1_main_arg0 m c)
theorem W2_main_arg1 (c : Dev nD) : W2 m c (Proc.devRef .tc main_arg1) = m ((c : Thread nD τ).loc main_arg1) :=
  (W2_input m c 1 rfl).trans (W1_main_arg1 m c)
theorem W2_main_arg2 (c : Dev nD) : W2 m c (Proc.devRef .tc main_arg2) = m ((c : Thread nD τ).loc main_arg2) :=
  (W2_of_ne m c main_arg2 (by decide)).trans (W1_main_arg2 m c)
theorem W2_main_arg3 (c : Dev nD) : W2 m c (Proc.devRef .tc main_arg3) = m ((c : Thread nD τ).loc main_arg3) :=
  (W2_input m c 3 rfl).trans (W1_main_arg3 m c)
theorem W2_main_arg4 (c : Dev nD) : W2 m c (Proc.devRef .tc main_arg4) = m ((c : Thread nD τ).loc main_arg4) :=
  (W2_of_ne m c main_arg4 (by decide)).trans (W1_main_arg4 m c)

/-- The second call leaves each of its input arrays as it found it. -/
theorem W3_input (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((sdat (E2 m) c).arrAt_in w hw _).trans (sdat_A (E2 m) c w))

theorem W3_main_arg0 (c : Dev nD) : W3 m c (Proc.devRef .tc main_arg0) = m ((c : Thread nD τ).loc main_arg0) :=
  (W3_input m c 0 rfl).trans (W2_main_arg0 m c)
theorem W3_main_arg1 (c : Dev nD) : W3 m c (Proc.devRef .tc main_arg1) = m ((c : Thread nD τ).loc main_arg1) :=
  (W3_of_ne m c main_arg1 (by decide)).trans (W2_main_arg1 m c)
theorem W3_main_arg2 (c : Dev nD) : W3 m c (Proc.devRef .tc main_arg2) = m ((c : Thread nD τ).loc main_arg2) :=
  (W3_of_ne m c main_arg2 (by decide)).trans (W2_main_arg2 m c)
theorem W3_main_arg3 (c : Dev nD) : W3 m c (Proc.devRef .tc main_arg3) = m ((c : Thread nD τ).loc main_arg3) :=
  (W3_of_ne m c main_arg3 (by decide)).trans (W2_main_arg3 m c)
theorem W3_main_arg4 (c : Dev nD) : W3 m c (Proc.devRef .tc main_arg4) = m ((c : Thread nD τ).loc main_arg4) :=
  (W3_of_ne m c main_arg4 (by decide)).trans (W2_main_arg4 m c)

/-- The result buffer at the end is what the second call's write-backs leave of its result window. -/
theorem W3_main_v3 (c : Dev nD) : W3 m c (Proc.devRef .tc main_v3) = (sdat (E2 m) c).arrAt 2 cfg1.N :=
  W3_arr m c 2
/-- The gate the second call reads is what the first call's write-backs leave of its result window. -/
theorem E2_main_v2 (c : Dev nD) : E2 m c main_v2 = (pdat (E1 m) c).arrAt 5 cfg0.N :=
  W2_arr m c 5

/-! ## The proof data family and the thread state -/

/-- No call has a prefetched table. -/
abbrev adm : (p : Fin 2) → (pcfgs (F := F) p).Adm := fun p => (cfgs p).toPCfg_adm
/-- Each call's proof data at its entry contents. -/
def rdats : (p : Fin 2) → (c : Dev nD) → Dat τ (Elt F) Unit ℕ (UR sig nD τ) ℕ (Pipeline.pin (pcfgs (F := F)) adm p) c
  | ⟨0, _⟩ => fun c => pdat (E1 m) c
  | ⟨1, _⟩ => fun c => sdat (E2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The host stretch as a segment from the launch contents. -/
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last fold, the generator register somewhere. -/
abbrev Tend (c : Dev nD) : sProp 𝕄 := iprop(StableHlo.held (c : Thread nD τ) (Pipeline.ucRefs τ sig) (W3 m c) ∗ ∃ r, prngReg c r)

/-! ## The two calls as segments -/

/-- The scoped rest of the first call, spelt over the pinned configuration: its scratch and the other call's staging buffers. -/
theorem rest_split_pin (c : Dev nD) :
    (Pipeline.scopedRest (Ix := Unit) (Name := ℕ) (U := UR sig nD τ) (Lvl := ℕ) (Val := Elt F) (Pipeline.pin (pcfgs (F := F)) adm 0).spec c : sProp 𝕄)
      = iprop((∃ f : Buf (Elt F) ((c : Thread nD τ).loc cc0_scratch0), ((c : Thread nD τ).loc cc0_scratch0) ↦{fullShare} f) ∗ others c) :=
  rest_split c

set_option backward.isDefEq.respectTransparency.types false in
/-- THE POOLING CALL over the thread state: entered from every unscoped buffer at `W1`, left at `W2`. The
    generator register and the scoped rest — the scratch among it, at anything — make the invariant before
    point 0; after the last point the invariant gives them back, the scratch's running sum forgotten. -/
def poolSeg : Pipeline.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (pool_obligation (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (rdats m) launch0.win launch0.arr_whole c
      ((rdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = poolInv (E1 m) c 0 from rfl, rest_split_pin]; unfold poolInv
    simp only [owns_whole]
    iintro ⟨Hp, -, ⟨%f, Hs⟩, Hoth⟩
    isplitl [Hs]
    · iexists f; isplitr; · ipureintro; exact fun h => absurd rfl h
      iexact Hs
    isplitl [Hoth]; · iexact Hoth
    iexact Hp
  hout c := by
    rw [Pipeline.ownSems0_none, show (rdats m 0 c).Φ (Fin.last _) = poolInv (E1 m) c (Fin.last _) from rfl, rest_split_pin]; unfold poolInv
    simp only [owns_whole]
    iintro ⟨⟨%g, -, Hs⟩, Hoth, Hp⟩
    isplitl [Hp]; · iexact Hp
    isplitr; · iempintro
    isplitl [Hs]; · iexists g; iexact Hs
    iexact Hoth
  hexit c := by
    have hjoin := Pipeline.unscopedBufs_of_arrays (p := 0) (pcfgs (F := F)) adm (Ix := Unit) (Name := ℕ) (U := UR sig nD τ) (Lvl := ℕ)
      launch0.win launch0.arr_whole c (rdats m) ((rdats m 0 c).share_full fun _ => rfl)
      (E1 m c) (E2 m c) ((rdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCALING CALL over the thread state: entered from every unscoped buffer at `W2`, left at `W3`; nothing
    carried, the generator register and the scoped rest in and out of the plain invariant. -/
def scaleSeg : Pipeline.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (scale_obligation (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (rdats m) launch1.win launch1.arr_whole c
      ((rdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (rdats m) ((rdats m 1 c).share_full fun _ => rfl)
      (E2 m c) (E3 m c) ((rdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (rdats m) () defs₀ 𝒱₀ L lv) :=
  [ .host (hseg m), .region (poolSeg m), .region (scaleSeg m) ]

theorem main_run (c : Dev nD) : main (F := F) c = Pipeline.Seg.run (segs m) := (main_chain c).trans (by chain_rfl)

set_option backward.isDefEq.respectTransparency.types false in
/-- THE RUN: from any memory with zero counters, every weakly fair execution of @main terminates without a fault,
    and the final memory holds every unscoped buffer of every core at the last fold `W3`. -/
theorem runs : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (rdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME, at any float instance: the run ends with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (runs m ρ)

end Cert.KernelIdeal.Fr

end
-- ==== Proof.PoolPieces.lean ====
/-
  What the three cases of the pooling body leave, as the body's own arithmetic: every store is of a whole
  block and every load reads a whole block, so the stored pieces read back as their payloads — a load of a
  buffer just stored whole reads the stored value, and a whole load of a staged block reads the block.
  Hence the running sum obeys: a first tile leaves (zero block + the tile's lane sum); every other tile
  leaves (what the point before left + the tile's lane sum); and at a last tile the result's buffer is the
  gate arithmetic applied to that point's running sum and the staged weights and bias rows. Likewise the
  scaling body leaves the product of its two blocks.
-/
import proofs.«167597_j27084063768970_2_alg».proof.Proof.PoolRegion
import proofs.«167597_j27084063768970_2_alg».proof.Proof.ScaleRegion
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-block rectangle, of rank two and three. -/
theorem off2 : (![0, 0] : Fin 2 → ℕ) = fun _ => 0 := by funext a; fin_cases a <;> rfl
theorem off3 : (![0, 0, 0] : Fin 3 → ℕ) = fun _ => 0 := by funext a; fin_cases a <;> rfl

/-- The scratch, a whole buffer, read whole at contents `s` reads `s`. -/
theorem scratch_read (s : Vec F S32x256 .f32) :
    View.read (Elt F) (View.whole cc0_scratch0) ((phS : pmS.IsWhole).unread s) = s := phS.read_unread s

theorem scrMiddle_eq (c : Dev nD) (t : Fin cfg0.N) (hF : ¬t.val % 16 = 0) (hL : ¬t.val % 16 = 15) (s : Vec F S32x256 .f32) :
    scrMiddle V c t hF hL s = k0_pay2 s (pblk V c 0 t) := by
  unfold scrMiddle
  rw [View.read_writes_eq_canon _ _ _ (cover_middle c _ _ _ _ _ _ _ _ _ _ _ _ _ _ _ _ _ _ _)]
  unfold runMiddle
  dsimp only
  simp only [View.readAt_eq_ld, Memref.IsWhole.read_unread, scratch_read, View.canon_unit_zero (S := S32x256) off2,
    View.ld_unit_zero (S := S32x256) off2, View.ld_unit_zero (S := S32x256x256) off3]

theorem scrFirst_eq (c : Dev nD) (t : Fin cfg0.N) (hF : t.val % 16 = 0) :
    scrFirst V c t hF = k0_pay2 k0_pay1 (pblk V c 0 t) := by
  unfold scrFirst
  rw [View.read_writes_eq_canon _ _ _ (cover_first c _ _ _ _ _ _ _ _ _ _ _ _ _ _ _ _ _ _)]
  unfold runFirst
  dsimp only
  sl_unfold_run_names
  simp only [View.readAt_eq_ld, Memref.IsWhole.read_unread, View.canon_cons_unit_zero (S := S32x256) off2,
    View.readCov_unit_zero (S := S32x256) _ off2, View.ld_unit_zero (S := S32x256x256) off3]

theorem scrLast_eq (c : Dev nD) (t : Fin cfg0.N) (hL : t.val % 16 = 15) (s : Vec F S32x256 .f32) :
    scrLast V c t hL s = k0_pay2 s (pblk V c 0 t) := by
  unfold scrLast lastRun
  rw [View.read_writes_eq_canon _ _ _ (cover_last_scr c _ _ _ _ _ _ _ _ _ _ _ _ _ _ _ _ _ _ _ _ _ _ _)]
  unfold runLast
  dsimp only
  sl_unfold_run_names
  simp only [View.readAt_eq_ld, Memref.IsWhole.read_unread, scratch_read, View.canon_unit_zero (S := S32x256) off2,
    View.ld_unit_zero (S := S32x256) off2, View.ld_unit_zero (S := S32x256x256) off3]

theorem outLast_eq (c : Dev nD) (t : Fin cfg0.N) (hL : t.val % 16 = 15) (s : Vec F S32x256 .f32) :
    outLast V c t hL s = k0_pay3 (k0_pay2 s (pblk V c 0 t)) (pblk V c 1 t) (pblk V c 2 t) (pblk V c 3 t) (pblk V c 4 t) := by
  unfold outLast lastRun
  rw [View.read_writes_eq_canon _ _ _ (cover_last_out c _ _ _ _ _ _ _ _ _ _ _ _ _ _ _ _ _ _ _ _ _ _ _)]
  unfold runLast
  dsimp only
  sl_unfold_run_names
  simp only [View.readAt_eq_ld, Memref.IsWhole.read_unread, scratch_read, View.canon_unit_zero (S := S32x256) off2,
    View.readCov_unit_zero (S := S32x256) _ off2,
    View.ld_unit_zero (S := S32x256) off2, View.ld_unit_zero (S := S32x256x256) off3, View.ld_unit_zero (S := S256x32) off2,
    View.ld_unit_zero (S := S1x32) off2, View.ld_unit_zero (S := S1x256) off2]

/-! ## The running sum's recursion, and the gate block -/

theorem accN_start (c : Dev nD) (t : Fin cfg0.N) (hF : t.val % 16 = 0) :
    accN V c t.val = k0_pay2 k0_pay1 (pblk V c 0 t) :=
  (accN_first V c t hF).trans (scrFirst_eq V c t hF)

theorem accN_step (c : Dev nD) (t : Fin cfg0.N) (hF : ¬t.val % 16 = 0) :
    accN V c t.val = k0_pay2 (accN V c (t.val - 1)) (pblk V c 0 t) := by
  by_cases hL : t.val % 16 = 15
  · exact (accN_last V c t hL).trans (scrLast_eq V c t hL _)
  · exact (accN_middle V c t hF hL).trans (scrMiddle_eq V c t hF hL _)

theorem outN_gate (c : Dev nD) (t : Fin cfg0.N) (hL : t.val % 16 = 15) :
    outN V c t.val = k0_pay3 (accN V c t.val) (pblk V c 1 t) (pblk V c 2 t) (pblk V c 3 t) (pblk V c 4 t) := by
  rw [outN_last V c t hL, outLast_eq V c t hL, accN_step V c t (by omega)]

/-! ## The scaling body's result -/

theorem scaled_eq (x0 : Vec F S64x128x256 .f32) (x1 : Vec F S64x256 .f32) : scaled x0 x1 = k1_pay1 x0 x1 := by
  unfold scaled
  rw [View.canon_unit_zero (S := S64x128x256) off3, View.ld_unit_zero (S := S64x128x256) off3, View.ld_unit_zero (S := S64x256) off2]

end Cert.KernelIdeal.Fr

end
-- ==== Proof.BlockReads.lean ====
/-
  Where the blocks of the two calls sit in their arrays.

  Call 0 runs over a 2 × 16 grid; point t = 16·i + l stages rows [32 i, 32 i + 32) and sequence positions
  [256 l, 256 l + 256) of the activations, the two weight matrices and the two bias rows whole, and writes
  back rows [32 i, 32 i + 32) of the gate at the last tile of shard i. Call 1 runs over 32 points; point t
  stages sequence positions [128 t, 128 t + 128) of the activations and the whole gate, and writes back the
  same positions of the result. On every axis an element of a block sits in the array at the block index
  times the block's size plus its coordinate inside the block; the block indices are decided once over each
  grid, the rest is arithmetic. Every row of the gate is in the block written back at the last tile of its
  shard, and every sequence position of the result in the block of the point that stages it.
-/
import proofs.«167597_j27084063768970_2_alg».proof.Proof.PoolRegion
import proofs.«167597_j27084063768970_2_alg».proof.Proof.ScaleRegion
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-! ## The grids' sizes and the block indices -/

/-- Call 0 has 32 points. -/
theorem pt0_lt (t : Fin cfg0.N) : t.val < 32 := lt_of_lt_of_eq t.isLt N_0

/-- Call 1 has 32 points. -/
theorem pt1_lt (t : Fin cfg1.N) : t.val < 32 := lt_of_lt_of_eq t.isLt N_1

/-- The row of the array that row r of point t's block is. -/
theorem row0_lt (t : Fin cfg0.N) (r : Fin 32) : 32 * (t.val / 16) + r.val < 64 := by
  have := pt0_lt t; have := r.isLt; omega

/-- The sequence position of the array that position j of point t's block of call 0 is. -/
theorem seq0_lt (t : Fin cfg0.N) (j : Fin 256) : 256 * (t.val % 16) + j.val < 4096 := by
  have := j.isLt; omega

/-- The sequence position of the array that position j of point t's block of call 1 is. -/
theorem seq1_lt (t : Fin cfg1.N) (j : Fin 128) : 128 * t.val + j.val < 4096 := by
  have := pt1_lt t; have := j.isLt; omega

/-- Call 0's block indices over its grid: the activations move with (shard, tile), the gate with the
    shard, everything else stays at block zero. -/
theorem idx_call0 : ∀ t : Fin cfg0.N,
    win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 16 ∧ win0_5.index t (1 : Fin 2) = 0 :=
  (by decide +kernel : ∀ t : Fin grid0.N, _)

/-- Call 1's block indices over its grid: the activations and the result move with the point along the
    sequence axis, the gate stays at block zero. -/
theorem idx_call1 : ∀ t : Fin cfg1.N,
    win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 3) = 0 ∧ win1_2.index t (1 : Fin 3) = t.val ∧ win1_2.index t (2 : Fin 3) = 0 :=
  (by decide +kernel : ∀ t : Fin grid1.N, _)

/-! ## Call 0: the blocks read -/

/-- The activation block at point t is rows [32 (t / 16), +32) and positions [256 (t % 16), +256). -/
theorem pblk0_apply (c : Dev nD) (t : Fin cfg0.N) (r : Fin 32) (j : Fin 256) (ch : Fin 256) :
    pblk V c 0 t (ix3 r j ch)
      = (V c main_arg0 : S64x4096x256.Idx → Elt F .f32) (ix3 (⟨32 * (t.val / 16) + r.val, row0_lt t r⟩ : Fin 64) (⟨256 * (t.val % 16) + j.val, seq0_lt t j⟩ : Fin 4096) ch) := by
  obtain ⟨e0, e1, e2, -⟩ := idx_call0 t
  unfold pblk
  rw [View.read_apply]
  show V c main_arg0 (((cfg0.win 0).blk t).view.emb (ix3 r j ch)) = V c main_arg0 _
  refine congrArg (V c main_arg0) (funext fun a => Fin.ext ?_)
  match a with
  | ⟨0, _⟩ => show win0_0.index t (0 : Fin 3) * 32 + 1 * r.val = 32 * (t.val / 16) + r.val; omega
  | ⟨1, _⟩ => show win0_0.index t (1 : Fin 3) * 256 + 1 * j.val = 256 * (t.val % 16) + j.val; omega
  | ⟨2, _⟩ => show win0_0.index t (2 : Fin 3) * 256 + 1 * ch.val = ch.val; omega

/-- The first weight matrix is staged whole. -/
theorem pblk1_eq (c : Dev nD) (t : Fin cfg0.N) : pblk V c 1 t = V c main_arg1 := by
  obtain ⟨-, -, -, e0, e1, -⟩ := idx_call0 t
  funext y
  unfold pblk
  rw [View.read_apply]
  show V c main_arg1 (((cfg0.win 1).blk t).view.emb y) = V c main_arg1 y
  refine congrArg (V c main_arg1) (funext fun a => Fin.ext ?_)
  match a with
  | ⟨0, _⟩ => show win0_1.index t (0 : Fin 2) * 256 + 1 * (y 0).val = (y 0).val; omega
  | ⟨1, _⟩ => show win0_1.index t (1 : Fin 2) * 32 + 1 * (y 1).val = (y 1).val; omega

/-- The first bias row is staged whole. -/
theorem pblk2_eq (c : Dev nD) (t : Fin cfg0.N) : pblk V c 2 t = V c main_v0 := by
  obtain ⟨-, -, -, -, -, e0, e1, -⟩ := idx_call0 t
  funext y
  unfold pblk
  rw [View.read_apply]
  show V c main_v0 (((cfg0.win 2).blk t).view.emb y) = V c main_v0 y
  refine congrArg (V c main_v0) (funext fun a => Fin.ext ?_)
  match a with
  | ⟨0, _⟩ => show win0_2.index t (0 : Fin 2) * 1 + 1 * (y 0).val = (y 0).val; omega
  | ⟨1, _⟩ => show win0_2.index t (1 : Fin 2) * 32 + 1 * (y 1).val = (y 1).val; omega

/-- The second weight matrix is staged whole. -/
theorem pblk3_eq (c : Dev nD) (t : Fin cfg0.N) : pblk V c 3 t = V c main_arg3 := by
  obtain ⟨-, -, -, -, -, -, -, e0, e1, -⟩ := idx_call0 t
  funext y
  unfold pblk
  rw [View.read_apply]
  show V c main_arg3 (((cfg0.win 3).blk t).view.emb y) = V c main_arg3 y
  refine congrArg (V c main_arg3) (funext fun a => Fin.ext ?_)
  match a with
  | ⟨0, _⟩ => show win0_3.index t (0 : Fin 2) * 32 + 1 * (y 0).val = (y 0).val; omega
  | ⟨1, _⟩ => show win0_3.index t (1 : Fin 2) * 256 + 1 * (y 1).val = (y 1).val; omega

/-- The second bias row is staged whole. -/
theorem pblk4_eq (c : Dev nD) (t : Fin cfg0.N) : pblk V c 4 t = V c main_v1 := by
  obtain ⟨-, -, -, -, -, -, -, -, -, e0, e1, -⟩ := idx_call0 t
  funext y
  unfold pblk
  rw [View.read_apply]
  show V c main_v1 (((cfg0.win 4).blk t).view.emb y) = V c main_v1 y
  refine congrArg (V c main_v1) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-! ## Call 0: the gate's blocks -/

/-- The gate's block at point t, read off any contents of the gate's array, is rows [32 (t / 16), +32). -/
theorem oblk5_apply (c : Dev nD) (G : Buf (Elt F) ((cfg0.win 5).arr.view.loc (c.tc : Thread nD τ))) (t : Fin cfg0.N)
    (r : Fin 32) (ch : Fin 256) :
    ((cfg0.win 5).blk t).view.read (Elt F) G (ix2 r ch)
      = (G : S64x256.Idx → Elt F .f32) (ix2 (⟨32 * (t.val / 16) + r.val, row0_lt t r⟩ : Fin 64) ch) := by
  obtain ⟨-, -, -, -, -, -, -, -, -, -, -, e0, e1⟩ := idx_call0 t
  rw [View.read_apply]
  show G (((cfg0.win 5).blk t).view.emb (ix2 r ch)) = G _
  refine congrArg G (funext fun a => Fin.ext ?_)
  match a with
  | ⟨0, _⟩ => show win0_5.index t (0 : Fin 2) * 32 + 1 * r.val = 32 * (t.val / 16) + r.val; omega
  | ⟨1, _⟩ => show win0_5.index t (1 : Fin 2) * 256 + 1 * ch.val = ch.val; omega

/-- An index of the gate's array is in point t's block iff each coordinate is in the block's range on its axis. -/
theorem mem_oblk5 (t : Fin cfg0.N) (i : S64x256.Idx) :
    i ∈ ((cfg0.win 5).blk t).view.set ↔ ∀ a : Fin 2, win0_5.index t a * S32x256.size a ≤ (i a).val ∧ (i a).val < win0_5.index t a * S32x256.size a + S32x256.size a := by
  show i ∈ ((View.whole main_v2).slice (win0_5.rect t)).set ↔ _
  rw [View.set_slice_whole, Rect.mem_set_unit]
  exact Iff.rfl

/-- Every row of the gate is written back at the last tile of its shard. -/
theorem cover5 (c : Dev nD) : ∀ i : ((cfg0.win 5).arr.view.loc (c.tc : Thread nD τ)).2.ty.Idx,
    ∃ t : Fin cfg0.N, (cfg0.win 5).flush t = true ∧ i ∈ ((cfg0.win 5).blk t).view.set := by
  intro i
  have hi0 : ((i : S64x256.Idx) 0).val < 64 := ((i : S64x256.Idx) 0).isLt
  have hi1 : ((i : S64x256.Idx) 1).val < 256 := ((i : S64x256.Idx) 1).isLt
  have hN : 16 * (((i : S64x256.Idx) 0).val / 32) + 15 < cfg0.N := by
    rw [show cfg0.N = 32 from N_0]; omega
  refine ⟨⟨16 * (((i : S64x256.Idx) 0).val / 32) + 15, hN⟩, (flush0_5 _).mpr (by show (16 * (((i : S64x256.Idx) 0).val / 32) + 15) % 16 = 15; omega), ?_⟩
  obtain ⟨-, -, -, -, -, -, -, -, -, -, -, e0, e1⟩ := idx_call0 ⟨16 * (((i : S64x256.Idx) 0).val / 32) + 15, hN⟩
  have e0' : win0_5.index ⟨16 * (((i : S64x256.Idx) 0).val / 32) + 15, hN⟩ (0 : Fin 2) = (16 * (((i : S64x256.Idx) 0).val / 32) + 15) / 16 := e0
  rw [mem_oblk5]
  intro a
  match a with
  | ⟨0, _⟩ =>
    show win0_5.index ⟨16 * (((i : S64x256.Idx) 0).val / 32) + 15, hN⟩ (0 : Fin 2) * 32 ≤ ((i : S64x256.Idx) 0).val ∧ ((i : S64x256.Idx) 0).val < win0_5.index ⟨16 * (((i : S64x256.Idx) 0).val / 32) + 15, hN⟩ (0 : Fin 2) * 32 + 32
    omega
  | ⟨1, _⟩ =>
    show win0_5.index ⟨16 * (((i : S64x256.Idx) 0).val / 32) + 15, hN⟩ (1 : Fin 2) * 256 ≤ ((i : S64x256.Idx) 1).val ∧ ((i : S64x256.Idx) 1).val < win0_5.index ⟨16 * (((i : S64x256.Idx) 0).val / 32) + 15, hN⟩ (1 : Fin 2) * 256 + 256
    omega

/-! ## Call 1: the blocks read -/

/-- The activation block at point t is sequence positions [128 t, +128), every row and channel. -/
theorem sblk0_apply (c : Dev nD) (t : Fin cfg1.N) (b : Fin 64) (j : Fin 128) (ch : Fin 256) :
    sblk V c 0 t (ix3 b j ch)
      = (V c main_arg0 : S64x4096x256.Idx → Elt F .f32) (ix3 b (⟨128 * t.val + j.val, seq1_lt t j⟩ : Fin 4096) ch) := by
  obtain ⟨e0, e1, e2, -⟩ := idx_call1 t
  unfold sblk
  rw [View.read_apply]
  show V c main_arg0 (((cfg1.win 0).blk t).view.emb (ix3 b j ch)) = V c main_arg0 _
  refine congrArg (V c main_arg0) (funext fun a => Fin.ext ?_)
  match a with
  | ⟨0, _⟩ => show win1_0.index t (0 : Fin 3) * 64 + 1 * b.val = b.val; omega
  | ⟨1, _⟩ => show win1_0.index t (1 : Fin 3) * 128 + 1 * j.val = 128 * t.val + j.val; omega
  | ⟨2, _⟩ => show win1_0.index t (2 : Fin 3) * 256 + 1 * ch.val = ch.val; omega

/-- The gate is staged whole. -/
theorem sblk1_eq (c : Dev nD) (t : Fin cfg1.N) : sblk V c 1 t = V c main_v2 := by
  obtain ⟨-, -, -, e0, e1, -⟩ := idx_call1 t
  funext y
  unfold sblk
  rw [View.read_apply]
  show V c main_v2 (((cfg1.win 1).blk t).view.emb y) = V c main_v2 y
  refine congrArg (V c main_v2) (funext fun a => Fin.ext ?_)
  match a with
  | ⟨0, _⟩ => show win1_1.index t (0 : Fin 2) * 64 + 1 * (y 0).val = (y 0).val; omega
  | ⟨1, _⟩ => show win1_1.index t (1 : Fin 2) * 256 + 1 * (y 1).val = (y 1).val; omega

/-! ## Call 1: the result's blocks -/

/-- The result's block at point t, read off any contents of the result's array, is positions [128 t, +128). -/
theorem oblk2_apply (c : Dev nD) (G : Buf (Elt F) ((cfg1.win 2).arr.view.loc (c.tc : Thread nD τ))) (t : Fin cfg1.N)
    (b : Fin 64) (j : Fin 128) (ch : Fin 256) :
    ((cfg1.win 2).blk t).view.read (Elt F) G (ix3 b j ch)
      = (G : S64x4096x256.Idx → Elt F .f32) (ix3 b (⟨128 * t.val + j.val, seq1_lt t j⟩ : Fin 4096) ch) := by
  obtain ⟨-, -, -, -, -, e0, e1, e2⟩ := idx_call1 t
  rw [View.read_apply]
  show G (((cfg1.win 2).blk t).view.emb (ix3 b j ch)) = G _
  refine congrArg G (funext fun a => Fin.ext ?_)
  match a with
  | ⟨0, _⟩ => show win1_2.index t (0 : Fin 3) * 64 + 1 * b.val = b.val; omega
  | ⟨1, _⟩ => show win1_2.index t (1 : Fin 3) * 128 + 1 * j.val = 128 * t.val + j.val; omega
  | ⟨2, _⟩ => show win1_2.index t (2 : Fin 3) * 256 + 1 * ch.val = ch.val; omega

/-- An index of the result's array is in point t's block iff each coordinate is in the block's range on its axis. -/
theorem mem_oblk2 (t : Fin cfg1.N) (i : S64x4096x256.Idx) :
    i ∈ ((cfg1.win 2).blk t).view.set ↔ ∀ a : Fin 3, win1_2.index t a * S64x128x256.size a ≤ (i a).val ∧ (i a).val < win1_2.index t a * S64x128x256.size a + S64x128x256.size a := by
  show i ∈ ((View.whole main_v3).slice (win1_2.rect t)).set ↔ _
  rw [View.set_slice_whole, Rect.mem_set_unit]
  exact Iff.rfl

/-- Every sequence position of the result is written back by the point that stages it. -/
theorem cover2 (c : Dev nD) : ∀ i : ((cfg1.win 2).arr.view.loc (c.tc : Thread nD τ)).2.ty.Idx,
    ∃ t : Fin cfg1.N, (cfg1.win 2).flush t = true ∧ i ∈ ((cfg1.win 2).blk t).view.set := by
  intro i
  have hi0 : ((i : S64x4096x256.Idx) 0).val < 64 := ((i : S64x4096x256.Idx) 0).isLt
  have hi1 : ((i : S64x4096x256.Idx) 1).val < 4096 := ((i : S64x4096x256.Idx) 1).isLt
  have hi2 : ((i : S64x4096x256.Idx) 2).val < 256 := ((i : S64x4096x256.Idx) 2).isLt
  have hN : ((i : S64x4096x256.Idx) 1).val / 128 < cfg1.N := by
    rw [show cfg1.N = 32 from N_1]; omega
  refine ⟨⟨((i : S64x4096x256.Idx) 1).val / 128, hN⟩, flush1_2 _, ?_⟩
  obtain ⟨-, -, -, -, -, e0, e1, e2⟩ := idx_call1 ⟨((i : S64x4096x256.Idx) 1).val / 128, hN⟩
  have e1' : win1_2.index ⟨((i : S64x4096x256.Idx) 1).val / 128, hN⟩ (1 : Fin 3) = ((i : S64x4096x256.Idx) 1).val / 128 := e1
  rw [mem_oblk2]
  intro a
  match a with
  | ⟨0, _⟩ =>
    show win1_2.index ⟨((i : S64x4096x256.Idx) 1).val / 128, hN⟩ (0 : Fin 3) * 64 ≤ ((i : S64x4096x256.Idx) 0).val ∧ ((i : S64x4096x256.Idx) 0).val < win1_2.index ⟨((i : S64x4096x256.Idx) 1).val / 128, hN⟩ (0 : Fin 3) * 64 + 64
    omega
  | ⟨1, _⟩ =>
    show win1_2.index ⟨((i : S64x4096x256.Idx) 1).val / 128, hN⟩ (1 : Fin 3) * 128 ≤ ((i : S64x4096x256.Idx) 1).val ∧ ((i : S64x4096x256.Idx) 1).val < win1_2.index ⟨((i : S64x4096x256.Idx) 1).val / 128, hN⟩ (1 : Fin 3) * 128 + 128
    omega
  | ⟨2, _⟩ =>
    show win1_2.index ⟨((i : S64x4096x256.Idx) 1).val / 128, hN⟩ (2 : Fin 3) * 256 ≤ ((i : S64x4096x256.Idx) 2).val ∧ ((i : S64x4096x256.Idx) 2).val < win1_2.index ⟨((i : S64x4096x256.Idx) 1).val / 128, hN⟩ (2 : Fin 3) * 256 + 256
    omega

end Cert.KernelIdeal.Fr

end
-- ==== Proof.Spec.lean ====
/-
  The squeeze-and-excite gate, stated once on the extended reals.

  For an activation tensor `x` of 64 batch rows, 4096 sequence positions and 256 channels:
  the POOLED value of (row b, channel c) is the sum of x over the sequence axis; its MEAN is that sum
  times 1/4096; the HIDDEN layer (32 units) is max(mean · w1 + b1, 0); the GATE is the logistic function
  of hidden · w2 + b2; the RESULT scales every entry of `x` by the gate of its row and channel.

  Both programs compute this function: the kernel accumulates the pooled sum in sixteen tiles of 256
  positions and multiplies by the dyadic 2⁻¹², the reference divides one whole sum by 4096; a sum on the
  extended reals may be regrouped freely (addition there is commutative and associative), and dividing
  by the real 4096 is multiplying by 1/4096 at every extended real.
-/
import Idealize.ShloMosaic.PureOps.Ideal
import Idealize.ShloMosaic.Lib.ValueIdx

noncomputable section

namespace Cert.SEGate

open Idealize.ShloMosaic Idealize.ShloMosaic.ValueIdx

/-- The sum over the sequence axis of channel `c` in batch row `b`. -/
def pool (x : FVec Ideal ⟨3, ![64, 4096, 256]⟩ .f32) (b : Fin 64) (c : Fin 256) : EReal :=
  ∑ k : Fin 4096, x (ix3 b k c)

/-- The sequence mean: the pooled sum times 1/4096. -/
def mean (x : FVec Ideal ⟨3, ![64, 4096, 256]⟩ .f32) (b : Fin 64) (c : Fin 256) : EReal :=
  pool x b c * ((1 / 4096 : ℝ) : EReal)

/-- The hidden layer: the rectified affine image of the mean. -/
def hidden (x : FVec Ideal ⟨3, ![64, 4096, 256]⟩ .f32) (w1 : FVec Ideal ⟨2, ![256, 32]⟩ .f32)
    (b1 : FVec Ideal ⟨1, ![32]⟩ .f32) (b : Fin 64) (h : Fin 32) : EReal :=
  max ((∑ c : Fin 256, mean x b c * w1 (ix2 c h)) + b1 (ix1 h)) 0

/-- The gate: the logistic function of the affine image of the hidden layer. -/
def gate (x : FVec Ideal ⟨3, ![64, 4096, 256]⟩ .f32) (w1 : FVec Ideal ⟨2, ![256, 32]⟩ .f32)
    (b1 : FVec Ideal ⟨1, ![32]⟩ .f32) (w2 : FVec Ideal ⟨2, ![32, 256]⟩ .f32) (b2 : FVec Ideal ⟨1, ![256]⟩ .f32)
    (b : Fin 64) (c : Fin 256) : EReal :=
  Ideal.logistic ((∑ h : Fin 32, hidden x w1 b1 b h * w2 (ix2 h c)) + b2 (ix1 c))

/-- The whole result: every entry scaled by the gate of its batch row and channel. -/
def G (x : FVec Ideal ⟨3, ![64, 4096, 256]⟩ .f32) (w1 : FVec Ideal ⟨2, ![256, 32]⟩ .f32)
    (b1 : FVec Ideal ⟨1, ![32]⟩ .f32) (w2 : FVec Ideal ⟨2, ![32, 256]⟩ .f32) (b2 : FVec Ideal ⟨1, ![256]⟩ .f32) :
    FVec Ideal ⟨3, ![64, 4096, 256]⟩ .f32 :=
  fun i => x i * gate x w1 b1 w2 b2 (i 0) (i 2)

theorem G_apply (x : FVec Ideal ⟨3, ![64, 4096, 256]⟩ .f32) (w1 : FVec Ideal ⟨2, ![256, 32]⟩ .f32)
    (b1 : FVec Ideal ⟨1, ![32]⟩ .f32) (w2 : FVec Ideal ⟨2, ![32, 256]⟩ .f32) (b2 : FVec Ideal ⟨1, ![256]⟩ .f32)
    (b : Fin 64) (k : Fin 4096) (c : Fin 256) :
    G x w1 b1 w2 b2 (ix3 b k c) = x (ix3 b k c) * gate x w1 b1 w2 b2 b c := rfl

/-! ## The float words the two programs spell, as extended reals -/

/-- The word of `+0.0` is zero. -/
theorem word_zero : Ideal.ofBits .f32 0x00000000#32 = 0 := by
  simp [Ideal.ofBits, Ideal.ieee]

/-- The word of `1.0` is one. -/
theorem word_one : Ideal.ofBits .f32 0x3F800000#32 = 1 := by
  simp [Ideal.ofBits, Ideal.ieee, -EReal.coe_mul]; norm_num

/-- The word of `4096.0` is the real 4096. -/
theorem word_4096 : Ideal.ofBits .f32 0x45800000#32 = ((4096 : ℝ) : EReal) := by
  simp [Ideal.ofBits, Ideal.ieee, -EReal.coe_mul]; norm_num

/-- The word of `2.44140625e-4` is the dyadic 2⁻¹² = 1/4096, exactly. -/
theorem word_inv_4096 : Ideal.ofBits .f32 0x39800000#32 = ((1 / 4096 : ℝ) : EReal) := by
  simp [Ideal.ofBits, Ideal.ieee, -EReal.coe_mul]; norm_num

end Cert.SEGate

end
-- ==== Proof.Payloads.lean ====
/-
  The kernel's four stored values, read at one index on the extended reals.

  The first kernel keeps a running sum per (row, channel): it starts it at zero, adds to it the sum of a
  tile of 256 sequence positions, and at the last tile turns it into the gate — the running sum times 2⁻¹²
  is the mean, the mean contracted with the first weight matrix plus the first bias and rectified at zero is
  the hidden layer, and the hidden layer contracted with the second weight matrix plus the second bias goes
  through the logistic function. The second kernel multiplies every entry of an activation tile by the gate
  of its row and channel. On the extended reals a narrowing of the float format is the identity, a
  contraction into the zero block is the plain sum of products over the shared coordinate, and a bias row
  broadcast over the rows reads its one row at the column.
-/
import proofs.«167597_j27084063768970_2_alg».proof.Proof.Gen.KernelIdeal.Skeleton
import proofs.«167597_j27084063768970_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayIdeal

open Cert.KernelIdeal Cert.KernelIdeal.Gen Idealize.ShloMosaic Idealize.ShloMosaic.ValueIdx

/-! ## The zero block, the tile sum, the scaling -/

/-- The block the running sum starts from is zero at every (row, channel). -/
theorem pay1_apply (r : Fin 32) (c : Fin 256) : k0_pay1 (F := Ideal) (ix2 r c) = 0 := by
  unfold k0_pay1
  rw [shapeCast_self]
  exact Cert.SEGate.word_zero

/-- The sum of a [32,256,256] tile over its middle axis, at (r, c), is the sum over the 256 positions j
    of the tile at (r, j, c). -/
theorem lane_sum (x : FVec Ideal S32x256x256 .f32) (r : Fin 32) (c : Fin 256) :
    multiReduction (F := Ideal) .add [1] S32x256 x 0x00000000#32 reduces_S32x256x256_S32x256 (.inl rfl) rfl (ix2 r c)
      = ∑ j : Fin 256, x (ix3 r j c) := by
  refine (Ideal.multiReduction_add_single x 0x00000000#32 reduces_S32x256x256_S32x256 (.inl rfl) rfl (ix2 r c)).trans ?_
  refine Finset.sum_congr rfl fun j _ => congrArg x ?_
  funext a
  match a with
  | ⟨0, _⟩ => rfl
  | ⟨1, _⟩ => rfl
  | ⟨2, _⟩ => rfl

/-- One accumulation step: the running sum at (r, c) plus the tile's sum over its 256 positions there. -/
theorem pay2_apply (s : Vec Ideal S32x256 .f32) (x : Vec Ideal S32x256x256 .f32) (r : Fin 32) (c : Fin 256) :
    k0_pay2 s x (ix2 r c) = s (ix2 r c) + ∑ j : Fin 256, x (ix3 r j c) := by
  unfold k0_pay2
  rw [shapeCast_self]
  exact congrArg (s (ix2 r c) + ·) (lane_sum x r c)

/-- The scaling: the entry at (b, j, c) times the gate at (b, c); the gate, recast from [64,256] to
    [64,1,256] and repeated along the 128 positions, reads (b, c) at every position. -/
theorem scale_apply (x : Vec Ideal S64x128x256 .f32) (g : Vec Ideal S64x256 .f32) (b : Fin 64) (j : Fin 128) (c : Fin 256) :
    k1_pay1 x g (ix3 b j c) = x (ix3 b j c) * g (ix2 b c) := by
  unfold k1_pay1
  rw [shapeCast_self]
  refine congrArg (x (ix3 b j c) * ·) ?_
  refine (broadcastTo_apply _ broadcasts_S64x1x256_S64x128x256 (ix3 b j c) (ix3 b (0 : Fin 1) c) fun a => ?_).trans ?_
  · match a with
    | ⟨0, _⟩ => rfl
    | ⟨1, _⟩ => rfl
    | ⟨2, _⟩ => rfl
  · refine shapeCast_apply g shapeCasts_S64x256_S64x1x256 _ (ix2 b c) ?_
    rw [Shape.rowMajor_val_three, Shape.rowMajor_val_two]
    show b.val * 256 + c.val = (b.val * 1 + 0) * 256 + c.val
    omega

/-! ## The two contractions

Each has one contracted axis: the left operand's columns against the right operand's rows. The operand
indices at output (r, c) and contraction coordinate k are (r, k) and (k, c). -/

theorem matmul1_lhs0 (i : S32x32.Idx) (q : dot_S32x256_S256x32_S32x32_1_0_0_1_n_n.contr.Idx) :
    (dot_S32x256_S256x32_S32x32_1_0_0_1_n_n.lhsIdx i q 0).val = (i 0).val := by
  unfold DotDims.lhsIdx
  rw [dif_neg (show ¬(0 : Fin S32x256.rank) ∈ dot_S32x256_S256x32_S32x32_1_0_0_1_n_n.lhsBatch by decide),
    dif_pos (show (0 : Fin S32x256.rank) ∈ dot_S32x256_S256x32_S32x32_1_0_0_1_n_n.lhsNonContracting by decide)]
  rfl
theorem matmul1_lhs1 (i : S32x32.Idx) (q : dot_S32x256_S256x32_S32x32_1_0_0_1_n_n.contr.Idx) :
    (dot_S32x256_S256x32_S32x32_1_0_0_1_n_n.lhsIdx i q 1).val = (q ⟨0, by decide⟩).val :=
  dot_S32x256_S256x32_S32x32_1_0_0_1_n_n.lhsIdx_val_of_single rfl i q
theorem matmul1_rhs0 (i : S32x32.Idx) (q : dot_S32x256_S256x32_S32x32_1_0_0_1_n_n.contr.Idx) :
    (dot_S32x256_S256x32_S32x32_1_0_0_1_n_n.rhsIdx i q 0).val = (q ⟨0, by decide⟩).val :=
  dot_S32x256_S256x32_S32x32_1_0_0_1_n_n.rhsIdx_val_of_single rfl i q
theorem matmul1_rhs1 (i : S32x32.Idx) (q : dot_S32x256_S256x32_S32x32_1_0_0_1_n_n.contr.Idx) :
    (dot_S32x256_S256x32_S32x32_1_0_0_1_n_n.rhsIdx i q 1).val = (i 1).val := by
  unfold DotDims.rhsIdx
  rw [dif_neg (show ¬(1 : Fin S256x32.rank) ∈ dot_S32x256_S256x32_S32x32_1_0_0_1_n_n.rhsBatch by decide),
    dif_pos (show (1 : Fin S256x32.rank) ∈ dot_S32x256_S256x32_S32x32_1_0_0_1_n_n.rhsNonContracting by decide)]
  rfl

/-- The first contraction, [32,256] · [256,32] into the zero block, read at (r, h): the sum over the 256 shared coordinates. -/
theorem matmul1_apply (a : FVec Ideal S32x256 .bf16) (b : FVec Ideal S256x32 .bf16) (r : Fin 32) (h : Fin 32) :
    matmul dot_S32x256_S256x32_S32x32_1_0_0_1_n_n none a b (constant (F := Ideal) S32x32 .f32 0x00000000#32) (ix2 r h)
      = ∑ k : Fin 256, a (ix2 r k) * b (ix2 k h) := by
  simp only [matmul]
  rw [Ideal.matmul_constant_zero_apply, ← Equiv.sum_comp (contrEquiv1 dot_S32x256_S256x32_S32x32_1_0_0_1_n_n 256 rfl rfl).symm]
  refine Finset.sum_congr rfl fun k _ => ?_
  have hk := contrEquiv1_symm_val dot_S32x256_S256x32_S32x32_1_0_0_1_n_n 256 rfl rfl k
  have el : dot_S32x256_S256x32_S32x32_1_0_0_1_n_n.lhsIdx (ix2 r h) ((contrEquiv1 dot_S32x256_S256x32_S32x32_1_0_0_1_n_n 256 rfl rfl).symm k) = ix2 r k :=
    funext fun ax => Fin.ext (by
      match ax with
      | ⟨0, _⟩ => exact matmul1_lhs0 _ _
      | ⟨1, _⟩ => exact (matmul1_lhs1 _ _).trans hk)
  have er : dot_S32x256_S256x32_S32x32_1_0_0_1_n_n.rhsIdx (ix2 r h) ((contrEquiv1 dot_S32x256_S256x32_S32x32_1_0_0_1_n_n 256 rfl rfl).symm k) = ix2 k h :=
    funext fun ax => Fin.ext (by
      match ax with
      | ⟨0, _⟩ => exact (matmul1_rhs0 _ _).trans hk
      | ⟨1, _⟩ => exact matmul1_rhs1 _ _)
  rw [el, er]

theorem matmul2_lhs0 (i : S32x256.Idx) (q : dot_S32x32_S32x256_S32x256_1_0_0_1_n_n.contr.Idx) :
    (dot_S32x32_S32x256_S32x256_1_0_0_1_n_n.lhsIdx i q 0).val = (i 0).val := by
  unfold DotDims.lhsIdx
  rw [dif_neg (show ¬(0 : Fin S32x32.rank) ∈ dot_S32x32_S32x256_S32x256_1_0_0_1_n_n.lhsBatch by decide),
    dif_pos (show (0 : Fin S32x32.rank) ∈ dot_S32x32_S32x256_S32x256_1_0_0_1_n_n.lhsNonContracting by decide)]
  rfl
theorem matmul2_lhs1 (i : S32x256.Idx) (q : dot_S32x32_S32x256_S32x256_1_0_0_1_n_n.contr.Idx) :
    (dot_S32x32_S32x256_S32x256_1_0_0_1_n_n.lhsIdx i q 1).val = (q ⟨0, by decide⟩).val :=
  dot_S32x32_S32x256_S32x256_1_0_0_1_n_n.lhsIdx_val_of_single rfl i q
theorem matmul2_rhs0 (i : S32x256.Idx) (q : dot_S32x32_S32x256_S32x256_1_0_0_1_n_n.contr.Idx) :
    (dot_S32x32_S32x256_S32x256_1_0_0_1_n_n.rhsIdx i q 0).val = (q ⟨0, by decide⟩).val :=
  dot_S32x32_S32x256_S32x256_1_0_0_1_n_n.rhsIdx_val_of_single rfl i q
theorem matmul2_rhs1 (i : S32x256.Idx) (q : dot_S32x32_S32x256_S32x256_1_0_0_1_n_n.contr.Idx) :
    (dot_S32x32_S32x256_S32x256_1_0_0_1_n_n.rhsIdx i q 1).val = (i 1).val := by
  unfold DotDims.rhsIdx
  rw [dif_neg (show ¬(1 : Fin S32x256.rank) ∈ dot_S32x32_S32x256_S32x256_1_0_0_1_n_n.rhsBatch by decide),
    dif_pos (show (1 : Fin S32x256.rank) ∈ dot_S32x32_S32x256_S32x256_1_0_0_1_n_n.rhsNonContracting by decide)]
  rfl

/-- The second contraction, [32,32] · [32,256] into the zero block, read at (r, c): the sum over the 32 hidden units. -/
theorem matmul2_apply (a : FVec Ideal S32x32 .bf16) (b : FVec Ideal S32x256 .bf16) (r : Fin 32) (c : Fin 256) :
    matmul dot_S32x32_S32x256_S32x256_1_0_0_1_n_n none a b (constant (F := Ideal) S32x256 .f32 0x00000000#32) (ix2 r c)
      = ∑ h : Fin 32, a (ix2 r h) * b (ix2 h c) := by
  simp only [matmul]
  rw [Ideal.matmul_constant_zero_apply, ← Equiv.sum_comp (contrEquiv1 dot_S32x32_S32x256_S32x256_1_0_0_1_n_n 32 rfl rfl).symm]
  refine Finset.sum_congr rfl fun h _ => ?_
  have hk := contrEquiv1_symm_val dot_S32x32_S32x256_S32x256_1_0_0_1_n_n 32 rfl rfl h
  have el : dot_S32x32_S32x256_S32x256_1_0_0_1_n_n.lhsIdx (ix2 r c) ((contrEquiv1 dot_S32x32_S32x256_S32x256_1_0_0_1_n_n 32 rfl rfl).symm h) = ix2 r h :=
    funext fun ax => Fin.ext (by
      match ax with
      | ⟨0, _⟩ => exact matmul2_lhs0 _ _
      | ⟨1, _⟩ => exact (matmul2_lhs1 _ _).trans hk)
  have er : dot_S32x32_S32x256_S32x256_1_0_0_1_n_n.rhsIdx (ix2 r c) ((contrEquiv1 dot_S32x32_S32x256_S32x256_1_0_0_1_n_n 32 rfl rfl).symm h) = ix2 h c :=
    funext fun ax => Fin.ext (by
      match ax with
      | ⟨0, _⟩ => exact (matmul2_rhs0 _ _).trans hk
      | ⟨1, _⟩ => exact matmul2_rhs1 _ _)
  rw [el, er]

/-! ## The gate -/

/-- The gate at (r, c): the logistic function of the hidden layer of row r contracted with the second
    weight matrix's column c plus the second bias at c; the hidden unit h is the rectified sum over the
    channels c' of (running sum at (r, c') times 1/4096) times the first weight matrix at (c', h), plus the
    first bias at h. -/
theorem pay3_apply (s : Vec Ideal S32x256 .f32) (w1 : Vec Ideal S256x32 .f32) (b1 : Vec Ideal S1x32 .f32) (w2 : Vec Ideal S32x256 .f32) (b2 : Vec Ideal S1x256 .f32) (r : Fin 32) (c : Fin 256) :
    k0_pay3 s w1 b1 w2 b2 (ix2 r c) =
      Ideal.logistic ((∑ h : Fin 32, max ((∑ c' : Fin 256, (s (ix2 r c') * ((1 / 4096 : ℝ) : EReal)) * w1 (ix2 c' h)) + b1 (ix2 (0 : Fin 1) h)) 0 * w2 (ix2 h c)) + b2 (ix2 (0 : Fin 1) c)) := by
  unfold k0_pay3
  show Ideal.logistic (matmul (F := Ideal) _ none _ _ _ (ix2 r c) + broadcastTo (α := Ideal .f32) S32x256 _ _ (ix2 r c)) = _
  rw [matmul2_apply, broadcastTo_1b_ab_apply, shapeCast_self b2]
  refine congrArg Ideal.logistic (congrArg (· + b2 (ix2 (0 : Fin 1) c)) (Finset.sum_congr rfl fun h _ => ?_))
  show max (matmul (F := Ideal) _ none _ _ _ (ix2 r h) + broadcastTo (α := Ideal .f32) S32x32 _ _ (ix2 r h)) (Ideal.ofBits .f32 0x00000000#32) * w2 (ix2 h c) = _
  rw [matmul1_apply, broadcastTo_1b_ab_apply, shapeCast_self b1, Cert.SEGate.word_zero]
  refine congrArg (fun t => max (t + b1 (ix2 (0 : Fin 1) h)) 0 * w2 (ix2 h c)) (Finset.sum_congr rfl fun k _ => ?_)
  show (s (ix2 r k) * Ideal.ofBits .f32 0x39800000#32) * w1 (ix2 k h) = _
  rw [Cert.SEGate.word_inv_4096]

end Cert.KernelIdeal.PayIdeal

end
-- ==== Proof.PoolSum.lean ====
/-
  The pooled sum of a row and channel, cut into sixteen tiles of 256 consecutive sequence positions.

  The 4096 positions k are the pairs (l, j) with k = 256·l + j, l below 16 and j below 256; summing over the
  pairs tile by tile is summing over the positions, because addition on the extended reals is commutative
  and associative. A running sum that starts at 0 plus the first tile and then adds one tile at a time is,
  after n further steps, the sum of the first n + 1 tiles.
-/
import proofs.«167597_j27084063768970_2_alg».proof.Proof.Spec

noncomputable section

namespace Cert.SEGate

open Idealize.ShloMosaic Idealize.ShloMosaic.ValueIdx

/-- The sum of tile l (256 consecutive sequence positions starting at 256·l) of channel ch in batch row b; zero past the sixteenth tile. -/
def tile (X : FVec Ideal ⟨3, ![64, 4096, 256]⟩ .f32) (b : Fin 64) (ch : Fin 256) (l : ℕ) : EReal :=
  if h : l < 16 then ∑ j : Fin 256, X (ix3 b (⟨256 * l + j.val, by omega⟩ : Fin 4096) ch) else 0

theorem tile_of_lt (X : FVec Ideal ⟨3, ![64, 4096, 256]⟩ .f32) (b : Fin 64) (ch : Fin 256) (l : ℕ) (h : l < 16) :
    tile X b ch l = ∑ j : Fin 256, X (ix3 b (⟨256 * l + j.val, by omega⟩ : Fin 4096) ch) :=
  dif_pos h

/-- The sixteen tiles of a row and channel add up to the whole pooled sum. -/
theorem tiles_total (X : FVec Ideal ⟨3, ![64, 4096, 256]⟩ .f32) (b : Fin 64) (ch : Fin 256) :
    ∑ l ∈ Finset.range 16, tile X b ch l = pool X b ch := by
  unfold pool
  rw [Finset.sum_range,
    ← Equiv.sum_comp (finProdFinEquiv (m := 16) (n := 256)) (fun k : Fin 4096 => X (ix3 b k ch)),
    Fintype.sum_prod_type]
  refine Finset.sum_congr rfl fun l _ => ?_
  rw [tile_of_lt X b ch l.val l.isLt]
  refine Finset.sum_congr rfl fun j _ => ?_
  refine congrArg (fun k : Fin 4096 => X (ix3 b k ch)) (Fin.ext ?_)
  show 256 * l.val + j.val = j.val + 256 * l.val
  omega

/-- The running sum as the kernel builds it — start from 0 + tile 0, then add one tile at a time — is the range sum. -/
theorem running (X : FVec Ideal ⟨3, ![64, 4096, 256]⟩ .f32) (b : Fin 64) (ch : Fin 256) :
    ∀ n : ℕ, (Nat.rec (0 + tile X b ch 0) (fun k acc => acc + tile X b ch (k + 1)) n : EReal)
      = ∑ l ∈ Finset.range (n + 1), tile X b ch l := by
  intro n
  induction n with
  | zero =>
    show 0 + tile X b ch 0 = _
    rw [zero_add, Finset.sum_range_one]
  | succ k ih =>
    show (Nat.rec (0 + tile X b ch 0) (fun k acc => acc + tile X b ch (k + 1)) k : EReal) + tile X b ch (k + 1) = _
    rw [ih, Finset.sum_range_succ _ (k + 1)]

end Cert.SEGate

end
-- ==== Proof.ValueIdeal.lean ====
/-
  The idealized kernel's result as one function of its arguments, on the extended reals.

  FIRST CALL. At the point t = 16·i + l the staged activation tile is rows [32 i, 32 i + 32) and sequence
  positions [256 l, 256 l + 256). By induction over the points of a shard, the scratch after point t holds,
  at local row r and channel ch, the sum of tiles 0 … l of row 32 i + r: a first tile starts from the zero
  block, every later tile adds its own lane sum to what the point before left. At the last tile (l = 15) that
  is the whole pooled sum, and the block stored in the result's buffer is the gate of rows 32 i … 32 i + 31
  (the two bias rows the body reads are the bias vectors recast by the host as one-row matrices). Points 15
  and 31 write these two blocks back, and they cover the gate array [64, 256].
  SECOND CALL. At point t the body multiplies rows [128 t, 128 t + 128) of the activations by the gate
  broadcast along the sequence axis; every point writes its block back and the 32 blocks cover the result.
-/
import proofs.«167597_j27084063768970_2_alg».proof.Proof.WholeRun
import proofs.«167597_j27084063768970_2_alg».proof.Proof.PoolPieces
import proofs.«167597_j27084063768970_2_alg».proof.Proof.BlockReads
import proofs.«167597_j27084063768970_2_alg».proof.Proof.Payloads
import proofs.«167597_j27084063768970_2_alg».proof.Proof.PoolSum
import Idealize.ShloMosaic.Lib.ValueLayout

set_option maxRecDepth 16384

noncomputable section

namespace Cert.KernelIdeal.Fr

open Cert.KernelIdeal Cert.KernelIdeal.Gen Cert.KernelIdeal.PayIdeal Cert.SEGate
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The first call: the running sum in closed form -/

/-- The batch row of local row `r` at grid position `n`: the shard is n / 16. -/
def brow (n : ℕ) (hn : n < 32) (r : Fin 32) : Fin 64 := ⟨32 * (n / 16) + r.val, by omega⟩

theorem brow_succ (k : ℕ) (hk : k + 1 < 32) (hF : ¬(k + 1) % 16 = 0) (r : Fin 32) :
    brow (k + 1) hk r = brow k (by omega) r := Fin.ext (by simp only [brow]; omega)

theorem pt_lt (t : Fin cfg0.N) : t.val < 32 := lt_of_lt_of_eq t.isLt (show cfg0.N = 32 from N_0)

/-- The lane sum of the tile staged at point `t` is tile (t mod 16) of the row's pooled sum. -/
theorem tile_at (c : Dev nD) (t : Fin cfg0.N) (r : Fin 32) (ch : Fin 256) (x0 : Vec Ideal S32x256x256 .f32)
    (hx0 : x0 = pblk V c 0 t) :
    ∑ j : Fin 256, x0 (ix3 r j ch) = tile (V c main_arg0) (brow t.val (pt_lt t) r) ch (t.val % 16) := by
  subst hx0
  rw [tile_of_lt _ _ _ _ (Nat.mod_lt _ (by decide))]
  exact Finset.sum_congr rfl fun j _ => pblk0_apply V c t r j ch

/-- One accumulation step at an index. -/
theorem step_at (c : Dev nD) (t : Fin cfg0.N) (s : Vec Ideal S32x256 .f32) (r : Fin 32) (ch : Fin 256) :
    k0_pay2 s (pblk V c 0 t) (ix2 r ch) = s (ix2 r ch) + tile (V c main_arg0) (brow t.val (pt_lt t) r) ch (t.val % 16) :=
  (pay2_apply s (pblk V c 0 t) r ch).trans (congrArg (s (ix2 r ch) + ·) (tile_at V c t r ch _ rfl))

/-- After position `n` the scratch holds the sum of the row's tiles 0 … n mod 16. -/
theorem acc_closed (c : Dev nD) (n : ℕ) : ∀ (hn : n < 32) (r : Fin 32) (ch : Fin 256),
    accN V c n (ix2 r ch) = ∑ l ∈ Finset.range (n % 16 + 1), tile (V c main_arg0) (brow n hn r) ch l := by
  induction n with
  | zero =>
    intro hn r ch
    have e : accN V c 0 = k0_pay2 k0_pay1 (pblk V c 0 ⟨0, lt_of_lt_of_eq hn N_0.symm⟩) :=
      accN_start V c ⟨0, lt_of_lt_of_eq hn N_0.symm⟩ rfl
    rw [e, step_at, pay1_apply, zero_add]
    exact (Finset.sum_range_one _).symm
  | succ k ih =>
    intro hn r ch
    by_cases hF : (k + 1) % 16 = 0
    · have e : accN V c (k + 1) = k0_pay2 k0_pay1 (pblk V c 0 ⟨k + 1, lt_of_lt_of_eq hn N_0.symm⟩) :=
        accN_start V c ⟨k + 1, lt_of_lt_of_eq hn N_0.symm⟩ hF
      rw [e, step_at, pay1_apply, zero_add]
      show tile (V c main_arg0) (brow (k + 1) hn r) ch ((k + 1) % 16) = _
      rw [hF]; exact (Finset.sum_range_one _).symm
    · have e : accN V c (k + 1) = k0_pay2 (accN V c k) (pblk V c 0 ⟨k + 1, lt_of_lt_of_eq hn N_0.symm⟩) :=
        accN_step V c ⟨k + 1, lt_of_lt_of_eq hn N_0.symm⟩ hF
      rw [e, step_at, ih (by omega) r ch]
      show _ + tile (V c main_arg0) (brow (k + 1) hn r) ch ((k + 1) % 16) = _
      rw [brow_succ k hn hF r, show (k + 1) % 16 = k % 16 + 1 from by omega]
      exact (Finset.sum_range_succ _ _).symm

/-- At a last tile the scratch holds the whole pooled sum of each of the shard's rows. -/
theorem acc_pool (c : Dev nD) (t : Fin cfg0.N) (hL : t.val % 16 = 15) (r : Fin 32) (ch : Fin 256) :
    accN V c t.val (ix2 r ch) = pool (V c main_arg0) (brow t.val (pt_lt t) r) ch := by
  rw [acc_closed V c t.val (pt_lt t) r ch, hL]
  exact tiles_total _ _ _

/-- At a last tile the block stored in the result's buffer is the gate of the shard's rows, the bias rows
    being the bias vectors as one-row matrices. -/
theorem gate_block (c : Dev nD) (b1 : FVec Ideal ⟨1, ![32]⟩ .f32) (b2 : FVec Ideal ⟨1, ![256]⟩ .f32)
    (hb1 : ∀ h : Fin 32, V c main_v0 (ix2 (0 : Fin 1) h) = b1 (ix1 h))
    (hb2 : ∀ ch : Fin 256, V c main_v1 (ix2 (0 : Fin 1) ch) = b2 (ix1 ch))
    (t : Fin cfg0.N) (hL : t.val % 16 = 15) (r : Fin 32) (ch : Fin 256) :
    outN V c t.val (ix2 r ch) = gate (V c main_arg0) (V c main_arg1) b1 (V c main_arg3) b2 (brow t.val (pt_lt t) r) ch := by
  rw [outN_gate V c t hL, pblk1_eq, pblk2_eq, pblk3_eq, pblk4_eq]
  refine (pay3_apply _ _ _ _ _ r ch).trans ?_
  simp only [Cert.SEGate.gate, Cert.SEGate.hidden, Cert.SEGate.mean, acc_pool V c t hL, hb1, hb2]

/-- The gate as an array [64, 256]. -/
def gateArr (x : FVec Ideal ⟨3, ![64, 4096, 256]⟩ .f32) (w1 : FVec Ideal ⟨2, ![256, 32]⟩ .f32) (b1 : FVec Ideal ⟨1, ![32]⟩ .f32)
    (w2 : FVec Ideal ⟨2, ![32, 256]⟩ .f32) (b2 : FVec Ideal ⟨1, ![256]⟩ .f32) : FVec Ideal ⟨2, ![64, 256]⟩ .f32 :=
  fun i => gate x w1 b1 w2 b2 (i 0) (i 1)

/-- THE FIRST CALL'S RESULT: after its write-backs the gate array holds the gate. -/
theorem gate_array (c : Dev nD) (b1 : FVec Ideal ⟨1, ![32]⟩ .f32) (b2 : FVec Ideal ⟨1, ![256]⟩ .f32)
    (hb1 : ∀ h : Fin 32, V c main_v0 (ix2 (0 : Fin 1) h) = b1 (ix1 h))
    (hb2 : ∀ ch : Fin 256, V c main_v1 (ix2 (0 : Fin 1) ch) = b2 (ix1 ch)) :
    (pdat V c).arrAt 5 cfg0.N = gateArr (V c main_arg0) (V c main_arg1) b1 (V c main_arg3) b2 := by
  refine (pdat V c).arrAt_eq_of_cover 5 _ (fun t hf => ?_) (cover5 c)
  have hL : t.val % 16 = 15 := (flush0_5 t).mp hf
  funext y
  obtain ⟨r, ch, rfl⟩ : ∃ (r : Fin 32) (ch : Fin 256), y = ix2 r ch := ⟨y 0, y 1, eq_ix2 y⟩
  rw [oblk5_apply c]
  show (pdat V c).after 5 t (ix2 r ch) = _
  rw [pdat_after_5]
  exact gate_block V c b1 b2 hb1 hb2 t hL r ch

/-! ## The second call -/

/-- THE SECOND CALL'S RESULT: after its write-backs the result array holds the activations scaled by the
    gate it was entered with. -/
theorem scaled_array (c : Dev nD) (x : FVec Ideal ⟨3, ![64, 4096, 256]⟩ .f32) (w1 : FVec Ideal ⟨2, ![256, 32]⟩ .f32)
    (b1 : FVec Ideal ⟨1, ![32]⟩ .f32) (w2 : FVec Ideal ⟨2, ![32, 256]⟩ .f32) (b2 : FVec Ideal ⟨1, ![256]⟩ .f32)
    (hx : V c main_arg0 = x) (hg : V c main_v2 = gateArr x w1 b1 w2 b2) :
    (sdat V c).arrAt 2 cfg1.N = G x w1 b1 w2 b2 := by
  refine (sdat V c).arrAt_eq_of_cover 2 _ (fun t hf => ?_) (cover2 c)
  funext y
  obtain ⟨b, j, ch, rfl⟩ : ∃ (b : Fin 64) (j : Fin 128) (ch : Fin 256), y = ix3 b j ch := ⟨y 0, y 1, y 2, eq_ix3 y⟩
  rw [oblk2_apply c]
  show (sdat V c).after 2 t (ix3 b j ch) = _
  rw [sdat_after_2, scaled_eq, scale_apply, sblk0_apply, sblk1_eq, hx, hg, G_apply]
  rfl

end Cert.KernelIdeal.Fr

end
-- ==== Proof.WPoolRuns.lean ====
/-
  The first pallas_call — pooling and the gate — run case by case, at any float instance.

  Its grid is 2 × 16: the first coordinate picks a shard of 32 batch rows, the second walks the sequence axis
  in sixteen tiles of 256 positions. The body keeps a running sum [32, 256] in a scratch buffer that the
  pipeline does not stage, so what a point leaves there is what the next point finds. Three cases:
  * the FIRST tile of a shard (second coordinate 0): the scratch is zeroed, read back, and the tile's sum over
    its 256 positions is added and stored;
  * a MIDDLE tile: the scratch is read, the tile's sum added, the result stored;
  * the LAST tile (second coordinate 15): as a middle tile, and then the accumulated sum is read back, scaled
    to the mean, sent through the two small dense layers and the logistic function, and the gate block
    [32, 256] is stored whole in the result's staging buffer.
  For each case: what the stores leave, as the list of stored pieces (last first), with the proof that the
  body runs to its return from the buffers it touches held whole.
-/
import proofs.«167597_j27084063768970_2_alg».proof.Proof.Gen.Kernel.Launch
import proofs.«167597_j27084063768970_2_alg».proof.Proof.Gen.Kernel.Skeleton
import proofs.«167597_j27084063768970_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- "This is the first tile of its shard": the body's test of its second coordinate against 0. -/
abbrev isFirst (i : grid0.Coords) : Prop := (Scalar.cmpi .ne (Scalar.extui (Scalar.cmpi .eq (BitVec.ofNat 32 (i 1).val) 0#32)) 0#32) = 1#1
/-- "This is the last tile of its shard": the body's test of its second coordinate against 15. -/
abbrev isLast (i : grid0.Coords) : Prop := k0_cond2 i = 1#1

/-- Point `t` (row-major in the 2 × 16 grid) is a first tile exactly when t ≡ 0 (mod 16). -/
theorem isFirst_iff : ∀ t : Fin cfg0.N, isFirst (grid0.coords t) ↔ t.val % 16 = 0 :=
  (by decide +kernel : ∀ t : Fin grid0.N, isFirst (grid0.coords t) ↔ t.val % 16 = 0)
/-- Point `t` is a last tile exactly when t ≡ 15 (mod 16). -/
theorem isLast_iff : ∀ t : Fin cfg0.N, isLast (grid0.coords t) ↔ t.val % 16 = 15 :=
  (by decide +kernel : ∀ t : Fin grid0.N, isLast (grid0.coords t) ↔ t.val % 16 = 15)

/-! ## The three runs -/

set_option maxHeartbeats 1000000 in
/-- FIRST TILE. From the activation block's buffer at `x0` and the scratch at anything, the body returns
    with the activation block as it was and the scratch with the witness pieces written. -/
noncomputable def runFirst (c : Dev nD) (i : grid0.Coords) (arg2 : Memref sig .tc .vmem S32x256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S32x256 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S32x256 .f32) (harg8 : arg8.IsWhole)
    (hF : isFirst i) (hL : ¬isLast i) (x0 : Vec F S32x256x256 .f32) :
    { L8 : List (View.Piece (Elt F) S32x256 .f32) //
      ∀ (E : Set ℕ) (K : PUnit → sProp 𝕄),
        iprop(owns (c : Thread nD τ) arg2 fullShare x0 ∗ (∃ d, owns (c : Thread nD τ) arg8 fullShare d)
            ∗ (iprop(owns (c : Thread nD τ) arg2 fullShare x0 ∗ (∃ f, arg8.view.loc (c : Thread nD τ) ↦[arg8.view.set]{fullShare} arg8.view.writes (Elt F) f L8)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, fun E K => ?run⟩
  case run =>
    simp only [cc0_kernel_eq_skeleton]; unfold cc0_kernel_skel
    unfold owns
    iintro ⟨⟨%f2, %hf2, H2⟩, ⟨%d8, %f8, -, H8⟩, Hk⟩
    obtain rfl := harg2.eq_unread hf2
    sl_exec (disch := first | exact hF | exact hL)
    sl_step
    iapply Hk
    isplitl [H2]
    · iexists _; isplitr; · ipureintro; exact harg2.read_unread _
      iexact H2
    iexists _; iexact H8

set_option maxHeartbeats 1000000 in
/-- MIDDLE TILE. From the activation block's buffer at `x0` and the scratch at the running sum `s`. -/
noncomputable def runMiddle (c : Dev nD) (i : grid0.Coords) (arg2 : Memref sig .tc .vmem S32x256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S32x256 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S32x256 .f32) (harg8 : arg8.IsWhole)
    (hF : ¬isFirst i) (hL : ¬isLast i) (x0 : Vec F S32x256x256 .f32) (s : Vec F S32x256 .f32) :
    { L8 : List (View.Piece (Elt F) S32x256 .f32) //
      ∀ (E : Set ℕ) (K : PUnit → sProp 𝕄),
        iprop(owns (c : Thread nD τ) arg2 fullShare x0 ∗ owns (c : Thread nD τ) arg8 fullShare s
            ∗ (iprop(owns (c : Thread nD τ) arg2 fullShare x0 ∗ (∃ f, arg8.view.loc (c : Thread nD τ) ↦[arg8.view.set]{fullShare} arg8.view.writes (Elt F) f L8)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, fun E K => ?run⟩
  case run =>
    simp only [cc0_kernel_eq_skeleton]; unfold cc0_kernel_skel
    unfold owns
    iintro ⟨⟨%f2, %hf2, H2⟩, ⟨%f8, %hf8, H8⟩, Hk⟩
    obtain rfl := harg2.eq_unread hf2; obtain rfl := harg8.eq_unread hf8
    sl_exec (disch := first | exact hF | exact hL)
    sl_step
    iapply Hk
    isplitl [H2]
    · iexists _; isplitr; · ipureintro; exact harg2.read_unread _
      iexact H2
    iexists _; iexact H8

set_option maxHeartbeats 2000000 in
/-- LAST TILE. From every input block's buffer at its contents, the scratch at the running sum `s` and the
    result's buffer at anything: the inputs as they were, the result's buffer and the scratch with their
    witness pieces written. -/
noncomputable def runLast (c : Dev nD) (i : grid0.Coords) (arg2 : Memref sig .tc .vmem S32x256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S32x256 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S32x256 .f32) (harg8 : arg8.IsWhole)
    (hF : ¬isFirst i) (hL : isLast i) (x0 : Vec F S32x256x256 .f32) (x1 : Vec F S256x32 .f32) (x2 : Vec F S1x32 .f32)
    (x3 : Vec F S32x256 .f32) (x4 : Vec F S1x256 .f32) (s : Vec F S32x256 .f32) :
    { L : List (View.Piece (Elt F) S32x256 .f32) × List (View.Piece (Elt F) S32x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ owns (c : Thread nD τ) arg8 fullShare s
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L.1)
                ∗ (∃ f, arg8.view.loc (c : Thread nD τ) ↦[arg8.view.set]{fullShare} arg8.view.writes (Elt F) f L.2)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨(?_, ?_), fun E K => ?run⟩
  case run =>
    simp only [cc0_kernel_eq_skeleton]; unfold cc0_kernel_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg2.eq_unread hf2; obtain rfl := harg3.eq_unread hf3; obtain rfl := harg4.eq_unread hf4
    obtain rfl := harg5.eq_unread hf5; obtain rfl := harg6.eq_unread hf6; obtain rfl := harg8.eq_unread hf8
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    iexists _; iexact H8

end Cert.Kernel.Fr

end
-- ==== Proof.WPoolRegion.lean ====
/-
  The first pallas_call as one region of the program, at any float instance: what each window's staging
  buffer and the scratch hold point by point, and the body's obligation to the pipeline.

  The five input windows (the activation tile, the two weight matrices, the two bias rows) are only read,
  so their buffers hold their blocks at every point. The SCRATCH holds the running sum: after point n it is
  what the case of n leaves (`accN`) — the first tile of a shard starts it afresh, every other tile adds
  to what the point before left. The scratch is no window of the pipeline, so it travels in the region's
  invariant: before point t (t > 0) the scratch holds `accN (t − 1)`; before point 0 it holds anything.
  The RESULT's staging buffer is stored only at the last tile of a shard (points 15 and 31), which are also
  the two points that write it back; at every other point the body leaves it as it found it.
-/
import proofs.«167597_j27084063768970_2_alg».proof.Proof.WPoolRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the pipeline stages -/

/-- Window `w`'s block at point `t`, read off its array as the region finds it. -/
def pblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's staging buffer holds its block whenever the body runs (fetched there, or its block
    index has not moved since it was), for any proof data over `V` whose body leaves the block in place. -/
theorem pfound_0 {c : Dev nD} (dat : Dat τ (Elt F) Unit ℕ (UR sig nD τ) ℕ cfg0 c) (hA : dat.A 0 = V c (Pipeline.arrRef spec0 0))
    (hafter : ∀ t, dat.after 0 t = pblk V c 0 t) (t : Fin cfg0.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)
theorem pfound_1 {c : Dev nD} (dat : Dat τ (Elt F) Unit ℕ (UR sig nD τ) ℕ cfg0 c) (hA : dat.A 1 = V c (Pipeline.arrRef spec0 1))
    (hafter : ∀ t, dat.after 1 t = pblk V c 1 t) (t : Fin cfg0.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)
theorem pfound_2 {c : Dev nD} (dat : Dat τ (Elt F) Unit ℕ (UR sig nD τ) ℕ cfg0 c) (hA : dat.A 2 = V c (Pipeline.arrRef spec0 2))
    (hafter : ∀ t, dat.after 2 t = pblk V c 2 t) (t : Fin cfg0.N) (d) : dat.before 2 t d = pblk V c 2 t :=
  (dat.before_in_eq_fetched 2 rfl (fun _ => rfl) (fun _ _ _ => rfl) (fun t => by rw [hafter]; unfold Dat.blockOf pblk; rw [hA]; try rfl) t d).trans
    (by unfold Dat.fetched Dat.blockOf pblk; rw [hA]; try rfl)
theorem pfound_3 {c : Dev nD} (dat : Dat τ (Elt F) Unit ℕ (UR sig nD τ) ℕ cfg0 c) (hA : dat.A 3 = V c (Pipeline.arrRef spec0 3))
    (hafter : ∀ t, dat.after 3 t = pblk V c 3 t) (t : Fin cfg0.N) (d) : dat.before 3 t d = pblk V c 3 t :=
  (dat.before_in_eq_fetched 3 rfl (fun _ => rfl) (fun _ _ _ => rfl) (fun t => by rw [hafter]; unfold Dat.blockOf pblk; rw [hA]; try rfl) t d).trans
    (by unfold Dat.fetched Dat.blockOf pblk; rw [hA]; try rfl)
theorem pfound_4 {c : Dev nD} (dat : Dat τ (Elt F) Unit ℕ (UR sig nD τ) ℕ cfg0 c) (hA : dat.A 4 = V c (Pipeline.arrRef spec0 4))
    (hafter : ∀ t, dat.after 4 t = pblk V c 4 t) (t : Fin cfg0.N) (d) : dat.before 4 t d = pblk V c 4 t :=
  (dat.before_in_eq_fetched 4 rfl (fun _ => rfl) (fun _ _ _ => rfl) (fun t => by rw [hafter]; unfold Dat.blockOf pblk; rw [hA]; try rfl) t d).trans
    (by unfold Dat.fetched Dat.blockOf pblk; rw [hA]; try rfl)

/-! ## The memrefs the body is called with -/

abbrev pm_0 (t : Fin cfg0.N) : Memref sig .tc .vmem S32x256x256 .f32 := win0_0.stage (cfg0.slots t 0)
abbrev ph_0 (t : Fin cfg0.N) : (pm_0 t).IsWhole := hstage0_0 ((cfg0.slots t 0).cast nbuf0_0)
abbrev pm_1 (t : Fin cfg0.N) : Memref sig .tc .vmem S256x32 .f32 := win0_1.stage (cfg0.slots t 1)
abbrev ph_1 (t : Fin cfg0.N) : (pm_1 t).IsWhole := hstage0_1 ((cfg0.slots t 1).cast nbuf0_1)
abbrev pm_2 (t : Fin cfg0.N) : Memref sig .tc .vmem S1x32 .f32 := win0_2.stage (cfg0.slots t 2)
abbrev ph_2 (t : Fin cfg0.N) : (pm_2 t).IsWhole := hstage0_2 ((cfg0.slots t 2).cast nbuf0_2)
abbrev pm_3 (t : Fin cfg0.N) : Memref sig .tc .vmem S32x256 .f32 := win0_3.stage (cfg0.slots t 3)
abbrev ph_3 (t : Fin cfg0.N) : (pm_3 t).IsWhole := hstage0_3 ((cfg0.slots t 3).cast nbuf0_3)
abbrev pm_4 (t : Fin cfg0.N) : Memref sig .tc .vmem S1x256 .f32 := win0_4.stage (cfg0.slots t 4)
abbrev ph_4 (t : Fin cfg0.N) : (pm_4 t).IsWhole := hstage0_4 ((cfg0.slots t 4).cast nbuf0_4)
abbrev pm_5 (t : Fin cfg0.N) : Memref sig .tc .vmem S32x256 .f32 := win0_5.stage (cfg0.slots t 5)
abbrev ph_5 (t : Fin cfg0.N) : (pm_5 t).IsWhole := hstage0_5 ((cfg0.slots t 5).cast nbuf0_5)

/-- The scratch operand: one whole VMEM buffer, the same at every point. -/
abbrev pmS : Memref sig .tc .vmem S32x256 .f32 := Memref.whole cc0_scratch0
abbrev phS : pmS.IsWhole := Memref.isWhole_whole _

/-- One view of each shape through which stored pieces are read back (which one does not matter once the pieces cover). -/
abbrev VS : View sig .tc .vmem S32x256 .f32 := (Memref.whole cc0_scratch0 : Memref sig .tc .vmem S32x256 .f32).view
abbrev VO : View sig .tc .vmem S32x256 .f32 := (Memref.whole cc0_stg5_0 : Memref sig .tc .vmem S32x256 .f32).view

/-! ## The stored pieces cover their buffers -/

theorem cover_first (c : Dev nD) (i : grid0.Coords) (arg2 : Memref sig .tc .vmem S32x256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S32x256 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S32x256 .f32) (harg8 : arg8.IsWhole)
    (hF : isFirst i) (hL : ¬isLast i) (x0 : Vec F S32x256x256 .f32) (y : S32x256.Idx) :
    ∃ pc ∈ (runFirst c i arg2 harg2 arg3 harg3 arg4 harg4 arg5 harg5 arg6 harg6 arg7 harg7 arg8 harg8 hF hL x0).1, y ∈ pc.1.set :=
  View.cover_of_tiledL (runFirst c i arg2 harg2 arg3 harg3 arg4 harg4 arg5 harg5 arg6 harg6 arg7 harg7 arg8 harg8 hF hL x0).1 S32x256.size (by sl_kernel_rfl) y

theorem cover_middle (c : Dev nD) (i : grid0.Coords) (arg2 : Memref sig .tc .vmem S32x256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S32x256 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S32x256 .f32) (harg8 : arg8.IsWhole)
    (hF : ¬isFirst i) (hL : ¬isLast i) (x0 : Vec F S32x256x256 .f32) (s : Vec F S32x256 .f32) (y : S32x256.Idx) :
    ∃ pc ∈ (runMiddle c i arg2 harg2 arg3 harg3 arg4 harg4 arg5 harg5 arg6 harg6 arg7 harg7 arg8 harg8 hF hL x0 s).1, y ∈ pc.1.set :=
  View.cover_of_tiledL (runMiddle c i arg2 harg2 arg3 harg3 arg4 harg4 arg5 harg5 arg6 harg6 arg7 harg7 arg8 harg8 hF hL x0 s).1 S32x256.size (by sl_kernel_rfl) y

theorem cover_last_out (c : Dev nD) (i : grid0.Coords) (arg2 : Memref sig .tc .vmem S32x256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S32x256 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S32x256 .f32) (harg8 : arg8.IsWhole)
    (hF : ¬isFirst i) (hL : isLast i) (x0 : Vec F S32x256x256 .f32) (x1 : Vec F S256x32 .f32) (x2 : Vec F S1x32 .f32)
    (x3 : Vec F S32x256 .f32) (x4 : Vec F S1x256 .f32) (s : Vec F S32x256 .f32) (y : S32x256.Idx) :
    ∃ pc ∈ (runLast c i arg2 harg2 arg3 harg3 arg4 harg4 arg5 harg5 arg6 harg6 arg7 harg7 arg8 harg8 hF hL x0 x1 x2 x3 x4 s).1.1, y ∈ pc.1.set :=
  View.cover_of_tiledL (runLast c i arg2 harg2 arg3 harg3 arg4 harg4 arg5 harg5 arg6 harg6 arg7 harg7 arg8 harg8 hF hL x0 x1 x2 x3 x4 s).1.1 S32x256.size (by sl_kernel_rfl) y

theorem cover_last_scr (c : Dev nD) (i : grid0.Coords) (arg2 : Memref sig .tc .vmem S32x256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S32x256 .f32) (harg5 : arg5.IsWhole) (arg6 : Memref sig .tc .vmem S1x256 .f32) (harg6 : arg6.IsWhole) (arg7 : Memref sig .tc .vmem S32x256 .f32) (harg7 : arg7.IsWhole) (arg8 : Memref sig .tc .vmem S32x256 .f32) (harg8 : arg8.IsWhole)
    (hF : ¬isFirst i) (hL : isLast i) (x0 : Vec F S32x256x256 .f32) (x1 : Vec F S256x32 .f32) (x2 : Vec F S1x32 .f32)
    (x3 : Vec F S32x256 .f32) (x4 : Vec F S1x256 .f32) (s : Vec F S32x256 .f32) (y : S32x256.Idx) :
    ∃ pc ∈ (runLast c i arg2 harg2 arg3 harg3 arg4 harg4 arg5 harg5 arg6 harg6 arg7 harg7 arg8 harg8 hF hL x0 x1 x2 x3 x4 s).1.2, y ∈ pc.1.set :=
  View.cover_of_tiledL (runLast c i arg2 harg2 arg3 harg3 arg4 harg4 arg5 harg5 arg6 harg6 arg7 harg7 arg8 harg8 hF hL x0 x1 x2 x3 x4 s).1.2 S32x256.size (by sl_kernel_rfl) y

/-! ## What each case leaves, at a point -/

/-- The scratch after a first tile. -/
def scrFirst (c : Dev nD) (t : Fin cfg0.N) (hF : t.val % 16 = 0) : Vec F S32x256 .f32 :=
  VS.read (Elt F) (VS.writes (Elt F) VS.junk (runFirst c (grid0.coords t) (pm_0 t) (ph_0 t) (pm_1 t) (ph_1 t) (pm_2 t) (ph_2 t) (pm_3 t) (ph_3 t) (pm_4 t) (ph_4 t) (pm_5 t) (ph_5 t) pmS phS
    ((isFirst_iff t).mpr hF) (fun h => absurd ((isLast_iff t).mp h) (by omega)) (pblk V c 0 t)).1)

/-- The scratch after a middle tile, over the running sum `s` it found. -/
def scrMiddle (c : Dev nD) (t : Fin cfg0.N) (hF : ¬t.val % 16 = 0) (hL : ¬t.val % 16 = 15) (s : Vec F S32x256 .f32) : Vec F S32x256 .f32 :=
  VS.read (Elt F) (VS.writes (Elt F) VS.junk (runMiddle c (grid0.coords t) (pm_0 t) (ph_0 t) (pm_1 t) (ph_1 t) (pm_2 t) (ph_2 t) (pm_3 t) (ph_3 t) (pm_4 t) (ph_4 t) (pm_5 t) (ph_5 t) pmS phS
    (fun h => hF ((isFirst_iff t).mp h)) (fun h => hL ((isLast_iff t).mp h)) (pblk V c 0 t) s).1)

/-- The last tile's run at point `t`, over the running sum `s` it found. -/
def lastRun (c : Dev nD) (t : Fin cfg0.N) (hL : t.val % 16 = 15) (s : Vec F S32x256 .f32) :=
  runLast (F := F) c (grid0.coords t) (pm_0 t) (ph_0 t) (pm_1 t) (ph_1 t) (pm_2 t) (ph_2 t) (pm_3 t) (ph_3 t) (pm_4 t) (ph_4 t) (pm_5 t) (ph_5 t) pmS phS
    (fun h => absurd ((isFirst_iff t).mp h) (by omega)) ((isLast_iff t).mpr hL)
    (pblk V c 0 t) (pblk V c 1 t) (pblk V c 2 t) (pblk V c 3 t) (pblk V c 4 t) s

/-- The scratch after a last tile. -/
def scrLast (c : Dev nD) (t : Fin cfg0.N) (hL : t.val % 16 = 15) (s : Vec F S32x256 .f32) : Vec F S32x256 .f32 :=
  VS.read (Elt F) (VS.writes (Elt F) VS.junk (lastRun V c t hL s).1.2)

/-- The result's staging buffer after a last tile: the gate block of the shard. -/
def outLast (c : Dev nD) (t : Fin cfg0.N) (hL : t.val % 16 = 15) (s : Vec F S32x256 .f32) : Vec F S32x256 .f32 :=
  VO.read (Elt F) (VO.writes (Elt F) VO.junk (lastRun V c t hL s).1.1)

/-- THE RUNNING SUM: what the scratch holds after the body at position `n` of the grid. -/
def accN (c : Dev nD) : ℕ → Vec F S32x256 .f32
  | 0 => if hn : 0 < cfg0.N then scrFirst V c ⟨0, hn⟩ (Nat.zero_mod _) else k0_pay1
  | n + 1 =>
    if hn : n + 1 < cfg0.N then
      if hF : (n + 1) % 16 = 0 then scrFirst V c ⟨n + 1, hn⟩ hF
      else if hL : (n + 1) % 16 = 15 then scrLast V c ⟨n + 1, hn⟩ hL (accN c n)
      else scrMiddle V c ⟨n + 1, hn⟩ hF hL (accN c n)
    else k0_pay1

theorem accN_first (c : Dev nD) (t : Fin cfg0.N) (hF : t.val % 16 = 0) : accN V c t.val = scrFirst V c t hF := by
  obtain ⟨n, hn⟩ := t
  cases n with
  | zero => exact dif_pos hn
  | succ n => exact (dif_pos hn).trans (dif_pos hF)

theorem accN_middle (c : Dev nD) (t : Fin cfg0.N) (hF : ¬t.val % 16 = 0) (hL : ¬t.val % 16 = 15) :
    accN V c t.val = scrMiddle V c t hF hL (accN V c (t.val - 1)) := by
  obtain ⟨n, hn⟩ := t
  cases n with
  | zero => exact absurd (Nat.zero_mod _) hF
  | succ n => exact (dif_pos hn).trans ((dif_neg hF).trans (dif_neg hL))

theorem accN_last (c : Dev nD) (t : Fin cfg0.N) (hL : t.val % 16 = 15) :
    accN V c t.val = scrLast V c t hL (accN V c (t.val - 1)) := by
  obtain ⟨n, hn⟩ := t
  cases n with
  | zero => exact absurd (show (0 : ℕ) % 16 = 15 from hL) (by decide)
  | succ n =>
    have hL' : (n + 1) % 16 = 15 := hL
    exact (dif_pos hn).trans ((dif_neg (fun h : (n + 1) % 16 = 0 => by omega)).trans (dif_pos hL'))

/-- What the result's staging buffer holds after the body at position `n`, where that matters: at a last tile
    the gate block (elsewhere the body does not store into it, and nothing reads this value). -/
def outN (c : Dev nD) (n : ℕ) : Vec F S32x256 .f32 :=
  if hn : n < cfg0.N then
    if hL : n % 16 = 15 then outLast V c ⟨n, hn⟩ hL (accN V c (n - 1)) else k0_pay1
  else k0_pay1

theorem outN_last (c : Dev nD) (t : Fin cfg0.N) (hL : t.val % 16 = 15) :
    outN V c t.val = outLast V c t hL (accN V c (t.val - 1)) := by
  unfold outN; rw [dif_pos t.isLt, dif_pos hL]

/-! ## The invariant that carries the scratch -/

/-- The core's other scoped buffers that this call does not stage: the second call's staging buffers, each at
    some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The scoped rest of this call is its scratch and those. -/
theorem rest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others c) :=
  scopedRest0_eq c

/-- Before point `t`: the scratch at the running sum the point before left (at anything before point 0), the
    other scoped buffers untouched, the generator register at some state. -/
def poolInv (c : Dev nD) (t : Fin (cfg0.N + 1)) : sProp 𝕄 :=
  iprop((∃ g : Vec F S32x256 .f32, ⌜t.val ≠ 0 → g = accN V c (t.val - 1)⌝ ∗ owns (c : Thread nD τ) pmS fullShare g)
    ∗ others c ∗ ∃ r, prngReg c r)

/-! ## The proof data -/

def pdat (c : Dev nD) : Dat τ (Elt F) Unit ℕ (UR sig nD τ) ℕ cfg0 c where
  A w := V c (Pipeline.arrRef spec0 w)
  after w t := match w with
    | ⟨0, _⟩ => pblk V c 0 t
    | ⟨1, _⟩ => pblk V c 1 t
    | ⟨2, _⟩ => pblk V c 2 t
    | ⟨3, _⟩ => pblk V c 3 t
    | ⟨4, _⟩ => pblk V c 4 t
    | ⟨5, _⟩ => outN V c t.val
  Φ t := poolInv V c t
  q _ := fullShare
  owed _ := 0

theorem pdat_A (c : Dev nD) (w : Fin cfg0.W) : (pdat V c).A w = V c (Pipeline.arrRef spec0 w) := by
  dsimp only [pdat]
theorem pdat_after_0 (c : Dev nD) (t : Fin cfg0.N) : (pdat V c).after 0 t = pblk V c 0 t := by dsimp only [pdat]
theorem pdat_after_1 (c : Dev nD) (t : Fin cfg0.N) : (pdat V c).after 1 t = pblk V c 1 t := by dsimp only [pdat]
theorem pdat_after_2 (c : Dev nD) (t : Fin cfg0.N) : (pdat V c).after 2 t = pblk V c 2 t := by dsimp only [pdat]
theorem pdat_after_3 (c : Dev nD) (t : Fin cfg0.N) : (pdat V c).after 3 t = pblk V c 3 t := by dsimp only [pdat]
theorem pdat_after_4 (c : Dev nD) (t : Fin cfg0.N) : (pdat V c).after 4 t = pblk V c 4 t := by dsimp only [pdat]
theorem pdat_after_5 (c : Dev nD) (t : Fin cfg0.N) : (pdat V c).after 5 t = outN V c t.val := by dsimp only [pdat]
theorem pdat_inv (c : Dev nD) (t : Fin (cfg0.N + 1)) : (pdat V c).Φ t = poolInv V c t := by dsimp only [pdat]
theorem pdat_before_0 (c : Dev nD) (t : Fin cfg0.N) (d) : (pdat V c).before 0 t d = pblk V c 0 t :=
  pfound_0 V (pdat V c) (pdat_A V c 0) (pdat_after_0 V c) t d
theorem pdat_before_1 (c : Dev nD) (t : Fin cfg0.N) (d) : (pdat V c).before 1 t d = pblk V c 1 t :=
  pfound_1 V (pdat V c) (pdat_A V c 1) (pdat_after_1 V c) t d
theorem pdat_before_2 (c : Dev nD) (t : Fin cfg0.N) (d) : (pdat V c).before 2 t d = pblk V c 2 t :=
  pfound_2 V (pdat V c) (pdat_A V c 2) (pdat_after_2 V c) t d
theorem pdat_before_3 (c : Dev nD) (t : Fin cfg0.N) (d) : (pdat V c).before 3 t d = pblk V c 3 t :=
  pfound_3 V (pdat V c) (pdat_A V c 3) (pdat_after_3 V c) t d
theorem pdat_before_4 (c : Dev nD) (t : Fin cfg0.N) (d) : (pdat V c).before 4 t d = pblk V c 4 t :=
  pfound_4 V (pdat V c) (pdat_A V c 4) (pdat_after_4 V c) t d

end Cert.Kernel.Fr

end
-- ==== Proof.WPoolBody.lean ====
/-
  The body obligation of the first pallas_call: at every point of its grid, from the invariant (the scratch at
  the running sum the point before left), the core's dues and every window's staging buffer at what it then
  holds, the body runs to the invariant at the next point and every buffer at what the proof data say.
  The point's position modulo 16 selects the case: 0 — a first tile; 15 — a last tile, the only one that
  stores the result's buffer (and the only one that writes it back); anything else — a middle tile. At the
  points that are not last tiles the result's buffer is handed back as it was found.
-/
import proofs.«167597_j27084063768970_2_alg».proof.Proof.WPoolRegion

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the result's window is idle -/

theorem idle5_last (t : Fin cfg0.N) (hL : t.val % 16 = 15) : cfg0.idle (5 : Fin 6) (cfg0.grid.coords t) = false := by
  have h : k0_cond2 (grid0.coords t) = 1#1 := (isLast_iff t).mpr hL
  show (!(k0_cond2 (grid0.coords t) == 1#1)) = false
  rw [h]; rfl

theorem idle5_other (t : Fin cfg0.N) (hL : ¬t.val % 16 = 15) : cfg0.idle (5 : Fin 6) (cfg0.grid.coords t) = true := by
  have h : ¬k0_cond2 (grid0.coords t) = 1#1 := fun h => hL ((isLast_iff t).mp h)
  show (!(k0_cond2 (grid0.coords t) == 1#1)) = true
  rw [Bool.not_eq_true', beq_eq_false_iff_ne]; exact h

theorem flush5_other (t : Fin cfg0.N) (hL : ¬t.val % 16 = 15) : (cfg0.win 5).flush t = false :=
  Bool.eq_false_iff.mpr fun h => hL ((flush0_5 t).mp h)

/-- What the obligation says of the result's staging buffer after the body at point `t`. -/
def leaves5 (c : Dev nD) (t : Fin cfg0.N) : sProp 𝕄 :=
  match cfg0.idle (5 : Fin 6) (cfg0.grid.coords t) with
  | true =>
    match (cfg0.win 5).flush t with
    | false => iprop(∃ d, owns (c : Thread nD τ) (st0_5 t) fullShare ((pdat V c).before 5 t d))
    | true => owns (c : Thread nD τ) (st0_5 t) fullShare ((pdat V c).after 5 t)
  | false => owns (c : Thread nD τ) (st0_5 t) fullShare ((pdat V c).after 5 t)

theorem leaves5_last (c : Dev nD) (t : Fin cfg0.N) (hL : t.val % 16 = 15) :
    leaves5 V c t = owns (c : Thread nD τ) (st0_5 t) fullShare ((pdat V c).after 5 t) := by
  unfold leaves5; rw [idle5_last t hL]

theorem leaves5_other (c : Dev nD) (t : Fin cfg0.N) (hL : ¬t.val % 16 = 15) :
    leaves5 V c t = iprop(∃ d, owns (c : Thread nD τ) (st0_5 t) fullShare ((pdat V c).before 5 t d)) := by
  unfold leaves5; rw [idle5_other t hL, flush5_other t hL]

/-! ## The obligation at a point -/

/-- What the body is called with at point `t`, -/
def pPre (c : Dev nD) (t : Fin cfg0.N) : sProp 𝕄 :=
  iprop((pdat V c).Φ t.castSucc ∗ (pdat V c).owesAt () t.castSucc
    ∗ (∃ d, owns (c : Thread nD τ) (st0_0 t) fullShare ((pdat V c).before 0 t d))
    ∗ (∃ d, owns (c : Thread nD τ) (st0_1 t) fullShare ((pdat V c).before 1 t d))
    ∗ (∃ d, owns (c : Thread nD τ) (st0_2 t) fullShare ((pdat V c).before 2 t d))
    ∗ (∃ d, owns (c : Thread nD τ) (st0_3 t) fullShare ((pdat V c).before 3 t d))
    ∗ (∃ d, owns (c : Thread nD τ) (st0_4 t) fullShare ((pdat V c).before 4 t d))
    ∗ (∃ d, owns (c : Thread nD τ) (st0_5 t) fullShare ((pdat V c).before 5 t d)))

/-- and what it returns. -/
def pPost (c : Dev nD) (t : Fin cfg0.N) : sProp 𝕄 :=
  iprop((pdat V c).Φ t.succ ∗ (pdat V c).owesAt () t.succ
    ∗ owns (c : Thread nD τ) (st0_0 t) fullShare ((pdat V c).after 0 t)
    ∗ owns (c : Thread nD τ) (st0_1 t) fullShare ((pdat V c).after 1 t)
    ∗ owns (c : Thread nD τ) (st0_2 t) fullShare ((pdat V c).after 2 t)
    ∗ owns (c : Thread nD τ) (st0_3 t) fullShare ((pdat V c).after 3 t)
    ∗ owns (c : Thread nD τ) (st0_4 t) fullShare ((pdat V c).after 4 t)
    ∗ leaves5 V c t)

set_option maxHeartbeats 1600000 in
theorem pool_body (c : Dev nD) (t : Fin cfg0.N) :
    pPre V c t ⊢ wp frame (wpE (defs₀ (F := F)) Variants.none c none) Set.univ (bodyAt0 t) (fun _ => pPost V c t) := by
  unfold pPre pPost bodyAt0
  simp only [pdat_before_0, pdat_before_1, pdat_before_2, pdat_before_3, pdat_before_4]
  rw [show (pdat V c).owesAt () t.succ = (pdat V c).owesAt () t.castSucc from rfl,
    pdat_after_0, pdat_after_1, pdat_after_2, pdat_after_3, pdat_after_4, pdat_inv, pdat_inv]
  unfold poolInv
  have hN : t.val < 32 := lt_of_lt_of_eq t.isLt (show cfg0.N = 32 from N_0)
  by_cases hF : t.val % 16 = 0
  · -- a first tile: the scratch is started afresh
    have hL : ¬t.val % 16 = 15 := by omega
    rw [leaves5_other V c t hL]
    iintro ⟨⟨⟨%g, -, Hs⟩, Hoth, Hp⟩, Ho, ⟨%d0, H0⟩, ⟨%d1, H1⟩, ⟨%d2, H2⟩, ⟨%d3, H3⟩, ⟨%d4, H4⟩, H5⟩
    iapply ((runFirst c (grid0.coords t) (pm_0 t) (ph_0 t) (pm_1 t) (ph_1 t) (pm_2 t) (ph_2 t) (pm_3 t) (ph_3 t) (pm_4 t) (ph_4 t) (pm_5 t) (ph_5 t) pmS phS ((isFirst_iff t).mpr hF)
      (fun h => absurd ((isLast_iff t).mp h) (by omega)) (pblk V c 0 t)).2 Set.univ _)
    isplitl [H0]; · iexact H0
    isplitl [Hs]; · iexists _; iexact Hs
    iintro ⟨H0, ⟨%e8, H8⟩⟩
    isplitl [H8 Hoth Hp]
    · isplitl [H8]
      · iexists (accN V c t.val)
        isplitr; · ipureintro; exact fun _ => rfl
        rw [accN_first V c t hF]; unfold scrFirst owns
        iexists _; isplitr
        swap; · iexact H8
        ipureintro; exact View.read_writes_of_cover _ _ _ _ _ (cover_first c _ _ _ _ _ _ _ _ _ _ _ _ _ _ _ _ _ _)
      isplitl [Hoth]; · iexact Hoth
      iexact Hp
    isplitl [Ho]; · iexact Ho
    isplitl [H0]; · iexact H0
    isplitl [H1]; · iexact H1
    isplitl [H2]; · iexact H2
    isplitl [H3]; · iexact H3
    isplitl [H4]; · iexact H4
    iexact H5
  · by_cases hL : t.val % 16 = 15
    · -- a last tile: accumulate, then the gate block into the result's buffer
      rw [leaves5_last V c t hL, pdat_after_5, outN_last V c t hL]
      iintro ⟨⟨⟨%g, %hg, Hs⟩, Hoth, Hp⟩, Ho, ⟨%d0, H0⟩, ⟨%d1, H1⟩, ⟨%d2, H2⟩, ⟨%d3, H3⟩, ⟨%d4, H4⟩, ⟨%d5, H5⟩⟩
      have hg' : g = accN V c (t.val - 1) := hg (by show t.val ≠ 0; omega)
      subst hg'
      iapply ((lastRun V c t hL (accN V c (t.val - 1))).2 Set.univ _)
      isplitl [H0]; · iexact H0
      isplitl [H1]; · iexact H1
      isplitl [H2]; · iexact H2
      isplitl [H3]; · iexact H3
      isplitl [H4]; · iexact H4
      isplitl [H5]; · iexists _; iexact H5
      isplitl [Hs]; · iexact Hs
      iintro ⟨H0, H1, H2, H3, H4, ⟨%e7, H7⟩, ⟨%e8, H8⟩⟩
      isplitl [H8 Hoth Hp]
      · isplitl [H8]
        · iexists (accN V c t.val)
          isplitr; · ipureintro; exact fun _ => rfl
          rw [accN_last V c t hL]; unfold scrLast owns
          iexists _; isplitr
          swap; · iexact H8
          ipureintro; exact View.read_writes_of_cover _ _ _ _ _ (cover_last_scr c _ _ _ _ _ _ _ _ _ _ _ _ _ _ _ _ _ _ _ _ _ _ _)
        isplitl [Hoth]; · iexact Hoth
        iexact Hp
      isplitl [Ho]; · iexact Ho
      isplitl [H0]; · iexact H0
      isplitl [H1]; · iexact H1
      isplitl [H2]; · iexact H2
      isplitl [H3]; · iexact H3
      isplitl [H4]; · iexact H4
      unfold outLast owns
      iexists _; isplitr
      swap; · iexact H7
      ipureintro; exact View.read_writes_of_cover _ _ _ _ _ (cover_last_out c _ _ _ _ _ _ _ _ _ _ _ _ _ _ _ _ _ _ _ _ _ _ _)
    · -- a middle tile: accumulate
      rw [leaves5_other V c t hL]
      iintro ⟨⟨⟨%g, %hg, Hs⟩, Hoth, Hp⟩, Ho, ⟨%d0, H0⟩, ⟨%d1, H1⟩, ⟨%d2, H2⟩, ⟨%d3, H3⟩, ⟨%d4, H4⟩, H5⟩
      have hg' : g = accN V c (t.val - 1) := hg (by show t.val ≠ 0; omega)
      subst hg'
      iapply ((runMiddle c (grid0.coords t) (pm_0 t) (ph_0 t) (pm_1 t) (ph_1 t) (pm_2 t) (ph_2 t) (pm_3 t) (ph_3 t) (pm_4 t) (ph_4 t) (pm_5 t) (ph_5 t) pmS phS (fun h => hF ((isFirst_iff t).mp h))
        (fun h => hL ((isLast_iff t).mp h)) (pblk V c 0 t) (accN V c (t.val - 1))).2 Set.univ _)
      isplitl [H0]; · iexact H0
      isplitl [Hs]; · iexact Hs
      iintro ⟨H0, ⟨%e8, H8⟩⟩
      isplitl [H8 Hoth Hp]
      · isplitl [H8]
        · iexists (accN V c t.val)
          isplitr; · ipureintro; exact fun _ => rfl
          rw [accN_middle V c t hF hL]; unfold scrMiddle owns
          iexists _; isplitr
          swap; · iexact H8
          ipureintro; exact View.read_writes_of_cover _ _ _ _ _ (cover_middle c _ _ _ _ _ _ _ _ _ _ _ _ _ _ _ _ _ _ _)
        isplitl [Hoth]; · iexact Hoth
        iexact Hp
      isplitl [Ho]; · iexact Ho
      isplitl [H0]; · iexact H0
      isplitl [H1]; · iexact H1
      isplitl [H2]; · iexact H2
      isplitl [H3]; · iexact H3
      isplitl [H4]; · iexact H4
      iexact H5

/-- The library's body obligation for the region, at every point. -/
theorem pool_obligation (c : Dev nD) : BodyObligation (pdat (F := F) V c) (defs₀ (F := F)) Variants.none () Set.univ := fun t => by
  rw [bigSep_W0, bigSep_W0]
  exact pool_body V c t

end Cert.Kernel.Fr

end
-- ==== Proof.WScaleRegion.lean ====
/-
  The second pallas_call — the broadcast multiply — as one region of the program, at any float instance.

  Its grid has 32 points; point t stages rows [128 t, 128 t + 128) of the sequence axis of the activations
  (a block [64, 128, 256]) and the whole gate [64, 256] (fetched once: its block index never moves), and
  writes back the block of the result at the same rows. The body loads the two blocks whole, multiplies the
  activation block by the gate broadcast along the sequence axis, and stores the product whole: what it
  leaves in the result's staging buffer is one pure function of the two input blocks (`scaled`).
  Nothing is carried from point to point; the region's invariant is the untouched scoped rest and the
  generator register.
-/
import proofs.«167597_j27084063768970_2_alg».proof.Proof.Gen.Kernel.Launch
import proofs.«167597_j27084063768970_2_alg».proof.Proof.Gen.Kernel.Skeleton
import proofs.«167597_j27084063768970_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: a parameter here, fixed by the whole run
variable (V : (c : Dev nD) → (b : Ref sig .tc) → Buf (Elt F) ((c : Thread nD τ).loc b))

/-! ## The blocks the pipeline stages -/

/-- Window `w`'s block at point `t`, read off its array as the region finds it. -/
def sblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's block whenever the body runs, for any proof data over
    `V` whose body leaves that block in place. -/
theorem sfound_0 {c : Dev nD} (dat : Dat τ (Elt F) Unit ℕ (UR sig nD τ) ℕ cfg1 c) (hA : dat.A 0 = V c (Pipeline.arrRef spec1 0))
    (hafter : ∀ t, dat.after 0 t = sblk V c 0 t) (t : Fin cfg1.N) (d) : dat.before 0 t d = sblk V c 0 t :=
  (dat.before_in_eq_fetched 0 rfl (fun _ => rfl) (fun _ _ _ => rfl) (fun t => by rw [hafter]; unfold Dat.blockOf sblk; rw [hA]; try rfl) t d).trans
    (by unfold Dat.fetched Dat.blockOf sblk; rw [hA]; try rfl)

/-- The gate's staging buffer holds the whole gate at every point: fetched at the first, its index never moves. -/
theorem sfound_1 {c : Dev nD} (dat : Dat τ (Elt F) Unit ℕ (UR sig nD τ) ℕ cfg1 c) (hA : dat.A 1 = V c (Pipeline.arrRef spec1 1))
    (hafter : ∀ t, dat.after 1 t = sblk V c 1 t) (t : Fin cfg1.N) (d) : dat.before 1 t d = sblk V c 1 t :=
  (dat.before_in_eq_fetched 1 rfl (fun _ => rfl) (fun _ _ _ => rfl) (fun t => by rw [hafter]; unfold Dat.blockOf sblk; rw [hA]; try rfl) t d).trans
    (by unfold Dat.fetched Dat.blockOf sblk; rw [hA]; try rfl)

/-! ## What the body leaves in the result's staging buffer -/

/-- The whole rectangle of the activation block, and of the gate. -/
abbrev rX : Rect S64x128x256 := Rect.unit (s := S64x128x256) ![0, 0, 0] S64x128x256.size inb_S64x128x256_S64x128x256_0_0_0
abbrev rG : Rect S64x256 := Rect.unit (s := S64x256) ![0, 0] S64x256.size inb_S64x256_S64x256_0_0

/-- The result's staging buffer after the body: its one whole store, of the product of the loaded blocks. -/
def scaled (x0 : Vec F S64x128x256 .f32) (x1 : Vec F S64x256 .f32) : Vec F S64x128x256 .f32 :=
  View.canon [⟨rX, k1_pay1 (View.ld x0 rX) (View.ld x1 rG)⟩]

/-- The one store covers the buffer. -/
theorem scaled_cover (p0 : Vec F S64x128x256 .f32) (y : S64x128x256.Idx) :
    ∃ pc ∈ ([⟨rX, p0⟩] : List (View.Piece (Elt F) S64x128x256 .f32)), y ∈ pc.1.set :=
  View.cover_of_tiled [⟨rX, p0⟩] S64x128x256.size (by rfl) y

set_option maxHeartbeats 1000000 in
/-- The body on whole staging memrefs — the inputs' at contents `x0`, `x1`, the result's at anything — runs
    to its return with the inputs' as they were and the result's at `scaled x0 x1`. -/
theorem scale_runs (c : Dev nD) (E : Set ℕ) (i : grid1.Coords) (arg1 : Memref sig .tc .vmem S64x128x256 .f32) (harg1 : arg1.IsWhole)
    (arg2 : Memref sig .tc .vmem S64x256 .f32) (harg2 : arg2.IsWhole) (arg3 : Memref sig .tc .vmem S64x128x256 .f32) (harg3 : arg3.IsWhole)
    (x0 : Vec F S64x128x256 .f32) (x1 : Vec F S64x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (scaled x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (scaled_cover _)

/-! ## The proof data and the body obligation -/

/-- The region's proof data on core `c`: the arrays as the region finds them; after the body each input's
    buffer at its block and the result's at `scaled` of the two blocks; nothing carried, nothing owed. -/
def sdat (c : Dev nD) : Dat τ (Elt F) Unit ℕ (UR sig nD τ) ℕ cfg1 c where
  A w := V c (Pipeline.arrRef spec1 w)
  after w t := match w with
    | ⟨0, _⟩ => sblk V c 0 t
    | ⟨1, _⟩ => sblk V c 1 t
    | ⟨2, _⟩ => scaled (sblk V c 0 t) (sblk V c 1 t)
  Φ _ := Pipeline.ΦA spec1 c
  q _ := fullShare
  owed _ := 0

theorem sdat_A (c : Dev nD) (w : Fin cfg1.W) : (sdat V c).A w = V c (Pipeline.arrRef spec1 w) := by
  dsimp only [sdat]
theorem sdat_after_0 (c : Dev nD) (t : Fin cfg1.N) : (sdat V c).after 0 t = sblk V c 0 t := by dsimp only [sdat]
theorem sdat_after_1 (c : Dev nD) (t : Fin cfg1.N) : (sdat V c).after 1 t = sblk V c 1 t := by dsimp only [sdat]
theorem sdat_after_2 (c : Dev nD) (t : Fin cfg1.N) : (sdat V c).after 2 t = scaled (sblk V c 0 t) (sblk V c 1 t) := by dsimp only [sdat]

theorem sdat_before_0 (c : Dev nD) (t : Fin cfg1.N) (d) : (sdat V c).before 0 t d = sblk V c 0 t :=
  sfound_0 V (sdat V c) (sdat_A V c 0) (sdat_after_0 V c) t d
theorem sdat_before_1 (c : Dev nD) (t : Fin cfg1.N) (d) : (sdat V c).before 1 t d = sblk V c 1 t :=
  sfound_1 V (sdat V c) (sdat_A V c 1) (sdat_after_1 V c) t d

/-- What the body is called with at point `t`, -/
def sPre (c : Dev nD) (t : Fin cfg1.N) : sProp 𝕄 :=
  iprop((sdat V c).Φ t.castSucc ∗ (sdat V c).owesAt () t.castSucc
    ∗ (∃ d, owns (c : Thread nD τ) (st1_0 t) fullShare ((sdat V c).before 0 t d))
    ∗ (∃ d, owns (c : Thread nD τ) (st1_1 t) fullShare ((sdat V c).before 1 t d))
    ∗ (∃ d, owns (c : Thread nD τ) (st1_2 t) fullShare ((sdat V c).before 2 t d)))

/-- and what it returns. -/
def sPost (c : Dev nD) (t : Fin cfg1.N) : sProp 𝕄 :=
  iprop((sdat V c).Φ t.succ ∗ (sdat V c).owesAt () t.succ
    ∗ owns (c : Thread nD τ) (st1_0 t) fullShare ((sdat V c).after 0 t)
    ∗ owns (c : Thread nD τ) (st1_1 t) fullShare ((sdat V c).after 1 t)
    ∗ owns (c : Thread nD τ) (st1_2 t) fullShare ((sdat V c).after 2 t))

theorem scale_body (c : Dev nD) (t : Fin cfg1.N) :
    sPre V c t ⊢ wp frame (wpE (defs₀ (F := F)) Variants.none c none) Set.univ (bodyAt1 t) (fun _ => sPost V c t) := by
  unfold sPre sPost bodyAt1
  simp only [sdat_before_0, sdat_before_1]
  rw [show (sdat V c).Φ t.succ = (sdat V c).Φ t.castSucc from rfl,
    show (sdat V c).owesAt () t.succ = (sdat V c).owesAt () t.castSucc from rfl,
    sdat_after_0, sdat_after_1, sdat_after_2]
  iintro ⟨HΦ, Ho, ⟨%d0, H0⟩, ⟨%d1, H1⟩, ⟨%d2, H2⟩⟩
  iapply (scale_runs c Set.univ _ _ _ _ _ _ _ (sblk V c 0 t) (sblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the region, at every point. -/
theorem scale_obligation (c : Dev nD) : BodyObligation (sdat (F := F) V c) (defs₀ (F := F)) Variants.none () Set.univ := fun t => by
  rw [bigSep_W1, bigSep_W1]
  exact scale_body V c t

end Cert.Kernel.Fr

end
-- ==== Proof.WWholeRun.lean ====
/-
  The kernel program's whole run, at any float instance (read here for the program as printed, word by word): @main is a stretch of two host reshapes
  (the bias vectors recast as rows), then the pooling-and-gate call, then the scaling call. Between two
  segments the core holds every unscoped buffer at contents that are a fold from the launch memory: after the
  host stretch the reshapes' results; after a call, its arrays at what the pipeline's write-backs leave
  (the library's `arrAt` of the call's proof data) and every other buffer as the call found it.
  Each call is one segment: its arrays are split out of the unscoped buffers on entry and put back on exit;
  the first call's scratch enters and leaves the invariant of its proof data. The run ends with every
  unscoped buffer at the last fold, which is what both the frame claim and the value claim read.
-/
import proofs.«167597_j27084063768970_2_alg».proof.Proof.WPoolBody
import proofs.«167597_j27084063768970_2_alg».proof.Proof.WScaleRegion

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 (c : Dev nD) : Valuation τ sig (Elt F) := fun b => m (c, b)
/-- After the two host reshapes (the first call's entry). -/
abbrev W1 (c : Dev nD) : Valuation τ sig (Elt F) := StableHlo.after hostOps0 (W0 m c)
/-- The same read at the TensorCore's references. -/
abbrev E1 : (c : Dev nD) → (b : Ref sig .tc) → Buf (Elt F) ((c : Thread nD τ).loc b) := fun c b => W1 m c b
/-- After the first call: its arrays at what its write-backs leave, every other buffer as entered. -/
def W2 (c : Dev nD) : Valuation τ sig (Elt F) :=
  Pipeline.withArrays spec0 c (W1 m c) fun w => (pdat (E1 m) c).arrAt w cfg0.N
theorem W2_arr (c : Dev nD) (w : Fin cfg0.W) :
    W2 m c (Proc.devRef .tc (Pipeline.arrRef spec0 w)) = (pdat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem exit0_arr (c : Dev nD) (w : Fin cfg0.W) : (pdat (E1 m) c).arrAt w cfg0.N = E2 m c (Pipeline.arrRef spec0 w) :=
  (W2_arr m c w).symm
theorem exit0_rest (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second call (the end of @main). -/
def W3 (c : Dev nD) : Valuation τ sig (Elt F) :=
  Pipeline.withArrays spec1 c (W2 m c) fun w => (sdat (E2 m) c).arrAt w cfg1.N
theorem W3_arr (c : Dev nD) (w : Fin cfg1.W) :
    W3 m c (Proc.devRef .tc (Pipeline.arrRef spec1 w)) = (sdat (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem exit1_arr (c : Dev nD) (w : Fin cfg1.W) : (sdat (E2 m) c).arrAt w cfg1.N = E3 m c (Pipeline.arrRef spec1 w) :=
  (W3_arr m c w).symm
theorem exit1_rest (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The arguments end as launched

No host operation writes an argument; a call reads it through an input window (whose array the pipeline
never writes) or does not touch it. -/

theorem W1_main_arg0 (c : Dev nD) : W1 m c (Proc.devRef .tc main_arg0) = m ((c : Thread nD τ).loc main_arg0) :=
  StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
theorem W1_main_arg1 (c : Dev nD) : W1 m c (Proc.devRef .tc main_arg1) = m ((c : Thread nD τ).loc main_arg1) :=
  StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
theorem W1_main_arg2 (c : Dev nD) : W1 m c (Proc.devRef .tc main_arg2) = m ((c : Thread nD τ).loc main_arg2) :=
  StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
theorem W1_main_arg3 (c : Dev nD) : W1 m c (Proc.devRef .tc main_arg3) = m ((c : Thread nD τ).loc main_arg3) :=
  StableHlo.after_of_forall_not_mem (b := Proc.devRef .tc main_arg3) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
theorem W1_main_arg4 (c : Dev nD) : W1 m c (Proc.devRef .tc main_arg4) = m ((c : Thread nD τ).loc main_arg4) :=
  StableHlo.after_of_forall_not_mem (b := Proc.devRef .tc main_arg4) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))

/-- The first call leaves each of its input arrays as it found it. -/
theorem W2_input (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((pdat (E1 m) c).arrAt_in w hw _).trans (pdat_A (E1 m) c w))

theorem W2_main_arg0 (c : Dev nD) : W2 m c (Proc.devRef .tc main_arg0) = m ((c : Thread nD τ).loc main_arg0) :=
  (W2_input m c 0 rfl).trans (W1_main_arg0 m c)
theorem W2_main_arg1 (c : Dev nD) : W2 m c (Proc.devRef .tc main_arg1) = m ((c : Thread nD τ).loc main_arg1) :=
  (W2_input m c 1 rfl).trans (W1_main_arg1 m c)
theorem W2_main_arg2 (c : Dev nD) : W2 m c (Proc.devRef .tc main_arg2) = m ((c : Thread nD τ).loc main_arg2) :=
  (W2_of_ne m c main_arg2 (by decide)).trans (W1_main_arg2 m c)
theorem W2_main_arg3 (c : Dev nD) : W2 m c (Proc.devRef .tc main_arg3) = m ((c : Thread nD τ).loc main_arg3) :=
  (W2_input m c 3 rfl).trans (W1_main_arg3 m c)
theorem W2_main_arg4 (c : Dev nD) : W2 m c (Proc.devRef .tc main_arg4) = m ((c : Thread nD τ).loc main_arg4) :=
  (W2_of_ne m c main_arg4 (by decide)).trans (W1_main_arg4 m c)

/-- The second call leaves each of its input arrays as it found it. -/
theorem W3_input (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((sdat (E2 m) c).arrAt_in w hw _).trans (sdat_A (E2 m) c w))

theorem W3_main_arg0 (c : Dev nD) : W3 m c (Proc.devRef .tc main_arg0) = m ((c : Thread nD τ).loc main_arg0) :=
  (W3_input m c 0 rfl).trans (W2_main_arg0 m c)
theorem W3_main_arg1 (c : Dev nD) : W3 m c (Proc.devRef .tc main_arg1) = m ((c : Thread nD τ).loc main_arg1) :=
  (W3_of_ne m c main_arg1 (by decide)).trans (W2_main_arg1 m c)
theorem W3_main_arg2 (c : Dev nD) : W3 m c (Proc.devRef .tc main_arg2) = m ((c : Thread nD τ).loc main_arg2) :=
  (W3_of_ne m c main_arg2 (by decide)).trans (W2_main_arg2 m c)
theorem W3_main_arg3 (c : Dev nD) : W3 m c (Proc.devRef .tc main_arg3) = m ((c : Thread nD τ).loc main_arg3) :=
  (W3_of_ne m c main_arg3 (by decide)).trans (W2_main_arg3 m c)
theorem W3_main_arg4 (c : Dev nD) : W3 m c (Proc.devRef .tc main_arg4) = m ((c : Thread nD τ).loc main_arg4) :=
  (W3_of_ne m c main_arg4 (by decide)).trans (W2_main_arg4 m c)

/-- The result buffer at the end is what the second call's write-backs leave of its result window. -/
theorem W3_main_v3 (c : Dev nD) : W3 m c (Proc.devRef .tc main_v3) = (sdat (E2 m) c).arrAt 2 cfg1.N :=
  W3_arr m c 2
/-- The gate the second call reads is what the first call's write-backs leave of its result window. -/
theorem E2_main_v2 (c : Dev nD) : E2 m c main_v2 = (pdat (E1 m) c).arrAt 5 cfg0.N :=
  W2_arr m c 5

/-! ## The proof data family and the thread state -/

/-- No call has a prefetched table. -/
abbrev adm : (p : Fin 2) → (pcfgs (F := F) p).Adm := fun p => (cfgs p).toPCfg_adm
/-- Each call's proof data at its entry contents. -/
def rdats : (p : Fin 2) → (c : Dev nD) → Dat τ (Elt F) Unit ℕ (UR sig nD τ) ℕ (Pipeline.pin (pcfgs (F := F)) adm p) c
  | ⟨0, _⟩ => fun c => pdat (E1 m) c
  | ⟨1, _⟩ => fun c => sdat (E2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The host stretch as a segment from the launch contents. -/
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last fold, the generator register somewhere. -/
abbrev Tend (c : Dev nD) : sProp 𝕄 := iprop(StableHlo.held (c : Thread nD τ) (Pipeline.ucRefs τ sig) (W3 m c) ∗ ∃ r, prngReg c r)

/-! ## The two calls as segments -/

/-- The scoped rest of the first call, spelt over the pinned configuration: its scratch and the other call's staging buffers. -/
theorem rest_split_pin (c : Dev nD) :
    (Pipeline.scopedRest (Ix := Unit) (Name := ℕ) (U := UR sig nD τ) (Lvl := ℕ) (Val := Elt F) (Pipeline.pin (pcfgs (F := F)) adm 0).spec c : sProp 𝕄)
      = iprop((∃ f : Buf (Elt F) ((c : Thread nD τ).loc cc0_scratch0), ((c : Thread nD τ).loc cc0_scratch0) ↦{fullShare} f) ∗ others c) :=
  rest_split c

set_option backward.isDefEq.respectTransparency.types false in
/-- THE POOLING CALL over the thread state: entered from every unscoped buffer at `W1`, left at `W2`. The
    generator register and the scoped rest — the scratch among it, at anything — make the invariant before
    point 0; after the last point the invariant gives them back, the scratch's running sum forgotten. -/
def poolSeg : Pipeline.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (pool_obligation (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (rdats m) launch0.win launch0.arr_whole c
      ((rdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = poolInv (E1 m) c 0 from rfl, rest_split_pin]; unfold poolInv
    simp only [owns_whole]
    iintro ⟨Hp, -, ⟨%f, Hs⟩, Hoth⟩
    isplitl [Hs]
    · iexists f; isplitr; · ipureintro; exact fun h => absurd rfl h
      iexact Hs
    isplitl [Hoth]; · iexact Hoth
    iexact Hp
  hout c := by
    rw [Pipeline.ownSems0_none, show (rdats m 0 c).Φ (Fin.last _) = poolInv (E1 m) c (Fin.last _) from rfl, rest_split_pin]; unfold poolInv
    simp only [owns_whole]
    iintro ⟨⟨%g, -, Hs⟩, Hoth, Hp⟩
    isplitl [Hp]; · iexact Hp
    isplitr; · iempintro
    isplitl [Hs]; · iexists g; iexact Hs
    iexact Hoth
  hexit c := by
    have hjoin := Pipeline.unscopedBufs_of_arrays (p := 0) (pcfgs (F := F)) adm (Ix := Unit) (Name := ℕ) (U := UR sig nD τ) (Lvl := ℕ)
      launch0.win launch0.arr_whole c (rdats m) ((rdats m 0 c).share_full fun _ => rfl)
      (E1 m c) (E2 m c) ((rdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCALING CALL over the thread state: entered from every unscoped buffer at `W2`, left at `W3`; nothing
    carried, the generator register and the scoped rest in and out of the plain invariant. -/
def scaleSeg : Pipeline.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (scale_obligation (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (rdats m) launch1.win launch1.arr_whole c
      ((rdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (rdats m) ((rdats m 1 c).share_full fun _ => rfl)
      (E2 m c) (E3 m c) ((rdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (rdats m) () defs₀ 𝒱₀ L lv) :=
  [ .host (hseg m), .region (poolSeg m), .region (scaleSeg m) ]

theorem main_run (c : Dev nD) : main (F := F) c = Pipeline.Seg.run (segs m) := (main_chain c).trans (by chain_rfl)

set_option backward.isDefEq.respectTransparency.types false in
/-- THE RUN: from any memory with zero counters, every weakly fair execution of @main terminates without a fault,
    and the final memory holds every unscoped buffer of every core at the last fold `W3`. -/
theorem runs : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (rdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME, at any float instance: the run ends with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (runs m ρ)

end Cert.Kernel.Fr

end
-- ==== Proof.RefSide.lean ====
/-
  The reference program computes the squeeze-and-excite gate of the specification.

  Read stage by stage at an index: the reduce over the sequence axis, started from the word of +0.0, is the
  pooled sum; dividing it by the word of 4096.0 is multiplying by 1/4096 at every extended real, which is the
  mean; the first contraction plus its broadcast bias, rectified against a broadcast zero, is the hidden
  layer; the second contraction plus its bias, passed through 1 / (1 + exp (-v)), is the logistic gate; the
  two broadcasts carry the gate of (row, channel) to every sequence position, where it multiplies the entry.
-/
import proofs.«167597_j27084063768970_2_alg».proof.Proof.Gen.ReferenceIdeal.Read
import proofs.«167597_j27084063768970_2_alg».proof.Proof.Spec

noncomputable section

namespace Cert.SEGate

open Idealize.ShloMosaic Idealize.ShloMosaic.ValueIdx Cert.ReferenceIdeal Cert.ReferenceIdeal.Read

/-- The quotient of the reduce by 4096 at (row b, channel c) is the sequence mean. -/
theorem ref_mean (x0 : (⟨S64x4096x256, .f32⟩ : BufTy).Contents (Elt Ideal)) (b : Fin 64) (c : Fin 256) :
    val_main_v2 (F := Ideal) x0 (ix2 b c) = mean x0 b c := by
  rw [val_main_v2_apply, val_main_v0_apply, val_main_v1_apply, val_main_cst_0_apply, val_main_cst_apply]
  rw [Ideal.hostDivf_def, Ideal.ofBits_def, Ideal.ofBits_def, word_zero, word_4096, zero_add,
    Ideal.div_coe (by norm_num : (4096 : ℝ) ≠ 0)]
  have e : ∀ k : Fin 4096, idx_main_v0 (ix2 b c) k = ix3 b k c := fun k =>
    funext fun a => Fin.ext (by match a with | ⟨0, _⟩ => rfl | ⟨1, _⟩ => rfl | ⟨2, _⟩ => rfl)
  simp only [e]
  rfl

/-- The rectified first affine layer at (row b, unit h) is the hidden layer. -/
theorem ref_hidden (x0 : (⟨S64x4096x256, .f32⟩ : BufTy).Contents (Elt Ideal))
    (x1 : (⟨S256x32, .f32⟩ : BufTy).Contents (Elt Ideal)) (x2 : (⟨S32, .f32⟩ : BufTy).Contents (Elt Ideal))
    (b : Fin 64) (h : Fin 32) :
    val_main_v7 (F := Ideal) x0 x1 x2 (ix2 b h) = hidden x0 x1 x2 b h := by
  rw [val_main_v7_apply, val_main_v6_apply, val_main_v3_apply, val_main_v5_apply, val_main_v4_apply,
    val_main_call0_v0_apply, val_main_call0_cst_apply]
  rw [Ideal.maximumf_def, Ideal.addf_def, Ideal.ofBits_def, word_zero]
  have el : ∀ k : Fin 256, lidx_main_v3 (ix2 b h) k = ix2 b k := fun k =>
    funext fun a => Fin.ext (by match a with | ⟨0, _⟩ => rfl | ⟨1, _⟩ => rfl)
  have er : ∀ k : Fin 256, ridx_main_v3 (ix2 b h) k = ix2 k h := fun k =>
    funext fun a => Fin.ext (by match a with | ⟨0, _⟩ => rfl | ⟨1, _⟩ => rfl)
  have eb : idx_main_v4 (idx_main_v5 (ix2 b h)) = ix1 h :=
    funext fun a => Fin.ext (by match a with | ⟨0, _⟩ => rfl)
  simp only [el, er, eb, ref_mean]
  rfl

/-- The logistic of the second affine layer at (row b, channel c) is the gate. -/
theorem ref_gate (x0 : (⟨S64x4096x256, .f32⟩ : BufTy).Contents (Elt Ideal))
    (x1 : (⟨S256x32, .f32⟩ : BufTy).Contents (Elt Ideal)) (x2 : (⟨S32, .f32⟩ : BufTy).Contents (Elt Ideal))
    (x3 : (⟨S32x256, .f32⟩ : BufTy).Contents (Elt Ideal)) (x4 : (⟨S256, .f32⟩ : BufTy).Contents (Elt Ideal))
    (b : Fin 64) (c : Fin 256) :
    val_main_v17 (F := Ideal) x0 x1 x2 x3 x4 (ix2 b c) = gate x0 x1 x2 x3 x4 b c := by
  rw [val_main_v17_apply, val_main_v16_apply, val_main_cst_2_apply, val_main_v15_apply, val_main_v14_apply,
    val_main_cst_1_apply, val_main_v13_apply, val_main_v12_apply, val_main_v11_apply, val_main_v8_apply,
    val_main_v10_apply, val_main_v9_apply]
  have el : ∀ k : Fin 32, lidx_main_v8 (ix2 b c) k = ix2 b k := fun k =>
    funext fun a => Fin.ext (by match a with | ⟨0, _⟩ => rfl | ⟨1, _⟩ => rfl)
  have er : ∀ k : Fin 32, ridx_main_v8 (ix2 b c) k = ix2 k c := fun k =>
    funext fun a => Fin.ext (by match a with | ⟨0, _⟩ => rfl | ⟨1, _⟩ => rfl)
  have eb : idx_main_v9 (idx_main_v10 (ix2 b c)) = ix1 c :=
    funext fun a => Fin.ext (by match a with | ⟨0, _⟩ => rfl)
  simp only [el, er, eb, ref_hidden]
  rw [Ideal.hostDivf_def, Ideal.addf_def, Ideal.hostUnary_exp_def, Ideal.hostNegf_def, Ideal.negf_def,
    Ideal.addf_def, Ideal.ofBits_def, word_one]
  rfl

/-- The reference's result is the specification's function. -/
theorem ref_eq (x0 : (⟨S64x4096x256, .f32⟩ : BufTy).Contents (Elt Ideal))
    (x1 : (⟨S256x32, .f32⟩ : BufTy).Contents (Elt Ideal)) (x2 : (⟨S32, .f32⟩ : BufTy).Contents (Elt Ideal))
    (x3 : (⟨S32x256, .f32⟩ : BufTy).Contents (Elt Ideal)) (x4 : (⟨S256, .f32⟩ : BufTy).Contents (Elt Ideal)) :
    val_main_v20 (F := Ideal) x0 x1 x2 x3 x4 = G x0 x1 x2 x3 x4 := by
  funext i
  obtain ⟨b, k, c, rfl⟩ : ∃ (b : Fin 64) (k : Fin 4096) (c : Fin 256), i = ix3 b k c :=
    ⟨i 0, i 1, i 2, eq_ix3 i⟩
  rw [val_main_v20_apply, val_main_v19_apply, val_main_v18_apply, G_apply, Ideal.mulf_def]
  have e : idx_main_v18 (idx_main_v19 (ix3 b k c)) = ix2 b c :=
    funext fun a => Fin.ext (by match a with | ⟨0, _⟩ => rfl | ⟨1, _⟩ => rfl)
  rw [e, ref_gate]

end Cert.SEGate

end
-- ==== Proof.Claims.lean ====
/-
  The five claims, assembled.

  The idealized kernel's run ends with the result buffer at the gate-scaled activations `G` of the launch
  arguments (the bias rows the first call reads are the host's one-row recasts of the bias vectors), and the
  idealized reference's run ends with its result at the same `G`: both programs, from memories that agree on the
  arguments, leave equal results. The three frames: each program runs to the end without a fault and leaves its
  arguments as launched — the two kernel programs by the run over their two calls, the reference by its run
  with the result dropped. The idealization rewrote nothing, so there is nothing to preserve.
-/
import proofs.«167597_j27084063768970_2_alg».proof.Defs
import proofs.«167597_j27084063768970_2_alg».proof.Proof.ValueIdeal
import proofs.«167597_j27084063768970_2_alg».proof.Proof.WWholeRun
import proofs.«167597_j27084063768970_2_alg».proof.Proof.RefSide
import proofs.«167597_j27084063768970_2_alg».proof.Proof.Gen.ReferenceIdeal.Run
import proofs.«167597_j27084063768970_2_alg».proof.Proof.Gen.ReferenceIdeal.Read
import proofs.«167597_j27084063768970_2_alg».proof.Proof.Gen.Pre_finite_inputs
import Idealize.ShloMosaic.Lib.StableHlo.Run
import Idealize.ShloMosaic.Lib.ValueLayout

set_option maxRecDepth 16384

noncomputable section

namespace Cert.KernelIdeal.Fr

open Cert.KernelIdeal Cert.KernelIdeal.Gen Cert.SEGate
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-! ## The bias rows the first call reads -/

/-- The first bias row is the first bias vector recast [32] → [1, 32]. -/
theorem bias1_row (c : Dev nD) (u : Fin 1) (h : Fin 32) :
    E1 m c main_v0 (ix2 u h) = m ((c : Thread nD τ).loc main_arg2) (ix1 h) := by
  have e : (E1 m c main_v0 : S1x32.Idx → EReal) = shapeCast S1x32 (m ((c : Thread nD τ).loc main_arg2)) shapeCasts_S32_S1x32 := by
    show StableHlo.after hostOps0 (W0 m c) (Proc.devRef .tc main_v0) = _
    after_results; rfl
  rw [e]; exact shapeCast_a_1a_apply _ _ u h

/-- The second bias row is the second bias vector recast [256] → [1, 256]. -/
theorem bias2_row (c : Dev nD) (u : Fin 1) (ch : Fin 256) :
    E1 m c main_v1 (ix2 u ch) = m ((c : Thread nD τ).loc main_arg4) (ix1 ch) := by
  have e : (E1 m c main_v1 : S1x256.Idx → EReal) = shapeCast S1x256 (m ((c : Thread nD τ).loc main_arg4)) shapeCasts_S256_S1x256 := by
    show StableHlo.after hostOps0 (W0 m c) (Proc.devRef .tc main_v1) = _
    after_results; rfl
  rw [e]; exact shapeCast_a_1a_apply _ _ u ch

/-! ## The result -/

/-- At the end of the run the result buffer holds `G` of the launch arguments. -/
theorem result_value (c : Dev nD) :
    W3 m c (Proc.devRef .tc main_v3) = G (m ((c : Thread nD τ).loc main_arg0)) (m ((c : Thread nD τ).loc main_arg1))
      (m ((c : Thread nD τ).loc main_arg2)) (m ((c : Thread nD τ).loc main_arg3)) (m ((c : Thread nD τ).loc main_arg4)) := by
  have h0 : E1 m c main_arg0 = m ((c : Thread nD τ).loc main_arg0) := W1_main_arg0 m c
  have h1 : E1 m c main_arg1 = m ((c : Thread nD τ).loc main_arg1) := W1_main_arg1 m c
  have h3 : E1 m c main_arg3 = m ((c : Thread nD τ).loc main_arg3) := W1_main_arg3 m c
  have hg := gate_array (E1 m) c (m ((c : Thread nD τ).loc main_arg2)) (m ((c : Thread nD τ).loc main_arg4))
    (bias1_row m c 0) (bias2_row m c 0)
  rw [h0, h1, h3] at hg
  exact (W3_main_v3 m c).trans (scaled_array (E2 m) c _ _ _ _ _ (W2_main_arg0 m c) ((E2_main_v2 m c).trans hg))

/-- THE VALUE RUN of the idealized kernel: it terminates without a fault, its result is `G` of the arguments
    and the arguments end as launched. -/
theorem value_run : θ_run defs (onTc (τ := τ) (main (F := Ideal))) ⟨m, fun _ => 0, ρ⟩ (fun r => ∀ c : Dev nD,
      r.2.mem ((c.tc : Thread nD τ).loc main_v3) = G (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v3 (by decide))).trans (result_value m c),
      (h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c)⟩) (runs m ρ)

end Cert.KernelIdeal.Fr

/-! ## The claims -/

namespace Cert.Proof.Claims

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨_, Cert.KernelIdeal.Fr.value_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v20_eq _ _ _ _ _).trans (Cert.SEGate.ref_eq _ _ _ _ _)

end Cert.Proof.Claims

end
-- ==== Proof.lean ====
/-
  The proof of `Cert.Claim` for the squeeze-and-excite gate kernel against its jnp reference.

  The kernel pools the activations over the sequence axis in sixteen tiles per shard of 32 batch rows,
  keeping the running sum in a scratch buffer; at the last tile it forms the mean (a product with the dyadic
  2⁻¹²), the hidden layer and the logistic gate, and a second call scales the activations by the gate. The
  reference takes the mean as one sum divided by 4096 and spells the logistic function out. On the extended
  reals both are the one function `Cert.SEGate.G`: a sum may be regrouped into its tiles, dividing by 4096
  is multiplying by 1/4096, and the logistic function is 1 / (1 + exp (−x)) by definition.
  Proof/Spec.lean states `G`; Proof/RefSide.lean shows the reference computes it; Proof/PoolRuns … WholeRun
  (and their word-level twins) run the two calls and give the frames; Proof/PoolPieces, Payloads, PoolSum,
  BlockReads and ValueIdeal read the kernel's result as `G`; Proof/Claims.lean assembles the five claims.
-/
import proofs.«167597_j27084063768970_2_alg».proof.Defs
import proofs.«167597_j27084063768970_2_alg».proof.Proof.Claims
import proofs.«167597_j27084063768970_2_alg».proof.Proof.Gen.Kernel
import proofs.«167597_j27084063768970_2_alg».proof.Proof.Gen.KernelIdeal
import proofs.«167597_j27084063768970_2_alg».proof.Proof.Gen.ReferenceIdeal
import proofs.«167597_j27084063768970_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
